-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x37 : Shape := ⟨2, ![100000, 37]⟩
abbrev S2x3200000 : Shape := ⟨2, ![2, 3200000]⟩
abbrev S3200000 : Shape := ⟨1, ![3200000]⟩
abbrev S37x16 : Shape := ⟨2, ![37, 16]⟩
abbrev S16 : Shape := ⟨1, ![16]⟩
abbrev S16x2 : Shape := ⟨2, ![16, 2]⟩
abbrev S2 : Shape := ⟨1, ![2]⟩
abbrev S_ : Shape := ⟨0, ![]⟩

class Facts : Prop where
  bcast_S_S100000x37 : S_.BroadcastsInDim S100000x37 (![] : Fin 0 → Fin S100000x37.rank)
  reducesTo_S100000x37_S_d0_1 : S100000x37.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S37x16 : S_.BroadcastsInDim S37x16 (![] : Fin 0 → Fin S37x16.rank)
  reducesTo_S37x16_S_d0_1 : S37x16.ReducesTo [0, 1] S_
  bcast_S_S16 : S_.BroadcastsInDim S16 (![] : Fin 0 → Fin S16.rank)
  reducesTo_S16_S_d0 : S16.ReducesTo [0] S_
  bcast_S_S16x2 : S_.BroadcastsInDim S16x2 (![] : Fin 0 → Fin S16x2.rank)
  reducesTo_S16x2_S_d0_1 : S16x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S16x2 .f32) (main_arg6 : FVec F S2 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x2 .f32 := Host.absf main_arg5
  let main_cst_6 : FVec F S_ .f32 := constant S_ .f32 0x7F800000#32
  let main_v20 : FVec F S16x2 .f32 := broadcastInDim S16x2 ![] bcast_S_S16x2 main_cst_6
  let main_v21 : IVec S16x2 1 := cmpf .olt main_v19 main_v20
  let main_c_7 : IVec S_ 1 := constantI S_ 1 1#1
  let main_v22 : IVec S_ 1 := (fun x v => Host.reduce IntOp.andi x v reducesTo_S16x2_S_d0_1 h_S_) main_v21 main_c_7
  let main_v23 : IVec S_ 1 := andi main_v18 main_v22
  let main_v24 : FVec F S2 .f32 := Host.absf main_arg6
  let main_cst_8 : FVec F S_ .f32 := constant S_ .f32 0x7F800000#32
  let main_v25 : FVec F S2 .f32 := broadcastInDim S2 ![] bcast_S_S2 main_cst_8
  let main_v26 : IVec S2 1 := cmpf .olt main_v24 main_v25
  let main_c_9 : IVec S_ 1 := constantI S_ 1 1#1
  let main_v27 : IVec S_ 1 := (fun x v => Host.reduce IntOp.andi x v reducesTo_S2_S_d0 h_S_) main_v26 main_c_9
  let main_v28 : IVec S_ 1 := andi main_v23 main_v27
  main_v28

def fn {F : FTy → Type} [FloatOps F] (main_arg0 : FVec F S100000x37 .f32) (main_arg1 : IVec S2x3200000 32) (main_arg2 : FVec F S3200000 .f32) (main_arg3 : FVec F S37x16 .f32) (main_arg4 : FVec F S16 .f32) (main_arg5 : FVec F S16x2 .f32) (main_arg6 : FVec F S2 .f32) : IVec S_ 1 :=
  let main_v0 : FVec F S100000x37 .f32 := Host.absf main_arg0
  let main_cst : FVec F S_ .f32 := constant S_ .f32 0x7F800000#32
  let main_v1 : FVec F S100000x37 .f32 := broadcastInDim S100000x37 ![] bcast_S_S100000x37 main_cst
  let main_v2 : IVec S100000x37 1 := cmpf .olt main_v0 main_v1
  let main_c : IVec S_ 1 := constantI S_ 1 1#1
  let main_v3 : IVec S_ 1 := (fun x v => Host.reduce IntOp.andi x v reducesTo_S100000x37_S_d0_1 h_S_) main_v2 main_c
  let main_v4 : FVec F S3200000 .f32 := Host.absf main_arg2
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S37x16 .f32 := Host.absf main_arg3
  let main_cst_2 : FVec F S_ .f32 := constant S_ .f32 0x7F800000#32
  let main_v10 : FVec F S37x16 .f32 := broadcastInDim S37x16 ![] bcast_S_S37x16 main_cst_2
  let main_v11 : IVec S37x16 1 := cmpf .olt main_v9 main_v10
  let main_c_3 : IVec S_ 1 := constantI S_ 1 1#1
  let main_v12 : IVec S_ 1 := (fun x v => Host.reduce IntOp.andi x v reducesTo_S37x16_S_d0_1 h_S_) main_v11 main_c_3
  let main_v13 : IVec S_ 1 := andi main_v8 main_v12
  let main_v14 : FVec F S16 .f32 := Host.absf main_arg4
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg5 main_arg6 main_v13 main_v16
-- ==== Kernel.lean ====
abbrev S100000x37 : Shape := ⟨2, ![100000, 37]⟩
abbrev S2x3200000 : Shape := ⟨2, ![2, 3200000]⟩
abbrev S3200000 : Shape := ⟨1, ![3200000]⟩
abbrev S37x16 : Shape := ⟨2, ![37, 16]⟩
abbrev S16 : Shape := ⟨1, ![16]⟩
abbrev S16x2 : Shape := ⟨2, ![16, 2]⟩
abbrev S2 : Shape := ⟨1, ![2]⟩
abbrev S100000 : Shape := ⟨1, ![100000]⟩
abbrev S1x3200000 : Shape := ⟨2, ![1, 3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S10000x37 : Shape := ⟨2, ![10000, 37]⟩
abbrev S10000x16 : Shape := ⟨2, ![10000, 16]⟩
abbrev S3300000x16 : Shape := ⟨2, ![3300000, 16]⟩
abbrev S1x16 : Shape := ⟨2, ![1, 16]⟩
abbrev S100000x2 : Shape := ⟨2, ![100000, 2]⟩
abbrev S10000x2 : Shape := ⟨2, ![10000, 2]⟩
abbrev S3300000x2 : Shape := ⟨2, ![3300000, 2]⟩
abbrev S1x2 : Shape := ⟨2, ![1, 2]⟩
abbrev S10000 : Shape := ⟨1, ![10000]⟩
abbrev S10000x1 : Shape := ⟨2, ![10000, 1]⟩

abbrev nBuf : Space → Nat
  | .hbm => 86
  | .vmem => 16
  | .smem => 0
  | _ => 0

abbrev bufTy : (tb : Table) → Fin (tcTables nBuf tb) → BufTy
  | .hbm, ⟨0, _⟩ => ⟨S100000x37, .f32⟩
  | .hbm, ⟨1, _⟩ => ⟨S2x3200000, .i32⟩
  | .hbm, ⟨2, _⟩ => ⟨S3200000, .f32⟩
  | .hbm, ⟨3, _⟩ => ⟨S37x16, .f32⟩
  | .hbm, ⟨4, _⟩ => ⟨S16, .f32⟩
  | .hbm, ⟨5, _⟩ => ⟨S16x2, .f32⟩
  | .hbm, ⟨6, _⟩ => ⟨S2, .f32⟩
  | .hbm, ⟨7, _⟩ => ⟨S100000, .i32⟩
  | .hbm, ⟨8, _⟩ => ⟨S1x3200000, .i32⟩
  | .hbm, ⟨9, _⟩ => ⟨S3200000, .i32⟩
  | .hbm, ⟨10, _⟩ => ⟨S3300000, .i32⟩
  | .hbm, ⟨11, _⟩ => ⟨S1x3200000, .i32⟩
  | .hbm, ⟨12, _⟩ => ⟨S3200000, .i32⟩
  | .hbm, ⟨13, _⟩ => ⟨S3300000, .i32⟩
  | .hbm, ⟨14, _⟩ => ⟨S_, .f32⟩
  | .hbm, ⟨15, _⟩ => ⟨S100000, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S3300000, .f32⟩
  | .hbm, ⟨39, _⟩ => ⟨S_, .i32⟩
  | .hbm, ⟨40, _⟩ => ⟨S3300000, .i32⟩
  | .hbm, ⟨41, _⟩ => ⟨S3300000, .i1⟩
  | .hbm, ⟨42, _⟩ => ⟨S_, .i32⟩
  | .hbm, ⟨43, _⟩ => ⟨S3300000, .i32⟩
  | .hbm, ⟨44, _⟩ => ⟨S3300000, .i32⟩
  | .hbm, ⟨45, _⟩ => ⟨S3300000, .i32⟩
  | .hbm, ⟨46, _⟩ => ⟨S3300000x1, .i32⟩
  | .hbm, ⟨47, _⟩ => ⟨S3300000, .f32⟩
  | .hbm, ⟨48, _⟩ => ⟨S3300000, .f32⟩
  | .hbm, ⟨49, _⟩ => ⟨S100000x16, .f32⟩
  | .hbm, ⟨50, _⟩ => ⟨S3300000x1, .f32⟩
  | .hbm, ⟨51, _⟩ => ⟨S_, .i32⟩
  | .hbm, ⟨52, _⟩ => ⟨S3300000, .i32⟩
  | .hbm, ⟨53, _⟩ => ⟨S3300000, .i1⟩
  | .hbm, ⟨54, _⟩ => ⟨S_, .i32⟩
  | .hbm, ⟨55, _⟩ => ⟨S3300000, .i32⟩
  | .hbm, ⟨56, _⟩ => ⟨S3300000, .i32⟩
  | .hbm, ⟨57, _⟩ => ⟨S3300000, .i32⟩
  | .hbm, ⟨58, _⟩ => ⟨S3300000x1, .i32⟩
  | .hbm, ⟨59, _⟩ => ⟨S3300000x16, .f32⟩
  | .hbm, ⟨60, _⟩ => ⟨S3300000x16, .f32⟩
  | .hbm, ⟨61, _⟩ => ⟨S3300000x16, .f32⟩
  | .hbm, ⟨62, _⟩ => ⟨S_, .f32⟩
  | .hbm, ⟨63, _⟩ => ⟨S100000x16, .f32⟩
  | .hbm, ⟨64, _⟩ => ⟨S3300000x1, .i32⟩
  | .hbm, ⟨65, _⟩ => ⟨S100000x16, .f32⟩
  | .hbm, ⟨66, _⟩ => ⟨S1x16, .f32⟩
  | .hbm, ⟨67, _⟩ => ⟨S100000x2, .f32⟩
  | .hbm, ⟨68, _⟩ => ⟨S3300000x1, .f32⟩
  | .hbm, ⟨69, _⟩ => ⟨S_, .i32⟩
  | .hbm, ⟨70, _⟩ => ⟨S3300000, .i32⟩
  | .hbm, ⟨71, _⟩ => ⟨S3300000, .i1⟩
  | .hbm, ⟨72, _⟩ => ⟨S_, .i32⟩
  | .hbm, ⟨73, _⟩ => ⟨S3300000, .i32⟩
  | .hbm, ⟨74, _⟩ => ⟨S3300000, .i32⟩
  | .hbm, ⟨75, _⟩ => ⟨S3300000, .i32⟩
  | .hbm, ⟨76, _⟩ => ⟨S3300000x1, .i32⟩
  | .hbm, ⟨77, _⟩ => ⟨S3300000x2, .f32⟩
  | .hbm, ⟨78, _⟩ => ⟨S3300000x2, .f32⟩
  | .hbm, ⟨79, _⟩ => ⟨S3300000x2, .f32⟩
  | .hbm, ⟨80, _⟩ => ⟨S_, .f32⟩
  | .hbm, ⟨81, _⟩ => ⟨S100000x2, .f32⟩
  | .hbm, ⟨82, _⟩ => ⟨S3300000x1, .i32⟩
  | .hbm, ⟨83, _⟩ => ⟨S100000x2, .f32⟩
  | .hbm, ⟨84, _⟩ => ⟨S1x2, .f32⟩
  | .hbm, ⟨85, _⟩ => ⟨S100000x2, .f32⟩
  | .local _ .vmem, ⟨0, _⟩ => ⟨S10000x37, .f32⟩
  | .local _ .vmem, ⟨1, _⟩ => ⟨S10000x37, .f32⟩
  | .local _ .vmem, ⟨2, _⟩ => ⟨S37x16, .f32⟩
  | .local _ .vmem, ⟨3, _⟩ => ⟨S10000x16, .f32⟩
  | .local _ .vmem, ⟨4, _⟩ => ⟨S10000x16, .f32⟩
  | .local _ .vmem, ⟨5, _⟩ => ⟨S10000x16, .f32⟩
  | .local _ .vmem, ⟨6, _⟩ => ⟨S10000x16, .f32⟩
  | .local _ .vmem, ⟨7, _⟩ => ⟨S1x16, .f32⟩
  | .local _ .vmem, ⟨8, _⟩ => ⟨S16x2, .f32⟩
  | .local _ .vmem, ⟨9, _⟩ => ⟨S10000x2, .f32⟩
  | .local _ .vmem, ⟨10, _⟩ => ⟨S10000x2, .f32⟩
  | .local _ .vmem, ⟨11, _⟩ => ⟨S10000x2, .f32⟩
  | .local _ .vmem, ⟨12, _⟩ => ⟨S10000x2, .f32⟩
  | .local _ .vmem, ⟨13, _⟩ => ⟨S1x2, .f32⟩
  | .local _ .vmem, ⟨14, _⟩ => ⟨S10000x2, .f32⟩
  | .local _ .vmem, ⟨15, _⟩ => ⟨S10000x2, .f32⟩
  | _, _ => ⟨S100000x37, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_9 : Ref sig .tc := ⟨.hbm, 69, rfl⟩
abbrev main_v49 : Ref sig .tc := ⟨.hbm, 70, rfl⟩
abbrev main_v50 : Ref sig .tc := ⟨.hbm, 71, rfl⟩
abbrev main_c_10 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_11 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x37 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S37x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x2 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x2 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x2 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x2 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x2 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  inb_S10000x37_S10000x37_0_0 : ∀ a, (![0, 0] : Fin 2 → Nat) a + S10000x37.size a ≤ S10000x37.size a
  h_S10000x37 : 0 < S10000x37.numel
  bitsLt_bf16_f32 : FTy.bits .bf16 < FTy.bits .f32
  inb_S37x16_S37x16_0_0 : ∀ a, (![0, 0] : Fin 2 → Nat) a + S37x16.size a ≤ S37x16.size a
  h_S37x16 : 0 < S37x16.numel
  inb_S10000x16_S10000x16_0_0 : ∀ a, (![0, 0] : Fin 2 → Nat) a + S10000x16.size a ≤ S10000x16.size a
  h_S10000x16 : 0 < S10000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S16_S1x16 : S16.ShapeCasts S1x16
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S16x2_S16x2_0_0 : ∀ a, (![0, 0] : Fin 2 → Nat) a + S16x2.size a ≤ S16x2.size a
  h_S16x2 : 0 < S16x2.numel
  inb_S10000x2_S10000x2_0_0 : ∀ a, (![0, 0] : Fin 2 → Nat) a + S10000x2.size a ≤ S10000x2.size a
  h_S10000x2 : 0 < S10000x2.numel
  bcast_S3300000x1_S3300000x2_0_1 : S3300000x1.BroadcastsInDim S3300000x2 (![0, 1] : Fin 2 → Fin S3300000x2.rank)
  bcast_S_S100000x2 : S_.BroadcastsInDim S100000x2 (![] : Fin 0 → Fin S100000x2.rank)
  shapeCasts_S2_S1x2 : S2.ShapeCasts S1x2
  shapeCasts_S10000x2_S10000x2 : S10000x2.ShapeCasts S10000x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S10000x2 : S1x2.Broadcasts S10000x2
  reduces_S10000x2_S10000 : S10000x2.Reduces [1] S10000
  shapeCasts_S10000_S10000x1 : S10000.ShapeCasts S10000x1
  broadcasts_S10000x1_S10000x2 : S10000x1.Broadcasts S10000x2
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x37_S37x16_S10000x16_1_0_0_1_n_n_wf : DotDims.WF S10000x37 S37x16 S10000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S10000x16_S16x2_S10000x2_1_0_0_1_n_n_wf : DotDims.WF S10000x16 S16x2 S10000x2 [1] [0] [0] [1] [] []
  gather_S100000x2_S3300000x1_S3300000x2_1_0_n_n_0_1_12_wf : GatherDims.WF S100000x2 S3300000x1 S3300000x2 [1] [0] [] [0] [] 1 ![1, 2]
  scatter_S100000x2_S3300000x1_S3300000x2_1_0_0_1_wf : ScatterDims.WF S100000x2 S3300000x1 S3300000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x37.size a ≤ S100000x37.size a
  hwx0_0 : ∀ i : grid0.Coords, EltTy.bits .f32 = 32 ∨ (Rect.block (s := S100000x37) S10000x37.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S37x16.size a ≤ S37x16.size a
  hwx0_1 : ∀ i : grid0.Coords, EltTy.bits .f32 = 32 ∨ (Rect.block (s := S37x16) S37x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x16.size a ≤ S100000x16.size a
  hwx0_2 : ∀ i : grid0.Coords, EltTy.bits .f32 = 32 ∨ (Rect.block (s := S100000x16) S10000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x2.size a ≤ S16x2.size a
  hwx1_2 : ∀ i : grid1.Coords, EltTy.bits .f32 = 32 ∨ (Rect.block (s := S16x2) S16x2.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x2.size a ≤ S100000x2.size a
  hwx1_3 : ∀ i : grid1.Coords, EltTy.bits .f32 = 32 ∨ (Rect.block (s := S100000x2) S10000x2.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x2.size a ≤ S100000x2.size a
  hwx2_0 : ∀ i : grid2.Coords, EltTy.bits .f32 = 32 ∨ (Rect.block (s := S100000x2) S10000x2.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x2.size a ≤ S1x2.size a
  hwx2_1 : ∀ i : grid2.Coords, EltTy.bits .f32 = 32 ∨ (Rect.block (s := S1x2) S1x2.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x2.size a ≤ S100000x2.size a
  hwx2_2 : ∀ i : grid2.Coords, EltTy.bits .f32 = 32 ∨ (Rect.block (s := S100000x2) S10000x2.size (cc2_transform_2 i) (hinb2_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x37_S37x16_S10000x16_1_0_0_1_n_n : DotDims S10000x37 S37x16 S10000x16 where
  lhsContracting := [1]
  rhsContracting := [0]
  lhsNonContracting := [0]
  rhsNonContracting := [1]
  lhsBatch := []
  rhsBatch := []
  wf := dot_S10000x37_S37x16_S10000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S10000x16_S16x2_S10000x2_1_0_0_1_n_n : DotDims S10000x16 S16x2 S10000x2 where
  lhsContracting := [1]
  rhsContracting := [0]
  lhsNonContracting := [0]
  rhsNonContracting := [1]
  lhsBatch := []
  rhsBatch := []
  wf := dot_S10000x16_S16x2_S10000x2_1_0_0_1_n_n_wf
def gather_S100000x2_S3300000x1_S3300000x2_1_0_n_n_0_1_12 : GatherDims S100000x2 S3300000x1 S3300000x2 where
  offsetDims := [1]
  collapsedSliceDims := [0]
  operandBatchingDims := []
  startIndicesBatchingDims := []
  startIndexMap := [0]
  indexVectorDim := 1
  sliceSizes := ![1, 2]
  wf := gather_S100000x2_S3300000x1_S3300000x2_1_0_n_n_0_1_12_wf
def scatter_S100000x2_S3300000x1_S3300000x2_1_0_0_1 : ScatterDims S100000x2 S3300000x1 S3300000x2 where
  updateWindowDims := [1]
  insertedWindowDims := [0]
  scatterDimsToOperandDims := [0]
  indexVectorDim := 1
  wf := scatter_S100000x2_S3300000x1_S3300000x2_1_0_0_1_wf

abbrev win0_0 : Pipeline.Window sig grid0 :=
  Pipeline.Window.ofSpec (Memref.whole main_arg0) S10000x37.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S37x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S16x2.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S10000x2.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v60) S10000x2.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S1x2.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v62) S10000x2.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x37 : Shape := ⟨2, ![100000, 37]⟩
abbrev S2x3200000 : Shape := ⟨2, ![2, 3200000]⟩
abbrev S3200000 : Shape := ⟨1, ![3200000]⟩
abbrev S37x16 : Shape := ⟨2, ![37, 16]⟩
abbrev S16 : Shape := ⟨1, ![16]⟩
abbrev S16x2 : Shape := ⟨2, ![16, 2]⟩
abbrev S2 : Shape := ⟨1, ![2]⟩
abbrev S100000 : Shape := ⟨1, ![100000]⟩
abbrev S1x3200000 : Shape := ⟨2, ![1, 3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x2 : Shape := ⟨2, ![100000, 2]⟩
abbrev S3300000x2 : Shape := ⟨2, ![3300000, 2]⟩
abbrev S1x2 : Shape := ⟨2, ![1, 2]⟩
abbrev S100000x1 : Shape := ⟨2, ![100000, 1]⟩

abbrev nBuf : Space → Nat
  | .hbm => 107
  | .vmem => 0
  | .smem => 0
  | _ => 0

abbrev bufTy : (tb : Table) → Fin (tcTables nBuf tb) → BufTy
  | .hbm, ⟨0, _⟩ => ⟨S100000x37, .f32⟩
  | .hbm, ⟨1, _⟩ => ⟨S2x3200000, .i32⟩
  | .hbm, ⟨2, _⟩ => ⟨S3200000, .f32⟩
  | .hbm, ⟨3, _⟩ => ⟨S37x16, .f32⟩
  | .hbm, ⟨4, _⟩ => ⟨S16, .f32⟩
  | .hbm, ⟨5, _⟩ => ⟨S16x2, .f32⟩
  | .hbm, ⟨6, _⟩ => ⟨S2, .f32⟩
  | .hbm, ⟨7, _⟩ => ⟨S100000, .i32⟩
  | .hbm, ⟨8, _⟩ => ⟨S1x3200000, .i32⟩
  | .hbm, ⟨9, _⟩ => ⟨S3200000, .i32⟩
  | .hbm, ⟨10, _⟩ => ⟨S3300000, .i32⟩
  | .hbm, ⟨11, _⟩ => ⟨S1x3200000, .i32⟩
  | .hbm, ⟨12, _⟩ => ⟨S3200000, .i32⟩
  | .hbm, ⟨13, _⟩ => ⟨S3300000, .i32⟩
  | .hbm, ⟨14, _⟩ => ⟨S_, .f32⟩
  | .hbm, ⟨15, _⟩ => ⟨S100000, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S3300000, .f32⟩
  | .hbm, ⟨39, _⟩ => ⟨S_, .i32⟩
  | .hbm, ⟨40, _⟩ => ⟨S3300000, .i32⟩
  | .hbm, ⟨41, _⟩ => ⟨S3300000, .i1⟩
  | .hbm, ⟨42, _⟩ => ⟨S_, .i32⟩
  | .hbm, ⟨43, _⟩ => ⟨S3300000, .i32⟩
  | .hbm, ⟨44, _⟩ => ⟨S3300000, .i32⟩
  | .hbm, ⟨45, _⟩ => ⟨S3300000, .i32⟩
  | .hbm, ⟨46, _⟩ => ⟨S3300000x1, .i32⟩
  | .hbm, ⟨47, _⟩ => ⟨S3300000, .f32⟩
  | .hbm, ⟨48, _⟩ => ⟨S3300000, .f32⟩
  | .hbm, ⟨49, _⟩ => ⟨S100000x16, .f32⟩
  | .hbm, ⟨50, _⟩ => ⟨S3300000x1, .f32⟩
  | .hbm, ⟨51, _⟩ => ⟨S_, .i32⟩
  | .hbm, ⟨52, _⟩ => ⟨S3300000, .i32⟩
  | .hbm, ⟨53, _⟩ => ⟨S3300000, .i1⟩
  | .hbm, ⟨54, _⟩ => ⟨S_, .i32⟩
  | .hbm, ⟨55, _⟩ => ⟨S3300000, .i32⟩
  | .hbm, ⟨56, _⟩ => ⟨S3300000, .i32⟩
  | .hbm, ⟨57, _⟩ => ⟨S3300000, .i32⟩
  | .hbm, ⟨58, _⟩ => ⟨S3300000x1, .i32⟩
  | .hbm, ⟨59, _⟩ => ⟨S3300000x16, .f32⟩
  | .hbm, ⟨60, _⟩ => ⟨S3300000x16, .f32⟩
  | .hbm, ⟨61, _⟩ => ⟨S3300000x16, .f32⟩
  | .hbm, ⟨62, _⟩ => ⟨S_, .f32⟩
  | .hbm, ⟨63, _⟩ => ⟨S100000x16, .f32⟩
  | .hbm, ⟨64, _⟩ => ⟨S3300000x1, .i32⟩
  | .hbm, ⟨65, _⟩ => ⟨S100000x16, .f32⟩
  | .hbm, ⟨66, _⟩ => ⟨S1x16, .f32⟩
  | .hbm, ⟨67, _⟩ => ⟨S100000x16, .f32⟩
  | .hbm, ⟨68, _⟩ => ⟨S100000x16, .f32⟩
  | .hbm, ⟨69, _⟩ => ⟨S_, .f32⟩
  | .hbm, ⟨70, _⟩ => ⟨S100000x16, .f32⟩
  | .hbm, ⟨71, _⟩ => ⟨S100000x16, .f32⟩
  | .hbm, ⟨72, _⟩ => ⟨S100000x2, .f32⟩
  | .hbm, ⟨73, _⟩ => ⟨S3300000x1, .f32⟩
  | .hbm, ⟨74, _⟩ => ⟨S_, .i32⟩
  | .hbm, ⟨75, _⟩ => ⟨S3300000, .i32⟩
  | .hbm, ⟨76, _⟩ => ⟨S3300000, .i1⟩
  | .hbm, ⟨77, _⟩ => ⟨S_, .i32⟩
  | .hbm, ⟨78, _⟩ => ⟨S3300000, .i32⟩
  | .hbm, ⟨79, _⟩ => ⟨S3300000, .i32⟩
  | .hbm, ⟨80, _⟩ => ⟨S3300000, .i32⟩
  | .hbm, ⟨81, _⟩ => ⟨S3300000x1, .i32⟩
  | .hbm, ⟨82, _⟩ => ⟨S3300000x2, .f32⟩
  | .hbm, ⟨83, _⟩ => ⟨S3300000x2, .f32⟩
  | .hbm, ⟨84, _⟩ => ⟨S3300000x2, .f32⟩
  | .hbm, ⟨85, _⟩ => ⟨S_, .f32⟩
  | .hbm, ⟨86, _⟩ => ⟨S100000x2, .f32⟩
  | .hbm, ⟨87, _⟩ => ⟨S3300000x1, .i32⟩
  | .hbm, ⟨88, _⟩ => ⟨S100000x2, .f32⟩
  | .hbm, ⟨89, _⟩ => ⟨S1x2, .f32⟩
  | .hbm, ⟨90, _⟩ => ⟨S100000x2, .f32⟩
  | .hbm, ⟨91, _⟩ => ⟨S100000x2, .f32⟩
  | .hbm, ⟨92, _⟩ => ⟨S_, .f32⟩
  | .hbm, ⟨93, _⟩ => ⟨S100000, .f32⟩
  | .hbm, ⟨94, _⟩ => ⟨S_, .f32⟩
  | .hbm, ⟨95, _⟩ => ⟨S100000, .f32⟩
  | .hbm, ⟨96, _⟩ => ⟨S100000, .f32⟩
  | .hbm, ⟨97, _⟩ => ⟨S100000x1, .f32⟩
  | .hbm, ⟨98, _⟩ => ⟨S100000x2, .f32⟩
  | .hbm, ⟨99, _⟩ => ⟨S100000x2, .f32⟩
  | .hbm, ⟨100, _⟩ => ⟨S100000x2, .f32⟩
  | .hbm, ⟨101, _⟩ => ⟨S_, .f32⟩
  | .hbm, ⟨102, _⟩ => ⟨S100000, .f32⟩
  | .hbm, ⟨103, _⟩ => ⟨S100000x1, .f32⟩
  | .hbm, ⟨104, _⟩ => ⟨S100000x1, .f32⟩
  | .hbm, ⟨105, _⟩ => ⟨S100000x2, .f32⟩
  | .hbm, ⟨106, _⟩ => ⟨S100000x2, .f32⟩
  | _, _ => ⟨S100000x37, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_c_9 : Ref sig .tc := ⟨.hbm, 74, rfl⟩
abbrev main_v52 : Ref sig .tc := ⟨.hbm, 75, rfl⟩
abbrev main_v53 : Ref sig .tc := ⟨.hbm, 76, rfl⟩
abbrev main_c_10 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_11 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_call2_cst : Ref sig .tc := ⟨.hbm, 92, rfl⟩
abbrev main_call2_v0 : Ref sig .tc := ⟨.hbm, 93, rfl⟩
abbrev main_call2_cst_0 : Ref sig .tc := ⟨.hbm, 94, rfl⟩
abbrev main_call2_v1 : Ref sig .tc := ⟨.hbm, 95, rfl⟩
abbrev main_call2_v2 : Ref sig .tc := ⟨.hbm, 96, rfl⟩
abbrev main_call2_v3 : Ref sig .tc := ⟨.hbm, 97, rfl⟩
abbrev main_call2_v4 : Ref sig .tc := ⟨.hbm, 98, rfl⟩
abbrev main_call2_v5 : Ref sig .tc := ⟨.hbm, 99, rfl⟩
abbrev main_call2_v6 : Ref sig .tc := ⟨.hbm, 100, rfl⟩
abbrev main_call2_cst_1 : Ref sig .tc := ⟨.hbm, 101, rfl⟩
abbrev main_call2_v7 : Ref sig .tc := ⟨.hbm, 102, rfl⟩
abbrev main_call2_v8 : Ref sig .tc := ⟨.hbm, 103, rfl⟩
abbrev main_call2_v9 : Ref sig .tc := ⟨.hbm, 104, rfl⟩
abbrev main_call2_v10 : Ref sig .tc := ⟨.hbm, 105, rfl⟩
abbrev main_v67 : Ref sig .tc := ⟨.hbm, 106, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x2_0_1 : S3300000x1.BroadcastsInDim S3300000x2 (![0, 1] : Fin 2 → Fin S3300000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  reducesTo_S100000x2_S100000_d1 : S100000x2.ReducesTo [1] S100000
  h_S_ : 0 < S_.numel
  bcast_S100000_S100000x1_0 : S100000.BroadcastsInDim S100000x1 (![0] : Fin 1 → Fin S100000x1.rank)
  bcast_S100000x1_S100000x2_0_1 : S100000x1.BroadcastsInDim S100000x2 (![0, 1] : Fin 2 → Fin S100000x2.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x37_S37x16_S100000x16_1_0_0_1_n_n_wf : DotDims.WF S100000x37 S37x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x2_S100000x2_1_0_0_1_n_n_wf : DotDims.WF S100000x16 S16x2 S100000x2 [1] [0] [0] [1] [] []
  gather_S100000x2_S3300000x1_S3300000x2_1_0_n_n_0_1_12_wf : GatherDims.WF S100000x2 S3300000x1 S3300000x2 [1] [0] [] [0] [] 1 ![1, 2]
  scatter_S100000x2_S3300000x1_S3300000x2_1_0_0_1_wf : ScatterDims.WF S100000x2 S3300000x1 S3300000x2 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x37_S37x16_S100000x16_1_0_0_1_n_n : DotDims S100000x37 S37x16 S100000x16 where
  lhsContracting := [1]
  rhsContracting := [0]
  lhsNonContracting := [0]
  rhsNonContracting := [1]
  lhsBatch := []
  rhsBatch := []
  wf := dot_S100000x37_S37x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x2_S100000x2_1_0_0_1_n_n : DotDims S100000x16 S16x2 S100000x2 where
  lhsContracting := [1]
  rhsContracting := [0]
  lhsNonContracting := [0]
  rhsNonContracting := [1]
  lhsBatch := []
  rhsBatch := []
  wf := dot_S100000x16_S16x2_S100000x2_1_0_0_1_n_n_wf
def gather_S100000x2_S3300000x1_S3300000x2_1_0_n_n_0_1_12 : GatherDims S100000x2 S3300000x1 S3300000x2 where
  offsetDims := [1]
  collapsedSliceDims := [0]
  operandBatchingDims := []
  startIndicesBatchingDims := []
  startIndexMap := [0]
  indexVectorDim := 1
  sliceSizes := ![1, 2]
  wf := gather_S100000x2_S3300000x1_S3300000x2_1_0_n_n_0_1_12_wf
def scatter_S100000x2_S3300000x1_S3300000x2_1_0_0_1 : ScatterDims S100000x2 S3300000x1 S3300000x2 where
  updateWindowDims := [1]
  insertedWindowDims := [0]
  scatterDimsToOperandDims := [0]
  indexVectorDim := 1
  wf := scatter_S100000x2_S3300000x1_S3300000x2_1_0_0_1_wf

class Facts : Prop extends Facts₀ where

variable [Facts]
-- ==== Proof.LibPlainDot.lean ====
/-
  A plain matrix product at the exact extended reals: for dimension numbers that contract the left operand's
  second axis against the right operand's first (no batch axis), the contraction sum at the output entry (p, q)
  is the sum over k of left (p, k) times right (k, q). From that, two readings of "rows times columns plus a row
  vector": a matrix unit's product into a zero accumulator with the vector re-laid as one row and repeated down the
  rows, and a host contraction with the vector broadcast in two steps. Both are the function `affine`. Also: the
  logistic function is one over one plus the exponential of the negated argument, on every extended real.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibPlainDot

open Idealize.ShloMosaic Idealize.ShloMosaic.ValueIdx

/-- The output entry (p, q) of rows-times-columns plus a row vector: the sum over k of x (p, k) · w (k, q), plus b q. -/
def affine {M K N : ℕ} (x : FVec Ideal ⟨2, ![M, K]⟩ .f32) (w : FVec Ideal ⟨2, ![K, N]⟩ .f32) (b : FVec Ideal ⟨1, ![N]⟩ .f32) :
    FVec Ideal ⟨2, ![M, N]⟩ .f32 :=
  fun i => (∑ k : Fin K, x (ix2 (n0 := M) (i 0) k) * w (ix2 (n1 := N) k (i 1))) + b (ix1 (n := N) (i 1))

theorem affine_apply {M K N : ℕ} (x : FVec Ideal ⟨2, ![M, K]⟩ .f32) (w : FVec Ideal ⟨2, ![K, N]⟩ .f32) (b : FVec Ideal ⟨1, ![N]⟩ .f32)
    (p : Fin M) (q : Fin N) : affine x w b (ix2 p q) = (∑ k : Fin K, x (ix2 p k) * w (ix2 k q)) + b (ix1 q) := rfl

/-- A block of T rows of `affine`: when x holds rows r … r + T − 1 of X, and w and b are W and B, the block's entry at y
    is `affine X W B` at the array index i whose row is r plus y's row and whose column is y's. -/
theorem affine_rows {M K N T : ℕ} (X : FVec Ideal ⟨2, ![M, K]⟩ .f32) (W : FVec Ideal ⟨2, ![K, N]⟩ .f32) (B : FVec Ideal ⟨1, ![N]⟩ .f32)
    (x : FVec Ideal ⟨2, ![T, K]⟩ .f32) (w : FVec Ideal ⟨2, ![K, N]⟩ .f32) (b : FVec Ideal ⟨1, ![N]⟩ .f32) (r : ℕ)
    (hx : ∀ (p : Fin T) (k : Fin K) (hp : r + p.val < M), x (ix2 p k) = X (ix2 ⟨r + p.val, hp⟩ k))
    (hw : ∀ z, w z = W z) (hb : ∀ z, b z = B z)
    (y : (⟨2, ![T, N]⟩ : Shape).Idx) (i : (⟨2, ![M, N]⟩ : Shape).Idx)
    (hi0 : (i 0).val = r + (y 0).val) (hi1 : (i 1).val = (y 1).val) :
    affine x w b y = affine X W B i := by
  obtain ⟨p, q, rfl⟩ : ∃ (p : Fin T) (q : Fin N), y = ix2 p q := ⟨y 0, y 1, eq_ix2 y⟩
  obtain ⟨p', q', rfl⟩ : ∃ (p' : Fin M) (q' : Fin N), i = ix2 p' q' := ⟨i 0, i 1, eq_ix2 i⟩
  have h0 : p'.val = r + p.val := hi0
  have h1 : q' = q := Fin.ext hi1
  subst h1
  have hp' : p' = ⟨r + p.val, h0 ▸ p'.isLt⟩ := Fin.ext h0
  rw [affine_apply, affine_apply, hb]
  refine congrArg (· + B (ix1 q')) (Finset.sum_congr rfl fun k _ => ?_)
  rw [hx p k (h0 ▸ p'.isLt), hw, ← hp']

/-- The contraction index of a plain product is its one coordinate, so the contraction sum is a sum over `Fin K`. -/
theorem plain_sum {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  simp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have c1 : D.lhsContracting = [1] := by subst hD; rfl
  have c2 : D.rhsContracting = [0] := by subst hD; rfl
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ =>
      subst hD
      unfold DotDims.lhsIdx
      split
      · rename_i hb; exact absurd hb List.not_mem_nil
      · split
        · rfl
        · rename_i hn; exact absurd (List.mem_singleton.mpr rfl) hn
    | ⟨1, _⟩ => exact (D.lhsIdx_val_of_single c1 _ _).trans hk)
  have er : D.rhsIdx (ix2 p q) ((contrEquiv1 D K hr hs).symm k) = ix2 k q := funext fun a => Fin.ext (by
    match a with
    | ⟨0, _⟩ => exact (D.rhsIdx_val_of_single c2 _ _).trans hk
    | ⟨1, _⟩ =>
      subst hD
      unfold DotDims.rhsIdx
      split
      · rename_i hb; exact absurd hb List.not_mem_nil
      · split
        · rfl
        · rename_i hn; exact absurd (List.mem_singleton.mpr rfl) hn)
  rw [el, er]

/-- A matrix unit's product of two operands narrowed to bf16 into a zero accumulator, plus a vector re-laid as one
    row and repeated down the rows: at (p, q) it is `affine`. Narrowing is the identity on exact values. -/
theorem matmul_bias_apply {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) (b : FVec Ideal ⟨1, ![N]⟩ .f32)
    (hb : FTy.bf16.bits < FTy.f32.bits)
    (hc : (⟨1, ![N]⟩ : Shape).ShapeCasts ⟨2, ![1, N]⟩) (hbc : (⟨2, ![1, N]⟩ : Shape).Broadcasts ⟨2, ![M, N]⟩)
    (p : Fin M) (q : Fin N) :
    addf (matmul d none (truncf .bf16 x hb) (truncf .bf16 w hb) (constant ⟨2, ![M, N]⟩ .f32 0x00000000#32))
        (broadcastTo ⟨2, ![M, N]⟩ (shapeCast ⟨2, ![1, N]⟩ b hc) hbc) (ix2 p q)
      = affine x w b (ix2 p q) := by
  rw [affine_apply, addf_apply, broadcastTo_1b_ab_apply, shapeCast_a_1a_apply]
  refine congrArg (· + b (ix1 q)) ?_
  refine (Ideal.matmul_constant_zero_apply d none _ _ (ix2 p q)).trans ?_
  exact plain_sum d h1 h2 h3 h4 h5 h6 x w p q

/-- A vector broadcast to one row reads, at (u, i), the vector at i. -/
theorem bcast_a_1a_apply {a : ℕ} (x : (⟨1, ![a]⟩ : Shape).Idx → EReal)
    (h : (⟨1, ![a]⟩ : Shape).BroadcastsInDim ⟨2, ![1, a]⟩ ![1]) (u : Fin 1) (i : Fin a) :
    broadcastInDim ⟨2, ![1, a]⟩ ![1] h x (ix2 u i) = x (ix1 i) :=
  broadcastInDim_apply _ h x _ _ (fun ax => match ax with
    | ⟨0, _⟩ => by
      show i.val = if a = 1 then 0 else i.val
      split
      · have := i.isLt; omega
      · rfl)

/-- One row broadcast down the rows reads, at (p, c), the row at c. -/
theorem bcast_1b_ab_apply {a b : ℕ} (v : (⟨2, ![1, b]⟩ : Shape).Idx → EReal)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) :=
  broadcastInDim_apply _ h v _ (ix2 (0 : Fin 1) c) (fun ax => match ax with
    | ⟨0, _⟩ => by
      show (0 : ℕ) = if (1 : ℕ) = 1 then 0 else p.val
      rw [if_pos rfl]
    | ⟨1, _⟩ => by
      show c.val = if b = 1 then 0 else c.val
      split
      · have := c.isLt; omega
      · rfl)

/-- A host contraction of the same kind plus the vector broadcast to one row and then down the rows: `affine`. -/
theorem dot_bias_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) (b : FVec Ideal ⟨1, ![N]⟩ .f32)
    (hr : (⟨1, ![N]⟩ : Shape).BroadcastsInDim ⟨2, ![1, N]⟩ ![1])
    (hbc : (⟨2, ![1, N]⟩ : Shape).BroadcastsInDim ⟨2, ![M, N]⟩ ![0, 1]) :
    addf (Host.dotGeneral (F := Ideal) d none x w)
        (broadcastInDim ⟨2, ![M, N]⟩ ![0, 1] hbc (broadcastInDim ⟨2, ![1, N]⟩ ![1] hr b))
      = affine x w b := by
  funext j
  obtain ⟨p, q, rfl⟩ : ∃ (p : Fin M) (q : Fin N), j = ix2 p q := ⟨j 0, j 1, eq_ix2 j⟩
  rw [affine_apply, addf_apply, bcast_1b_ab_apply, bcast_a_1a_apply]
  refine congrArg (· + b (ix1 q)) ?_
  simp only [Host.dotGeneral]
  rw [Ideal.dotGeneral_apply]
  exact plain_sum d h1 h2 h3 h4 h5 h6 x w p q

/-- The float word of 1.0 denotes the extended real one. -/
theorem one_f32 : Ideal.ofBits .f32 0x3F800000#32 = 1 := IdealRules.sign_bit.ideal_onePat .f32

/-- The host's spelling of the logistic function — one over (one plus the exponential of the negation), the ones
    broadcast constants — is, entry by entry, the logistic function a vector unit applies. -/
theorem host_sigmoid_eq {s : Shape} (y : FVec Ideal s .f32) (h : (⟨0, ![]⟩ : Shape).BroadcastsInDim s ![]) :
    Host.divf (F := Ideal) (broadcastInDim s ![] h (constant (F := Ideal) ⟨0, ![]⟩ .f32 0x3F800000#32))
        (addf (broadcastInDim s ![] h (constant (F := Ideal) ⟨0, ![]⟩ .f32 0x3F800000#32)) (Host.exp (F := Ideal) (Host.negf (F := Ideal) y)))
      = logistic y := by
  funext i
  simp only [Host.divf, Host.exp, Host.negf, addf, logistic, broadcastInDim, constant, Ideal.hostDivf_def, Ideal.logistic_def,
    Ideal.ofBits_def, one_f32, Ideal.logistic, Ideal.addf_def, Ideal.hostUnary_exp_def, Ideal.hostNegf_def, Ideal.negf_def]

/-- One graph layer's update of the node features: the logistic function of (features plus aggregated neighbours) times
    the weights plus the bias. -/
def ginLayer {M K N : ℕ} (h n : FVec Ideal ⟨2, ![M, K]⟩ .f32) (w : FVec Ideal ⟨2, ![K, N]⟩ .f32) (b : FVec Ideal ⟨1, ![N]⟩ .f32) :
    FVec Ideal ⟨2, ![M, N]⟩ .f32 :=
  fun i => Ideal.logistic (affine (fun j => h j + n j) w b i)

/-- The vector unit's form: the two operands (each through an identity re-lay) added, narrowed, multiplied into a zero
    accumulator, the bias row added, the logistic function applied. -/
theorem gin_pay_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x n : FVec Ideal ⟨2, ![M, K]⟩ .f32) (w : FVec Ideal ⟨2, ![K, N]⟩ .f32) (b : FVec Ideal ⟨1, ![N]⟩ .f32)
    (hb : FTy.bf16.bits < FTy.f32.bits) (hs : (⟨2, ![M, K]⟩ : Shape).ShapeCasts ⟨2, ![M, K]⟩)
    (hc : (⟨1, ![N]⟩ : Shape).ShapeCasts ⟨2, ![1, N]⟩) (hbc : (⟨2, ![1, N]⟩ : Shape).Broadcasts ⟨2, ![M, N]⟩) :
    logistic (addf (matmul d none (truncf .bf16 (addf (shapeCast ⟨2, ![M, K]⟩ x hs) (shapeCast ⟨2, ![M, K]⟩ n hs)) hb) (truncf .bf16 w hb)
        (constant ⟨2, ![M, N]⟩ .f32 0x00000000#32)) (broadcastTo ⟨2, ![M, N]⟩ (shapeCast ⟨2, ![1, N]⟩ b hc) hbc))
      = ginLayer x n w b := by
  funext j
  obtain ⟨p, q, rfl⟩ : ∃ (p : Fin M) (q : Fin N), j = ix2 p q := ⟨j 0, j 1, eq_ix2 j⟩
  rw [shapeCast_self, shapeCast_self]
  show Ideal.logistic _ = Ideal.logistic _
  exact congrArg Ideal.logistic (matmul_bias_apply d h1 h2 h3 h4 h5 h6 (addf x n) w b hb hc hbc p q)

/-- A block of T rows of a layer's update, as `affine_rows`. -/
theorem ginLayer_rows {M K N T : ℕ} (H Nb : FVec Ideal ⟨2, ![M, K]⟩ .f32) (W : FVec Ideal ⟨2, ![K, N]⟩ .f32) (B : FVec Ideal ⟨1, ![N]⟩ .f32)
    (x n : FVec Ideal ⟨2, ![T, K]⟩ .f32) (w : FVec Ideal ⟨2, ![K, N]⟩ .f32) (b : FVec Ideal ⟨1, ![N]⟩ .f32) (r : ℕ)
    (hx : ∀ (p : Fin T) (k : Fin K) (hp : r + p.val < M), x (ix2 p k) = H (ix2 ⟨r + p.val, hp⟩ k))
    (hn : ∀ (p : Fin T) (k : Fin K) (hp : r + p.val < M), n (ix2 p k) = Nb (ix2 ⟨r + p.val, hp⟩ k))
    (hw : ∀ z, w z = W z) (hb : ∀ z, b z = B z)
    (y : (⟨2, ![T, N]⟩ : Shape).Idx) (i : (⟨2, ![M, N]⟩ : Shape).Idx)
    (hi0 : (i 0).val = r + (y 0).val) (hi1 : (i 1).val = (y 1).val) :
    ginLayer x n w b y = ginLayer H Nb W B i :=
  congrArg Ideal.logistic (affine_rows (fun j => H j + Nb j) W B (fun j => x j + n j) w b r
    (fun p k hp => by show x (ix2 p k) + n (ix2 p k) = _; rw [hx p k hp, hn p k hp]) hw hb y i hi0 hi1)

/-- The host's form: the contraction of the sum with the weights, the bias broadcast in two steps, and the logistic
    function spelt as one over one plus the exponential of the negation. -/
theorem host_gin_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (h n : FVec Ideal ⟨2, ![M, K]⟩ .f32) (w : FVec Ideal ⟨2, ![K, N]⟩ .f32) (b : FVec Ideal ⟨1, ![N]⟩ .f32)
    (hr : (⟨1, ![N]⟩ : Shape).BroadcastsInDim ⟨2, ![1, N]⟩ ![1])
    (hbc : (⟨2, ![1, N]⟩ : Shape).BroadcastsInDim ⟨2, ![M, N]⟩ ![0, 1])
    (hone : (⟨0, ![]⟩ : Shape).BroadcastsInDim ⟨2, ![M, N]⟩ ![]) :
    Host.divf (F := Ideal) (broadcastInDim ⟨2, ![M, N]⟩ ![] hone (constant (F := Ideal) ⟨0, ![]⟩ .f32 0x3F800000#32))
        (addf (broadcastInDim ⟨2, ![M, N]⟩ ![] hone (constant (F := Ideal) ⟨0, ![]⟩ .f32 0x3F800000#32))
          (Host.exp (F := Ideal) (Host.negf (F := Ideal) (addf (Host.dotGeneral (F := Ideal) d none (addf h n) w)
            (broadcastInDim ⟨2, ![M, N]⟩ ![0, 1] hbc (broadcastInDim ⟨2, ![1, N]⟩ ![1] hr b))))))
      = ginLayer h n w b := by
  rw [host_sigmoid_eq, dot_bias_eq d h1 h2 h3 h4 h5 h6 (addf h n) w b hr hbc]
  rfl

end Cert.LibPlainDot

end
-- ==== Proof.LibMatProd.lean ====
/-
  The product of two matrices over the extended reals, entry by entry: entry (p, q) of x times w is the sum over k of
  x (p, k) · w (k, q). Three readings of it. A host contraction of x's second axis with w's first axis is this product.
  A matrix unit's product of the two operands narrowed to bf16, accumulated into zeros, is this product, since
  narrowing changes nothing on exact values. And a band of consecutive rows of the product is the product of that band
  of rows of x with w, which is what one block of a row-tiled computation holds.
-/
import proofs.«154108_j87540023427398_1_alg».proof.Proof.LibPlainDot

noncomputable section

namespace Cert.LibMatProd

open Idealize.ShloMosaic Idealize.ShloMosaic.ValueIdx Cert.LibPlainDot

/-- Entry (p, q) of rows times columns: the sum over k of x (p, k) · w (k, q). -/
def matProd {M K N : ℕ} (x : FVec Ideal ⟨2, ![M, K]⟩ .f32) (w : FVec Ideal ⟨2, ![K, N]⟩ .f32) : FVec Ideal ⟨2, ![M, N]⟩ .f32 :=
  fun i => ∑ k : Fin K, x (ix2 (n0 := M) (i 0) k) * w (ix2 (n1 := N) k (i 1))

theorem matProd_apply {M K N : ℕ} (x : FVec Ideal ⟨2, ![M, K]⟩ .f32) (w : FVec Ideal ⟨2, ![K, N]⟩ .f32) (p : Fin M) (q : Fin N) :
    matProd x w (ix2 p q) = ∑ k : Fin K, x (ix2 p k) * w (ix2 k q) := rfl

/-- A host contraction of the left operand's second axis with the right operand's first axis is the matrix product. -/
theorem host_dot_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) :
    Host.dotGeneral (F := Ideal) d none x w = matProd x w := by
  funext j
  obtain ⟨p, q, rfl⟩ : ∃ (p : Fin M) (q : Fin N), j = ix2 p q := ⟨j 0, j 1, eq_ix2 j⟩
  rw [matProd_apply]
  simp only [Host.dotGeneral]
  rw [Ideal.dotGeneral_apply]
  exact plain_sum d h1 h2 h3 h4 h5 h6 x w p q

/-- A matrix unit's product of two operands narrowed to bf16, accumulated into zeros, is the matrix product of the
    operands themselves: on exact values narrowing is the identity and the zero accumulator adds nothing. -/
theorem matmul_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) (hb : FTy.bf16.bits < FTy.f32.bits) :
    matmul d none (truncf .bf16 x hb) (truncf .bf16 w hb) (constant ⟨2, ![M, N]⟩ .f32 0x00000000#32) = matProd x w := by
  funext j
  obtain ⟨p, q, rfl⟩ : ∃ (p : Fin M) (q : Fin N), j = ix2 p q := ⟨j 0, j 1, eq_ix2 j⟩
  rw [matProd_apply]
  refine (Ideal.matmul_constant_zero_apply d none _ _ (ix2 p q)).trans ?_
  exact plain_sum d h1 h2 h3 h4 h5 h6 x w p q

/-- Rows r, …, r + T − 1 of a product: when x holds those rows of X and w is W, the entry of x times w at y is the entry
    of X times W at the index whose row is r plus y's row and whose column is y's. -/
theorem matProd_rows {M K N T : ℕ} (X : FVec Ideal ⟨2, ![M, K]⟩ .f32) (W : FVec Ideal ⟨2, ![K, N]⟩ .f32)
    (x : FVec Ideal ⟨2, ![T, K]⟩ .f32) (w : FVec Ideal ⟨2, ![K, N]⟩ .f32) (r : ℕ)
    (hx : ∀ (p : Fin T) (k : Fin K) (hp : r + p.val < M), x (ix2 p k) = X (ix2 ⟨r + p.val, hp⟩ k))
    (hw : ∀ z, w z = W z)
    (y : (⟨2, ![T, N]⟩ : Shape).Idx) (i : (⟨2, ![M, N]⟩ : Shape).Idx)
    (hi0 : (i 0).val = r + (y 0).val) (hi1 : (i 1).val = (y 1).val) :
    matProd x w y = matProd X W i := by
  obtain ⟨p, q, rfl⟩ : ∃ (p : Fin T) (q : Fin N), y = ix2 p q := ⟨y 0, y 1, eq_ix2 y⟩
  obtain ⟨p', q', rfl⟩ : ∃ (p' : Fin M) (q' : Fin N), i = ix2 p' q' := ⟨i 0, i 1, eq_ix2 i⟩
  have h0 : p'.val = r + p.val := hi0
  have h1 : q' = q := Fin.ext hi1
  subst h1
  have hp' : p' = ⟨r + p.val, h0 ▸ p'.isLt⟩ := Fin.ext h0
  rw [matProd_apply, matProd_apply]
  refine Finset.sum_congr rfl fun k _ => ?_
  rw [hx p k (h0 ▸ p'.isLt), hw, ← hp']

end Cert.LibMatProd

end
-- ==== Proof.LibBiasRelu.lean ====
/-
  A matrix plus a row vector, clamped below at zero: entry (p, q) of `biasRelu a b` is max (a (p, q) + b (0, q)) 0,
  where b is a one-row matrix and 0 is the value of the all-zero float word. Two spellings of it: a vector unit's
  (identity re-lays, the row repeated down the rows, a maximum against the splat zero) and a host's (the row broadcast
  down the rows, a maximum against a broadcast scalar zero). A band of consecutive rows of it is the same function of
  the band of a.
-/
import proofs.«154108_j87540023427398_1_alg».proof.Proof.LibPlainDot

noncomputable section

namespace Cert.LibBiasRelu

open Idealize.ShloMosaic Idealize.ShloMosaic.ValueIdx

/-- Entry (p, q): the larger of a (p, q) + b (0, q) and the value of the zero word. -/
def biasRelu {M N : ℕ} (a : FVec Ideal ⟨2, ![M, N]⟩ .f32) (b : FVec Ideal ⟨2, ![1, N]⟩ .f32) : FVec Ideal ⟨2, ![M, N]⟩ .f32 :=
  fun i => max (a i + b (ix2 (n0 := 1) (n1 := N) (0 : Fin 1) (i 1))) (Ideal.ofBits .f32 0x00000000#32)

theorem biasRelu_apply {M N : ℕ} (a : FVec Ideal ⟨2, ![M, N]⟩ .f32) (b : FVec Ideal ⟨2, ![1, N]⟩ .f32) (p : Fin M) (q : Fin N) :
    biasRelu a b (ix2 p q) = max (a (ix2 p q) + b (ix2 (0 : Fin 1) q)) (Ideal.ofBits .f32 0x00000000#32) := rfl

/-- The vector unit's spelling. -/
theorem vector_form {M N : ℕ} (a : FVec Ideal ⟨2, ![M, N]⟩ .f32) (b : FVec Ideal ⟨2, ![1, N]⟩ .f32)
    (h1 : (⟨2, ![M, N]⟩ : Shape).ShapeCasts ⟨2, ![M, N]⟩) (h2 : (⟨2, ![1, N]⟩ : Shape).ShapeCasts ⟨2, ![1, N]⟩)
    (hb : (⟨2, ![1, N]⟩ : Shape).Broadcasts ⟨2, ![M, N]⟩) :
    maximumf (addf (shapeCast ⟨2, ![M, N]⟩ a h1) (broadcastTo ⟨2, ![M, N]⟩ (shapeCast ⟨2, ![1, N]⟩ b h2) hb))
        (broadcast ⟨2, ![M, N]⟩ (Scalar.ofBits (F := Ideal) .f32 0x00000000#32)) = biasRelu a b := by
  funext j
  obtain ⟨p, q, rfl⟩ : ∃ (p : Fin M) (q : Fin N), j = ix2 p q := ⟨j 0, j 1, eq_ix2 j⟩
  rw [shapeCast_self, shapeCast_self, maximumf_apply, addf_apply, broadcastTo_1b_ab_apply, biasRelu_apply]
  rfl

/-- The host's spelling. -/
theorem host_form {M N : ℕ} (a : FVec Ideal ⟨2, ![M, N]⟩ .f32) (b : FVec Ideal ⟨2, ![1, N]⟩ .f32)
    (hbc : (⟨2, ![1, N]⟩ : Shape).BroadcastsInDim ⟨2, ![M, N]⟩ ![0, 1])
    (h0 : (⟨0, ![]⟩ : Shape).BroadcastsInDim ⟨2, ![M, N]⟩ ![]) :
    maximumf (addf a (broadcastInDim ⟨2, ![M, N]⟩ ![0, 1] hbc b))
        (broadcastInDim ⟨2, ![M, N]⟩ ![] h0 (constant (F := Ideal) ⟨0, ![]⟩ .f32 0x00000000#32)) = biasRelu a b := by
  funext j
  obtain ⟨p, q, rfl⟩ : ∃ (p : Fin M) (q : Fin N), j = ix2 p q := ⟨j 0, j 1, eq_ix2 j⟩
  have hz : broadcastInDim ⟨2, ![M, N]⟩ ![] h0 (constant (F := Ideal) ⟨0, ![]⟩ .f32 0x00000000#32) (ix2 p q)
      = Ideal.ofBits .f32 0x00000000#32 :=
    (broadcastInDim_apply _ h0 _ _ (fun a => a.elim0) (fun ax => ax.elim0)).trans rfl
  rw [maximumf_apply, addf_apply, Cert.LibPlainDot.bcast_1b_ab_apply, biasRelu_apply, hz]

/-- Rows r, …, r + T − 1: when a holds those rows of A and b is B, entry (p, q) of `biasRelu a b` is entry (r + p, q)
    of `biasRelu A B`. -/
theorem biasRelu_rows {M N T : ℕ} (A : FVec Ideal ⟨2, ![M, N]⟩ .f32) (B : FVec Ideal ⟨2, ![1, N]⟩ .f32)
    (a : FVec Ideal ⟨2, ![T, N]⟩ .f32) (b : FVec Ideal ⟨2, ![1, N]⟩ .f32) (r : ℕ)
    (ha : ∀ (p : Fin T) (q : Fin N) (hp : r + p.val < M), a (ix2 p q) = A (ix2 ⟨r + p.val, hp⟩ q))
    (hb : ∀ z, b z = B z) (p : Fin T) (q : Fin N) (hp : r + p.val < M) :
    biasRelu a b (ix2 p q) = biasRelu A B (ix2 ⟨r + p.val, hp⟩ q) := by
  rw [biasRelu_apply, biasRelu_apply, ha p q hp, hb]

end Cert.LibBiasRelu

end
-- ==== Proof.LibKeepdims.lean ====
/-
  Reductions over one axis of a rank-2 or rank-3 array, and the layout operations that put the reduced axis back as a
  unit axis and spread it again, read at an index written by coordinates, for any extents. A sum over an axis is the
  `Fin`-indexed sum over that axis's coordinates; a maximum is the fold of `max` over them from the accumulator's
  value.
-/
import Idealize.ShloMosaic.Lib.Pipeline.Value
import Idealize.ShloMosaic.Lib.ValueIdx
import Idealize.ShloMosaic.Lib.ValueLayout
import Idealize.ShloMosaic.PureOps.Ideal.Laws

namespace Cert.LibKeepdims

open Idealize.ShloMosaic Idealize.ShloMosaic.ValueIdx

variable {α : Type}

/-! ## Layout -/

/-- An `[a, c]` array cast to `[a, 1, c]` reads, at `(p, u, k)`, the operand at `(p, k)`. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (k : Fin c) :
    shapeCast ⟨3, ![a, 1, c]⟩ x h (ix3 p u k) = x (ix2 p k) :=
  shapeCast_apply x h _ _ (by
    have hu : u.val = 0 := by omega
    rw [Shape.rowMajor_val_two, Shape.rowMajor_val_three]
    show p.val * c + k.val = (p.val * 1 + u.val) * c + k.val
    rw [hu, Nat.mul_one, Nat.add_zero])

/-- An `[a, b]` array cast to `[a, b, 1]` reads, at `(p, q, u)`, the operand at `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_two, Shape.rowMajor_val_three]
    show p.val * b + q.val = (p.val * b + q.val) * 1 + u.val
    rw [hu, Nat.mul_one, Nat.add_zero])

/-- An `[a, 1, c]` array broadcast to `[a, b, c]` reads, at `(p, q, k)`, the operand at `(p, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (k : Fin c) :
    broadcastTo ⟨3, ![a, b, c]⟩ v h (ix3 p q k) = v (ix3 p (0 : Fin 1) k) := by
  refine broadcastTo_apply v h (ix3 p q k) (ix3 p (0 : Fin 1) k) fun ax => ?_
  match ax with
  | ⟨0, _⟩ =>
    show p.val = if a = 1 then 0 else p.val
    split
    · have := p.isLt; omega
    · rfl
  | ⟨1, _⟩ => rfl
  | ⟨2, _⟩ =>
    show k.val = if c = 1 then 0 else k.val
    split
    · have := k.isLt; omega
    · rfl

/-- An `[a, b, 1]` array broadcast to `[a, b, c]` reads, at `(p, q, k)`, the operand at `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (k : Fin c) :
    broadcastTo ⟨3, ![a, b, c]⟩ v h (ix3 p q k) = v (ix3 p q (0 : Fin 1)) := by
  refine broadcastTo_apply v h (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-! ## The reduced index with the coordinate put back -/

theorem lift_mid3 {a b c : ℕ} (h : (⟨3, ![a, b, c]⟩ : Shape).Reduces [1] (⟨2, ![a, c]⟩ : Shape)) (p : Fin a) (k : Fin c)
    (q : Fin ((⟨3, ![a, b, c]⟩ : Shape).size 1)) : h.lift (ix2 p k) q = ix3 p (⟨q.val, q.isLt⟩ : Fin b) k := by
  funext ax; apply Fin.ext
  fin_cases ax <;> rfl

theorem lift_last3 {a b c : ℕ} (h : (⟨3, ![a, b, c]⟩ : Shape).Reduces [2] (⟨2, ![a, b]⟩ : Shape)) (p : Fin a) (q : Fin b)
    (k : Fin ((⟨3, ![a, b, c]⟩ : Shape).size 2)) : h.lift (ix2 p q) k = ix3 p q (⟨k.val, k.isLt⟩ : Fin c) := by
  funext ax; apply Fin.ext
  fin_cases ax <;> rfl

theorem lift_last2 {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext ax; apply Fin.ext
  fin_cases ax <;> rfl

/-! ## Sums and maxima over one axis, at the ideal values -/

variable {φ : FTy}

/-- The sum over the middle axis of an `[a, b, c]` array, at `(p, k)`: the sum over `q` of the entries `(p, q, k)`. -/
theorem sum_mid3_apply {a b c : ℕ} (src : FVec Ideal ⟨3, ![a, b, c]⟩ φ) (acc : BitVec φ.bits)
    (h : (⟨3, ![a, b, c]⟩ : Shape).Reduces [1] (⟨2, ![a, c]⟩ : Shape)) (hφ : FKind.Formats φ) (hacc : acc = FKind.add.neutral φ hφ)
    (p : Fin a) (k : Fin c) :
    multiReduction .add [1] ⟨2, ![a, c]⟩ src acc h hφ hacc (ix2 p k) = ∑ q : Fin b, src (ix3 p q k) :=
  (Ideal.multiReduction_add_single src acc h hφ hacc (ix2 p k)).trans
    (Finset.sum_congr rfl fun q _ => congrArg src (lift_mid3 h p k q))

/-- The sum over the last axis of an `[a, b, c]` array, at `(p, q)`: the sum over `k` of the entries `(p, q, k)`. -/
theorem sum_last3_apply {a b c : ℕ} (src : FVec Ideal ⟨3, ![a, b, c]⟩ φ) (acc : BitVec φ.bits)
    (h : (⟨3, ![a, b, c]⟩ : Shape).Reduces [2] (⟨2, ![a, b]⟩ : Shape)) (hφ : FKind.Formats φ) (hacc : acc = FKind.add.neutral φ hφ)
    (p : Fin a) (q : Fin b) :
    multiReduction .add [2] ⟨2, ![a, b]⟩ src acc h hφ hacc (ix2 p q) = ∑ k : Fin c, src (ix3 p q k) :=
  (Ideal.multiReduction_add_single src acc h hφ hacc (ix2 p q)).trans
    (Finset.sum_congr rfl fun k _ => congrArg src (lift_last3 h p q k))

/-- The sum over the last axis of an `[a, b]` array, at `p`: the sum over `k` of the entries `(p, k)`. -/
theorem sum_last2_apply {a b : ℕ} (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_last2 h p k))

/-- The maximum over the middle axis of an `[a, b, c]` array, at `(p, k)`: the fold of `max`, from the accumulator's
    value, over the entries `(p, q, k)`. -/
theorem max_mid3_apply {a b c : ℕ} (src : FVec Ideal ⟨3, ![a, b, c]⟩ φ) (acc : BitVec φ.bits)
    (h : (⟨3, ![a, b, c]⟩ : Shape).Reduces [1] (⟨2, ![a, c]⟩ : Shape)) (hφ : FKind.Formats φ) (hacc : acc = FKind.maximumf.neutral φ hφ)
    (p : Fin a) (k : Fin c) :
    multiReduction .maximumf [1] ⟨2, ![a, c]⟩ src acc h hφ hacc (ix2 p k)
      = (Finset.univ : Finset (Fin b)).fold max (Ideal.ofBits φ acc) (fun q : Fin b => src (ix3 p q k)) := by
  refine (Ideal.multiReduction_maximumf_single src acc h hφ hacc (ix2 p k)).trans ?_
  have hf : (src ∘ h.lift (ix2 p k)) = fun q : Fin b => src (ix3 p q k) := funext fun q => congrArg src (lift_mid3 h p k q)
  exact congrArg (fun f => Finset.fold max (Ideal.ofBits φ acc) f (Finset.univ : Finset (Fin b))) hf

/-- The maximum over the last axis of an `[a, b]` array, at `p`: the fold of `max`, from the accumulator's value, over
    the entries `(p, k)`. -/
theorem max_last2_apply {a b : ℕ} (src : FVec Ideal ⟨2, ![a, b]⟩ φ) (acc : BitVec φ.bits)
    (h : (⟨2, ![a, b]⟩ : Shape).Reduces [1] (⟨1, ![a]⟩ : Shape)) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k : Fin b => src (ix2 p k)) := by
  refine (Ideal.multiReduction_maximumf_single src acc h hφ hacc (ix1 p)).trans ?_
  have hf : (src ∘ h.lift (ix1 p)) = fun k : Fin b => src (ix2 p k) := funext fun k => congrArg src (lift_last2 h p k)
  exact congrArg (fun f => Finset.fold max (Ideal.ofBits φ acc) f (Finset.univ : Finset (Fin b))) hf

/-! ## The pointwise transcendentals at an index -/

theorem exp_apply {s : Shape} (x : FVec Ideal s φ) (i : s.Idx) : exp x i = Ideal.exp (x i) := rfl
theorem log_apply {s : Shape} (x : FVec Ideal s φ) (i : s.Idx) : log x i = Ideal.log (x i) := rfl

end Cert.LibKeepdims
-- ==== Proof.LibColumn.lean ====
/-
  Layout operations on a COLUMN, read at an index: a vector `[a]` viewed as a one-column matrix `[a, 1]`, a
  one-column matrix broadcast along its rows to `[a, b]`, and a `[1, 1, a]` array viewed as one row `[1, a]`.
  (The row forms — `[1, b] → [a, b]`, a leading unit axis added or dropped — are in the library; these are their
  column counterparts, which every row reduction that keeps its axis meets.) Also: the comparison of two row
  indices below `2^32`, as 32-bit words, is the comparison of the indices.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1, a]` array cast to `[1, a]` reads, at `(u, i)`, the operand at `(0, 0, i)`. -/
theorem shapeCast_11a_1a_apply {a : ℕ} (x : (⟨3, ![1, 1, a]⟩ : Shape).Idx → α) (h : (⟨3, ![1, 1, a]⟩ : Shape).ShapeCasts ⟨2, ![1, a]⟩)
    (u : Fin 1) (i : Fin a) : shapeCast ⟨2, ![1, a]⟩ x h (ix2 u i) = x (ix3 (0 : Fin 1) (0 : Fin 1) i) :=
  shapeCast_apply x h _ _ (by
    have hu : u.val = 0 := by omega
    rw [Shape.rowMajor_val_three, Shape.rowMajor_val_two]
    show (0 * 1 + 0) * a + i.val = u.val * a + i.val
    rw [hu])

/-- Two indices below `2^32` are equal exactly when their 32-bit words are: the word of the comparison is `1` on
    the diagonal and `0` off it. -/
theorem cmpi_eq_ofNat {n : ℕ} (hn : n ≤ 2 ^ 32) (l k : Fin n) :
    IntOp.cmpi .eq (BitVec.ofNat 32 l.val) (BitVec.ofNat 32 k.val) = if l = k then 1#1 else 0#1 := by
  have hl : l.val < 2 ^ 32 := lt_of_lt_of_le l.isLt hn
  have hk : k.val < 2 ^ 32 := lt_of_lt_of_le k.isLt hn
  have hiff : BitVec.ofNat 32 l.val = BitVec.ofNat 32 k.val ↔ l = k := by
    constructor
    · intro h
      have h' := congrArg BitVec.toNat h
      rw [BitVec.toNat_ofNat, BitVec.toNat_ofNat, Nat.mod_eq_of_lt hl, Nat.mod_eq_of_lt hk] at h'
      exact Fin.ext h'
    · rintro rfl; rfl
  unfold IntOp.cmpi
  by_cases h : l = k
  · subst h; simp
  · have hne : ¬ BitVec.ofNat 32 l.val = BitVec.ofNat 32 k.val := fun e => h (hiff.mp e)
    have hb : (BitVec.ofNat 32 l.val == BitVec.ofNat 32 k.val) = false := beq_eq_false_iff_ne.mpr hne
    rw [if_neg h]
    show BitVec.ofBool (BitVec.ofNat 32 l.val == BitVec.ofNat 32 k.val) = 0#1
    rw [hb]
    rfl

end Cert.LibColumn
-- ==== Proof.LibRowLogSoftmax.lean ====
/-
  The logarithm of the softmax along the rows of a matrix, over the extended reals: with m the largest entry of row p
  (the fold of max over the row, from the word of minus infinity), the entry (p, q) is
  (v (p, q) - m) - log (sum over k of exp (v (p, k) - m)).

  Three readings of it. A vector unit reduces each row to its maximum and to its sum, re-lays each of the two vectors as
  one column and spreads the column along the rows. The host reduces with the same two bodies, takes one more maximum
  against minus infinity (which changes nothing: the fold already starts there), starts its sum from the zero word (which
  adds nothing), and broadcasts in two steps. And a band of consecutive rows of the result is the same function of that
  band of rows of v: a row of the result depends on the same row of v only.
-/
import proofs.«154108_j87540023427398_1_alg».proof.Proof.LibKeepdims
import proofs.«154108_j87540023427398_1_alg».proof.Proof.LibColumn

noncomputable section

namespace Cert.RowLogSoftmax

open Idealize.ShloMosaic Idealize.ShloMosaic.ValueIdx

/-- The largest entry of row p: the fold of max over the row, from the value of the word of minus infinity. -/
def rowMax {M N : ℕ} (v : FVec Ideal ⟨2, ![M, N]⟩ .f32) (p : Fin M) : EReal :=
  (Finset.univ : Finset (Fin N)).fold max (Ideal.ofBits .f32 0xFF800000#32) (fun k : Fin N => v (ix2 p k))

/-- (v (p, q) - m) - log (sum over k of exp (v (p, k) - m)), m the largest entry of row p. -/
def logSoftmax {M N : ℕ} (v : FVec Ideal ⟨2, ![M, N]⟩ .f32) : FVec Ideal ⟨2, ![M, N]⟩ .f32 :=
  fun i => (v i - rowMax v (i 0)) - Ideal.log (∑ k : Fin N, Ideal.exp (v (ix2 (i 0) k) - rowMax v (i 0)))

theorem logSoftmax_apply {M N : ℕ} (v : FVec Ideal ⟨2, ![M, N]⟩ .f32) (p : Fin M) (q : Fin N) :
    logSoftmax v (ix2 p q)
      = (v (ix2 p q) - rowMax v p) - Ideal.log (∑ k : Fin N, Ideal.exp (v (ix2 p k) - rowMax v p)) := rfl

/-! ## The vector unit's form -/

/-- A vector re-laid as one column and spread along the rows reads, at (p, q), the vector at p. -/
theorem column_spread {T N : ℕ} (u : FVec Ideal ⟨1, ![T]⟩ .f32) (hc : (⟨1, ![T]⟩ : Shape).ShapeCasts ⟨2, ![T, 1]⟩)
    (hb : (⟨2, ![T, 1]⟩ : Shape).Broadcasts ⟨2, ![T, N]⟩) (p : Fin T) (q : Fin N) :
    broadcastTo ⟨2, ![T, N]⟩ (shapeCast ⟨2, ![T, 1]⟩ u hc) hb (ix2 p q) = u (ix1 p) :=
  (Cert.LibColumn.broadcastTo_a1_ab_apply _ hb p q).trans (Cert.LibColumn.shapeCast_a_a1_apply u hc p 0)

/-- Each entry less its row's maximum, the maximum taken by a lane reduction and spread back as a column. -/
theorem unit_shift {T N : ℕ} (x0 : FVec Ideal ⟨2, ![T, N]⟩ .f32)
    (hr : (⟨2, ![T, N]⟩ : Shape).Reduces [1] (⟨1, ![T]⟩ : Shape)) (hφ : FKind.Formats .f32)
    (hmax : (0xFF800000#32 : BitVec FTy.f32.bits) = FKind.maximumf.neutral .f32 hφ)
    (hc : (⟨1, ![T]⟩ : Shape).ShapeCasts ⟨2, ![T, 1]⟩) (hb : (⟨2, ![T, 1]⟩ : Shape).Broadcasts ⟨2, ![T, N]⟩)
    (p : Fin T) (k : Fin N) :
    subf x0 (broadcastTo ⟨2, ![T, N]⟩ (shapeCast ⟨2, ![T, 1]⟩
        (multiReduction .maximumf [1] ⟨1, ![T]⟩ x0 0xFF800000#32 hr hφ hmax) hc) hb) (ix2 p k)
      = x0 (ix2 p k) - rowMax x0 p := by
  rw [subf_apply, column_spread]
  exact congrArg (x0 (ix2 p k) - ·) (Cert.LibKeepdims.max_last2_apply x0 _ hr hφ hmax p)

/-- The vector unit's form: the operand through an identity re-lay; the row maximum and the row sum by lane reductions,
    each re-laid as a column and spread along the rows; the logarithm taken on the column. -/
theorem unit_form {T N : ℕ} (x0 : FVec Ideal ⟨2, ![T, N]⟩ .f32)
    (hs : (⟨2, ![T, N]⟩ : Shape).ShapeCasts ⟨2, ![T, N]⟩)
    (hr : (⟨2, ![T, N]⟩ : Shape).Reduces [1] (⟨1, ![T]⟩ : Shape)) (hφ : FKind.Formats .f32)
    (hmax : (0xFF800000#32 : BitVec FTy.f32.bits) = FKind.maximumf.neutral .f32 hφ)
    (hadd : (0x00000000#32 : BitVec FTy.f32.bits) = FKind.add.neutral .f32 hφ)
    (hc : (⟨1, ![T]⟩ : Shape).ShapeCasts ⟨2, ![T, 1]⟩) (hb : (⟨2, ![T, 1]⟩ : Shape).Broadcasts ⟨2, ![T, N]⟩) :
    subf (subf (shapeCast ⟨2, ![T, N]⟩ x0 hs) (broadcastTo ⟨2, ![T, N]⟩ (shapeCast ⟨2, ![T, 1]⟩
          (multiReduction .maximumf [1] ⟨1, ![T]⟩ (shapeCast ⟨2, ![T, N]⟩ x0 hs) 0xFF800000#32 hr hφ hmax) hc) hb))
        (broadcastTo ⟨2, ![T, N]⟩ (log (shapeCast ⟨2, ![T, 1]⟩
          (multiReduction .add [1] ⟨1, ![T]⟩
            (exp (subf (shapeCast ⟨2, ![T, N]⟩ x0 hs) (broadcastTo ⟨2, ![T, N]⟩ (shapeCast ⟨2, ![T, 1]⟩
              (multiReduction .maximumf [1] ⟨1, ![T]⟩ (shapeCast ⟨2, ![T, N]⟩ x0 hs) 0xFF800000#32 hr hφ hmax) hc) hb)))
            0x00000000#32 hr hφ hadd) hc)) hb)
      = logSoftmax x0 := by
  rw [shapeCast_self]
  funext j
  obtain ⟨p, q, rfl⟩ : ∃ (p : Fin T) (q : Fin N), j = ix2 p q := ⟨j 0, j 1, eq_ix2 j⟩
  rw [logSoftmax_apply, subf_apply, unit_shift x0 hr hφ hmax hc hb p q, Cert.LibColumn.broadcastTo_a1_ab_apply]
  refine congrArg (fun z => x0 (ix2 p q) - rowMax x0 p - z) ?_
  rw [Cert.LibKeepdims.log_apply, Cert.LibColumn.shapeCast_a_a1_apply, Cert.LibKeepdims.sum_last2_apply]
  refine congrArg Ideal.log (Finset.sum_congr rfl fun k _ => ?_)
  rw [Cert.LibKeepdims.exp_apply, unit_shift x0 hr hφ hmax hc hb p k]

/-! ## The host's form -/

/-- A scalar broadcast to every entry reads, anywhere, the scalar. -/
theorem splat_apply {s : Shape} (x : (⟨0, ![]⟩ : Shape).Idx → EReal) (h : (⟨0, ![]⟩ : Shape).BroadcastsInDim s ![])
    (i : s.Idx) : broadcastInDim s ![] h x i = x ix0 :=
  broadcastInDim_apply _ h x i ix0 (fun a => a.elim0)

/-- A vector broadcast to one column reads, at (p, u), the vector at p. -/
theorem column_apply {a : ℕ} (x : (⟨1, ![a]⟩ : Shape).Idx → EReal)
    (h : (⟨1, ![a]⟩ : Shape).BroadcastsInDim ⟨2, ![a, 1]⟩ ![0]) (p : Fin a) (u : Fin 1) :
    broadcastInDim ⟨2, ![a, 1]⟩ ![0] h x (ix2 p u) = x (ix1 p) :=
  broadcastInDim_apply _ h x _ (ix1 p) (fun ax => match ax with
    | ⟨0, _⟩ => by
      show p.val = if a = 1 then 0 else p.val
      split
      · have := p.isLt; omega
      · rfl)

/-- One column broadcast along the rows reads, at (p, c), the column at p. -/
theorem spread_apply {a b : ℕ} (v : (⟨2, ![a, 1]⟩ : Shape).Idx → EReal)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) :=
  broadcastInDim_apply _ h v _ (ix2 p (0 : Fin 1)) (fun ax => match ax with
    | ⟨0, _⟩ => by
      show p.val = if a = 1 then 0 else p.val
      split
      · have := p.isLt; omega
      · rfl
    | ⟨1, _⟩ => by
      show (0 : ℕ) = if (1 : ℕ) = 1 then 0 else c.val
      rw [if_pos rfl])

/-- The host's logarithm and exponential, at an index. -/
theorem hostLog_apply {s : Shape} (x : FVec Ideal s .f32) (i : s.Idx) : Host.log (F := Ideal) x i = Ideal.log (x i) := rfl
theorem hostExp_apply {s : Shape} (x : FVec Ideal s .f32) (i : s.Idx) : Host.exp (F := Ideal) x i = Ideal.exp (x i) := rfl

/-- The host's row maximum, and one more maximum against minus infinity, is the row's maximum: the fold starts at the
    value it is compared with once more. -/
theorem host_rowMax {M N : ℕ} (v : FVec Ideal ⟨2, ![M, N]⟩ .f32)
    (hrt : (⟨2, ![M, N]⟩ : Shape).ReducesTo [1] (⟨1, ![M]⟩ : Shape))
    (hr : (⟨2, ![M, N]⟩ : Shape).Reduces [1] (⟨1, ![M]⟩ : Shape)) (hu : 0 < (⟨0, ![]⟩ : Shape).numel)
    (hS : (⟨0, ![]⟩ : Shape).BroadcastsInDim ⟨1, ![M]⟩ ![]) (p : Fin M) :
    maximumf (broadcastInDim ⟨1, ![M]⟩ ![] hS (constant (F := Ideal) ⟨0, ![]⟩ .f32 0xFF800000#32))
        (Host.reduce (FloatOps.maximumf (F := Ideal) (φ := .f32)) v (constant (F := Ideal) ⟨0, ![]⟩ .f32 0xFF800000#32) hrt hu)
        (ix1 p)
      = rowMax v p := by
  have hf : (v ∘ hr.lift (ix1 p)) = fun k : Fin N => v (ix2 p k) :=
    funext fun k => congrArg v (Cert.LibKeepdims.lift_last2 hr p k)
  rw [maximumf_apply, splat_apply]
  refine (congrArg (max (Ideal.ofBits .f32 0xFF800000#32))
    ((Host.reduce_eq_fold_single (FloatOps.maximumf (F := Ideal) (φ := .f32)) v _ hrt hr hu (ix1 p)).trans
      (congrArg (fun f => Finset.fold max (Ideal.ofBits .f32 0xFF800000#32) f (Finset.univ : Finset (Fin N))) hf))).trans ?_
  exact max_eq_right ((Finset.le_fold_max _).mpr (Or.inl le_rfl))

/-- The host's row sum from the zero word is the row's sum. -/
theorem host_rowSum {M N : ℕ} (x : FVec Ideal ⟨2, ![M, N]⟩ .f32)
    (hrt : (⟨2, ![M, N]⟩ : Shape).ReducesTo [1] (⟨1, ![M]⟩ : Shape))
    (hr : (⟨2, ![M, N]⟩ : Shape).Reduces [1] (⟨1, ![M]⟩ : Shape)) (hu : 0 < (⟨0, ![]⟩ : Shape).numel) (p : Fin M) :
    Host.reduceAdd (F := Ideal) x (constant (F := Ideal) ⟨0, ![]⟩ .f32 0x00000000#32) hrt hu (ix1 p)
      = ∑ k : Fin N, x (ix2 p k) := by
  simp only [Host.reduceAdd, Ideal.hostReduceAdd_def]
  rw [Ideal.hostReduceAdd_single hrt hr, constant_apply, Ideal.ofBits_zero_f32, zero_add]
  exact Finset.sum_congr rfl fun k _ => congrArg x (Cert.LibKeepdims.lift_last2 hr p k)

/-- Each entry less its row's maximum, in the host's form. -/
theorem host_shift {M N : ℕ} (v : FVec Ideal ⟨2, ![M, N]⟩ .f32)
    (hrt : (⟨2, ![M, N]⟩ : Shape).ReducesTo [1] (⟨1, ![M]⟩ : Shape))
    (hr : (⟨2, ![M, N]⟩ : Shape).Reduces [1] (⟨1, ![M]⟩ : Shape)) (hu : 0 < (⟨0, ![]⟩ : Shape).numel)
    (hS : (⟨0, ![]⟩ : Shape).BroadcastsInDim ⟨1, ![M]⟩ ![])
    (h0 : (⟨1, ![M]⟩ : Shape).BroadcastsInDim ⟨2, ![M, 1]⟩ ![0])
    (h01 : (⟨2, ![M, 1]⟩ : Shape).BroadcastsInDim ⟨2, ![M, N]⟩ ![0, 1]) (p : Fin M) (k : Fin N) :
    subf v (broadcastInDim ⟨2, ![M, N]⟩ ![0, 1] h01 (broadcastInDim ⟨2, ![M, 1]⟩ ![0] h0
        (maximumf (broadcastInDim ⟨1, ![M]⟩ ![] hS (constant (F := Ideal) ⟨0, ![]⟩ .f32 0xFF800000#32))
          (Host.reduce (FloatOps.maximumf (F := Ideal) (φ := .f32)) v (constant (F := Ideal) ⟨0, ![]⟩ .f32 0xFF800000#32) hrt hu))))
        (ix2 p k)
      = v (ix2 p k) - rowMax v p := by
  rw [subf_apply, spread_apply, column_apply, host_rowMax v hrt hr hu hS p]

/-- The host's form of the whole function. -/
theorem host_form {M N : ℕ} (v : FVec Ideal ⟨2, ![M, N]⟩ .f32)
    (hrt : (⟨2, ![M, N]⟩ : Shape).ReducesTo [1] (⟨1, ![M]⟩ : Shape))
    (hr : (⟨2, ![M, N]⟩ : Shape).Reduces [1] (⟨1, ![M]⟩ : Shape)) (hu : 0 < (⟨0, ![]⟩ : Shape).numel)
    (hS : (⟨0, ![]⟩ : Shape).BroadcastsInDim ⟨1, ![M]⟩ ![])
    (h0 : (⟨1, ![M]⟩ : Shape).BroadcastsInDim ⟨2, ![M, 1]⟩ ![0])
    (h01 : (⟨2, ![M, 1]⟩ : Shape).BroadcastsInDim ⟨2, ![M, N]⟩ ![0, 1]) :
    subf (subf v (broadcastInDim ⟨2, ![M, N]⟩ ![0, 1] h01 (broadcastInDim ⟨2, ![M, 1]⟩ ![0] h0
          (maximumf (broadcastInDim ⟨1, ![M]⟩ ![] hS (constant (F := Ideal) ⟨0, ![]⟩ .f32 0xFF800000#32))
            (Host.reduce (FloatOps.maximumf (F := Ideal) (φ := .f32)) v (constant (F := Ideal) ⟨0, ![]⟩ .f32 0xFF800000#32) hrt hu)))))
        (broadcastInDim ⟨2, ![M, N]⟩ ![0, 1] h01 (Host.log (F := Ideal) (broadcastInDim ⟨2, ![M, 1]⟩ ![0] h0
          (Host.reduceAdd (F := Ideal)
            (Host.exp (F := Ideal) (subf v (broadcastInDim ⟨2, ![M, N]⟩ ![0, 1] h01 (broadcastInDim ⟨2, ![M, 1]⟩ ![0] h0
              (maximumf (broadcastInDim ⟨1, ![M]⟩ ![] hS (constant (F := Ideal) ⟨0, ![]⟩ .f32 0xFF800000#32))
                (Host.reduce (FloatOps.maximumf (F := Ideal) (φ := .f32)) v (constant (F := Ideal) ⟨0, ![]⟩ .f32 0xFF800000#32) hrt hu))))))
            (constant (F := Ideal) ⟨0, ![]⟩ .f32 0x00000000#32) hrt hu))))
      = logSoftmax v := by
  funext j
  obtain ⟨p, q, rfl⟩ : ∃ (p : Fin M) (q : Fin N), j = ix2 p q := ⟨j 0, j 1, eq_ix2 j⟩
  rw [logSoftmax_apply, subf_apply, host_shift v hrt hr hu hS h0 h01 p q, spread_apply]
  refine congrArg (fun z => v (ix2 p q) - rowMax v p - z) ?_
  rw [hostLog_apply, column_apply, host_rowSum _ hrt hr hu p]
  refine congrArg Ideal.log (Finset.sum_congr rfl fun k _ => ?_)
  rw [hostExp_apply, host_shift v hrt hr hu hS h0 h01 p k]

/-! ## A band of rows -/

/-- Rows r, …, r + T − 1 of the result: when x holds those rows of V, the entry of the block's result at y is the entry of
    the whole result at the index whose row is r plus y's row and whose column is y's. -/
theorem logSoftmax_rows {M N T : ℕ} (V : FVec Ideal ⟨2, ![M, N]⟩ .f32) (x : FVec Ideal ⟨2, ![T, N]⟩ .f32) (r : ℕ)
    (hx : ∀ (p : Fin T) (k : Fin N) (hp : r + p.val < M), x (ix2 p k) = V (ix2 ⟨r + p.val, hp⟩ k))
    (y : (⟨2, ![T, N]⟩ : Shape).Idx) (i : (⟨2, ![M, N]⟩ : Shape).Idx)
    (hi0 : (i 0).val = r + (y 0).val) (hi1 : (i 1).val = (y 1).val) :
    logSoftmax x y = logSoftmax V i := by
  obtain ⟨p, q, rfl⟩ : ∃ (p : Fin T) (q : Fin N), y = ix2 p q := ⟨y 0, y 1, eq_ix2 y⟩
  obtain ⟨p', q', rfl⟩ : ∃ (p' : Fin M) (q' : Fin N), i = ix2 p' q' := ⟨i 0, i 1, eq_ix2 i⟩
  have h0 : p'.val = r + p.val := hi0
  have h1 : q' = q := Fin.ext hi1
  subst h1
  have hp' : p' = ⟨r + p.val, h0 ▸ p'.isLt⟩ := Fin.ext h0
  have hrow : ∀ k : Fin N, x (ix2 p k) = V (ix2 p' k) := fun k => by rw [hx p k (h0 ▸ p'.isLt), ← hp']
  have hm : rowMax x p = rowMax V p' :=
    congrArg (fun f => Finset.fold max (Ideal.ofBits .f32 0xFF800000#32) f (Finset.univ : Finset (Fin N))) (funext hrow)
  rw [logSoftmax_apply, logSoftmax_apply, hm]
  simp only [hrow]

end Cert.RowLogSoftmax

end
-- ==== Proof.LibRowBias.lean ====
/-
  A row bias over the extended reals, for matrices of any extents (needs LibPlainDot, LibRowLogSoftmax and its imports).
  A matrix plus a one-row matrix repeated down the rows (a bias added to every row): entry (p, q) of `addRow a b` is
  a (p, q) + b (0, q). Its vector-unit spelling (identity re-lays, the row repeated by a broadcast) and its host spelling
  (the row broadcast down the rows) are this function, and a band of rows of it is the same function of the band.
  A vector laid out as one row: `rowOf v` at (0, q) is v q; a re-lay of the vector as [1, N] and a broadcast of it to
  [1, N] are both this row.
  And the vector unit's logarithm of a row softmax when its operand is not behind an identity re-lay.
-/
import proofs.«154108_j87540023427398_1_alg».proof.Proof.LibPlainDot
import proofs.«154108_j87540023427398_1_alg».proof.Proof.LibRowLogSoftmax

noncomputable section

namespace Cert.LibRowBias

open Idealize.ShloMosaic Idealize.ShloMosaic.ValueIdx

/-- Entry (p, q): a (p, q) + b (0, q). -/
def addRow {M N : ℕ} (a : FVec Ideal ⟨2, ![M, N]⟩ .f32) (b : FVec Ideal ⟨2, ![1, N]⟩ .f32) : FVec Ideal ⟨2, ![M, N]⟩ .f32 :=
  fun i => a i + b (ix2 (n0 := 1) (n1 := N) (0 : Fin 1) (i 1))

theorem addRow_apply {M N : ℕ} (a : FVec Ideal ⟨2, ![M, N]⟩ .f32) (b : FVec Ideal ⟨2, ![1, N]⟩ .f32) (p : Fin M) (q : Fin N) :
    addRow a b (ix2 p q) = a (ix2 p q) + b (ix2 (0 : Fin 1) q) := rfl

/-- The vector unit's spelling: both operands through identity re-lays, the row repeated down the rows. -/
theorem addRow_vector_form {M N : ℕ} (a : FVec Ideal ⟨2, ![M, N]⟩ .f32) (b : FVec Ideal ⟨2, ![1, N]⟩ .f32)
    (h1 : (⟨2, ![M, N]⟩ : Shape).ShapeCasts ⟨2, ![M, N]⟩) (h2 : (⟨2, ![1, N]⟩ : Shape).ShapeCasts ⟨2, ![1, N]⟩)
    (hb : (⟨2, ![1, N]⟩ : Shape).Broadcasts ⟨2, ![M, N]⟩) :
    addf (shapeCast ⟨2, ![M, N]⟩ a h1) (broadcastTo ⟨2, ![M, N]⟩ (shapeCast ⟨2, ![1, N]⟩ b h2) hb) = addRow a b := by
  funext j
  obtain ⟨p, q, rfl⟩ : ∃ (p : Fin M) (q : Fin N), j = ix2 p q := ⟨j 0, j 1, eq_ix2 j⟩
  rw [shapeCast_self, shapeCast_self, addf_apply, broadcastTo_1b_ab_apply, addRow_apply]

/-- The host's spelling: the row broadcast down the rows. -/
theorem addRow_host_form {M N : ℕ} (a : FVec Ideal ⟨2, ![M, N]⟩ .f32) (b : FVec Ideal ⟨2, ![1, N]⟩ .f32)
    (hbc : (⟨2, ![1, N]⟩ : Shape).BroadcastsInDim ⟨2, ![M, N]⟩ ![0, 1]) :
    addf a (broadcastInDim ⟨2, ![M, N]⟩ ![0, 1] hbc b) = addRow a b := by
  funext j
  obtain ⟨p, q, rfl⟩ : ∃ (p : Fin M) (q : Fin N), j = ix2 p q := ⟨j 0, j 1, eq_ix2 j⟩
  rw [addf_apply, Cert.LibPlainDot.bcast_1b_ab_apply, addRow_apply]

/-- Rows r, …, r + T − 1: when a holds those rows of A and b is B, entry (p, q) of `addRow a b` is entry (r + p, q) of
    `addRow A B`. -/
theorem addRow_rows {M N T : ℕ} (A : FVec Ideal ⟨2, ![M, N]⟩ .f32) (B : FVec Ideal ⟨2, ![1, N]⟩ .f32)
    (a : FVec Ideal ⟨2, ![T, N]⟩ .f32) (b : FVec Ideal ⟨2, ![1, N]⟩ .f32) (r : ℕ)
    (ha : ∀ (p : Fin T) (q : Fin N) (hp : r + p.val < M), a (ix2 p q) = A (ix2 ⟨r + p.val, hp⟩ q))
    (hb : ∀ z, b z = B z) (p : Fin T) (q : Fin N) (hp : r + p.val < M) :
    addRow a b (ix2 p q) = addRow A B (ix2 ⟨r + p.val, hp⟩ q) := by
  rw [addRow_apply, addRow_apply, ha p q hp, hb]

/-- A vector as a one-row matrix: at (0, q) it is v q. -/
def rowOf {N : ℕ} (v : FVec Ideal ⟨1, ![N]⟩ .f32) : FVec Ideal ⟨2, ![1, N]⟩ .f32 :=
  fun i => v (ix1 (n := N) (i 1))

/-- A vector re-laid as [1, N] is that row. -/
theorem rowOf_cast {N : ℕ} (v : FVec Ideal ⟨1, ![N]⟩ .f32) (h : (⟨1, ![N]⟩ : Shape).ShapeCasts ⟨2, ![1, N]⟩) :
    shapeCast ⟨2, ![1, N]⟩ v h = rowOf v := by
  funext j
  obtain ⟨u, q, rfl⟩ : ∃ (u : Fin 1) (q : Fin N), j = ix2 u q := ⟨j 0, j 1, eq_ix2 j⟩
  exact shapeCast_a_1a_apply v h u q

/-- A vector broadcast to [1, N] along its one axis is that row. -/
theorem rowOf_bcast {N : ℕ} (v : FVec Ideal ⟨1, ![N]⟩ .f32) (h : (⟨1, ![N]⟩ : Shape).BroadcastsInDim ⟨2, ![1, N]⟩ ![1]) :
    broadcastInDim ⟨2, ![1, N]⟩ ![1] h v = rowOf v := by
  funext j
  obtain ⟨u, q, rfl⟩ : ∃ (u : Fin 1) (q : Fin N), j = ix2 u q := ⟨j 0, j 1, eq_ix2 j⟩
  exact Cert.LibPlainDot.bcast_a_1a_apply v h u q

/-- The vector unit's logarithm of the row softmax of an operand that is used as it is (no identity re-lay in front):
    the row maximum and the row sum by lane reductions, each re-laid as a column and spread along the rows. -/
theorem logSoftmax_unit_form {T N : ℕ} (x0 : FVec Ideal ⟨2, ![T, N]⟩ .f32)
    (hs : (⟨2, ![T, N]⟩ : Shape).ShapeCasts ⟨2, ![T, N]⟩)
    (hr : (⟨2, ![T, N]⟩ : Shape).Reduces [1] (⟨1, ![T]⟩ : Shape)) (hφ : FKind.Formats .f32)
    (hmax : (0xFF800000#32 : BitVec FTy.f32.bits) = FKind.maximumf.neutral .f32 hφ)
    (hadd : (0x00000000#32 : BitVec FTy.f32.bits) = FKind.add.neutral .f32 hφ)
    (hc : (⟨1, ![T]⟩ : Shape).ShapeCasts ⟨2, ![T, 1]⟩) (hb : (⟨2, ![T, 1]⟩ : Shape).Broadcasts ⟨2, ![T, N]⟩) :
    subf (subf x0 (broadcastTo ⟨2, ![T, N]⟩ (shapeCast ⟨2, ![T, 1]⟩
          (multiReduction .maximumf [1] ⟨1, ![T]⟩ x0 0xFF800000#32 hr hφ hmax) hc) hb))
        (broadcastTo ⟨2, ![T, N]⟩ (log (shapeCast ⟨2, ![T, 1]⟩
          (multiReduction .add [1] ⟨1, ![T]⟩
            (exp (subf x0 (broadcastTo ⟨2, ![T, N]⟩ (shapeCast ⟨2, ![T, 1]⟩
              (multiReduction .maximumf [1] ⟨1, ![T]⟩ x0 0xFF800000#32 hr hφ hmax) hc) hb)))
            0x00000000#32 hr hφ hadd) hc)) hb)
      = Cert.RowLogSoftmax.logSoftmax x0 := by
  have h := Cert.RowLogSoftmax.unit_form x0 hs hr hφ hmax hadd hc hb
  rw [shapeCast_self] at h
  exact h

end Cert.LibRowBias

end
-- ==== Proof.Chain.lean ====
/-
  The graph side of the network, as functions of whole arrays over the extended reals. Every edge list gets one self
  loop per node appended (sources `rowIdx`, targets `colIdx`, weights `wts` with ones for the loops); a node's degree is the
  sum of the weights of the edges that end in it; `dinv` is the reciprocal square root of a positive degree and zero
  otherwise; an edge's coefficient `norm` is dinv at its source times its weight times dinv at its target. One round of
  message passing over features of width 16 or 2 (`agg16`, `agg2`) gathers the source node's row for every edge, scales it
  by the edge's coefficient, and adds it into the target node's row. The network is two such rounds: a product with the
  first weights, a round, bias and clamp at zero, a product with the second weights, a round, bias, and the logarithm of
  the row softmax. Nothing here is opened by the proofs: both programs apply these same operations, and only the dense
  steps between them differ in form.
-/
import proofs.«154108_j87540023427398_1_alg».proof.Proof.Gen.KernelIdeal
import proofs.«154108_j87540023427398_1_alg».proof.Proof.LibMatProd
import proofs.«154108_j87540023427398_1_alg».proof.Proof.LibBiasRelu
import proofs.«154108_j87540023427398_1_alg».proof.Proof.LibRowBias

noncomputable section

namespace Cert.Chain

open Cert.KernelIdeal Cert.KernelIdeal.Gen Idealize.ShloMosaic
open Cert.LibMatProd Cert.LibBiasRelu Cert.LibRowBias Cert.RowLogSoftmax

/-- An array of 32-bit integers, and one of floats read as extended reals, of a given shape. -/
abbrev IArr (s : Shape) := IVec s 32
abbrev FArr (s : Shape) := FVec Ideal s .f32

/-- Row `k` of the [2, E] edge list, followed by the node numbers 0 … N − 1 (the self loops). -/
def rowIdx (e : IArr S2x3200000) : IArr S3300000 :=
  concatenate S3300000 0 [⟨S3200000, (shapeCast _ (extractStridedSlice S1x3200000 ![0, 0] e slices_S2x3200000_S1x3200000_0_0) shapeCasts_S1x3200000_S3200000)⟩, ⟨S100000, (iotaInDim S100000 32 0)⟩] concatenates_S3200000_S100000_S3300000_d0
def colIdx (e : IArr S2x3200000) : IArr S3300000 :=
  concatenate S3300000 0 [⟨S3200000, (shapeCast _ (extractStridedSlice S1x3200000 ![1, 0] e slices_S2x3200000_S1x3200000_1_0) shapeCasts_S1x3200000_S3200000)⟩, ⟨S100000, (iotaInDim S100000 32 0)⟩] concatenates_S3200000_S100000_S3300000_d0

/-- The edge weights followed by a one per node. -/
def wts (w : FArr S3200000) : FArr S3300000 :=
  concatenate S3300000 0 [⟨S3200000, w⟩, ⟨S100000, (broadcastInDim S100000 ![] bcast_S_S100000 (constant (F := Ideal) S_ .f32 0x3F800000#32))⟩] concatenates_S3200000_S100000_S3300000_d0

/-- A negative index counted from the end (the form every gather takes its indices in). -/
def wrap (i : IArr S3300000) : IArr S3300000 :=
  select (cmpi .slt i (broadcastInDim S3300000 ![] bcast_S_S3300000 (constantI S_ 32 0#32)))
    (addi i (broadcastInDim S3300000 ![] bcast_S_S3300000 (constantI S_ 32 100000#32))) i

/-- A node's degree: the weights of the edges ending in it, added up from zero. -/
def deg (col : IArr S3300000) (w : FArr S3300000) : FArr S100000 :=
  Host.scatterAdd (F := Ideal) scatter_S100000_S3300000x1_S3300000_n_0_0_1 (broadcastInDim S100000 ![] bcast_S_S100000 (constant (F := Ideal) S_ .f32 0x00000000#32))
    (broadcastInDim S3300000x1 ![0] bcast_S3300000_S3300000x1_0 col) w

/-- The reciprocal square root of a positive degree, zero otherwise. -/
def dinv (d : FArr S100000) : FArr S100000 :=
  select (cmpf .ogt d (broadcastInDim S100000 ![] bcast_S_S100000 (constant (F := Ideal) S_ .f32 0x00000000#32))) (Host.rsqrt d)
    (broadcastInDim S100000 ![] bcast_S_S100000 (constant (F := Ideal) S_ .f32 0x00000000#32))

/-- An edge's coefficient: dinv at its source, times its weight, times dinv at its target. -/
def norm (row col : IArr S3300000) (w : FArr S3300000) (dv : FArr S100000) : FArr S3300000 :=
  mulf (mulf (Host.gather gather_S100000_S3300000x1_S3300000_n_0_n_n_0_1_1 dv (broadcastInDim S3300000x1 ![0] bcast_S3300000_S3300000x1_0 (wrap row))) w)
    (Host.gather gather_S100000_S3300000x1_S3300000_n_0_n_n_0_1_1 dv (broadcastInDim S3300000x1 ![0] bcast_S3300000_S3300000x1_0 (wrap col)))

/-- The coefficients from the edge list and the edge weights. -/
def coeffs (e : IArr S2x3200000) (w : FArr S3200000) : FArr S3300000 :=
  norm (rowIdx e) (colIdx e) (wts w) (dinv (deg (colIdx e) (wts w)))

/-- One round of message passing over rows of width 16. -/
def agg16 (row col : IArr S3300000) (nrm : FArr S3300000) (h : FArr S100000x16) : FArr S100000x16 :=
  Host.scatterAdd (F := Ideal) scatter_S100000x16_S3300000x1_S3300000x16_1_0_0_1 (broadcastInDim S100000x16 ![] bcast_S_S100000x16 (constant (F := Ideal) S_ .f32 0x00000000#32))
    (broadcastInDim S3300000x1 ![0] bcast_S3300000_S3300000x1_0 col)
    (mulf (broadcastInDim S3300000x16 ![0, 1] bcast_S3300000x1_S3300000x16_0_1 (broadcastInDim S3300000x1 ![0] bcast_S3300000_S3300000x1_0 nrm))
      (Host.gather gather_S100000x16_S3300000x1_S3300000x16_1_0_n_n_0_1_116 h (broadcastInDim S3300000x1 ![0] bcast_S3300000_S3300000x1_0 (wrap row))))

/-- One round of message passing over rows of width 2. -/
def agg2 (row col : IArr S3300000) (nrm : FArr S3300000) (h : FArr S100000x2) : FArr S100000x2 :=
  Host.scatterAdd (F := Ideal) scatter_S100000x2_S3300000x1_S3300000x2_1_0_0_1 (broadcastInDim S100000x2 ![] bcast_S_S100000x2 (constant (F := Ideal) S_ .f32 0x00000000#32))
    (broadcastInDim S3300000x1 ![0] bcast_S3300000_S3300000x1_0 col)
    (mulf (broadcastInDim S3300000x2 ![0, 1] bcast_S3300000x1_S3300000x2_0_1 (broadcastInDim S3300000x1 ![0] bcast_S3300000_S3300000x1_0 nrm))
      (Host.gather gather_S100000x2_S3300000x1_S3300000x2_1_0_n_n_0_1_12 h (broadcastInDim S3300000x1 ![0] bcast_S3300000_S3300000x1_0 (wrap row))))

/-- The whole network, from the node features, the edge list, the edge weights and the two layers' weights and biases. -/
def network (x : FArr S100000x37) (e : IArr S2x3200000) (w : FArr S3200000) (w1 : FArr S37x16) (b1 : FArr S16)
    (w2 : FArr S16x2) (b2 : FArr S2) : FArr S100000x2 :=
  logSoftmax (M := 100000) (N := 2) (addRow (M := 100000) (N := 2)
    (agg2 (rowIdx e) (colIdx e) (coeffs e w)
      (matProd (M := 100000) (K := 16) (N := 2)
        (biasRelu (M := 100000) (N := 16) (agg16 (rowIdx e) (colIdx e) (coeffs e w) (matProd (M := 100000) (K := 37) (N := 16) x w1)) (rowOf (N := 16) b1))
        w2))
    (rowOf (N := 2) b2))

end Cert.Chain

end
-- ==== Proof.Region0.lean ====
/-
  The first region: a row-tiled product. The grid has ten points; point t stages rows 10000·t … 10000·t + 9999 of the
  [100000, 37] operand and the whole [37, 16] operand, multiplies them on the matrix unit (both narrowed to bf16, into a
  zero accumulator), and writes the [10000, 16] block back as rows 10000·t … of the result. Over the extended reals
  the narrowing is the identity, so each block is the matching band of rows of the one product of the two whole arrays,
  and the ten bands fill the result: after the region the result array is that product.
  The entry contents `V` of the buffers are a parameter, as in the generated frame.
-/
import proofs.«154108_j87540023427398_1_alg».proof.Proof.Gen.KernelIdeal.Frame
import proofs.«154108_j87540023427398_1_alg».proof.Proof.LibMatProd
import Idealize.ShloMosaic.Lib.Pipeline.Value
import Idealize.ShloMosaic.Lib.ValueIdx

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat)
open Cert.LibMatProd

variable (V : (c : Dev nD) → (b : Ref sig .tc) → Buf (Elt Ideal) ((c : Thread nD τ).loc b))

theorem hz : (![0, 0] : Fin 2 → Nat) = fun _ => 0 := funext fun a => by fin_cases a <;> rfl

/-- The block indices of the three windows at point t: the row-tiled operand and the result move with t along the rows,
    the weight stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The body's value on a band of rows: if x0 holds rows r … r + 9999 of X and x1 is W, the product the body computes, at
    y, is the product of the whole arrays at the index whose row is r plus y's row. -/
theorem pay_rows (X : FVec Ideal S100000x37 .f32) (W : FVec Ideal S37x16 .f32)
    (x0 : Vec Ideal S10000x37 .f32) (x1 : Vec Ideal S37x16 .f32) (r : ℕ)
    (hx : ∀ (p : Fin 10000) (k : Fin 37) (hp : r + p.val < 100000), x0 (ix2 p k) = X (ix2 ⟨r + p.val, hp⟩ k))
    (hw : ∀ z, x1 z = W z) (y : S10000x16.Idx) (i : S100000x16.Idx)
    (hi0 : (i 0).val = r + (y 0).val) (hi1 : (i 1).val = (y 1).val) :
    k0_pay1 (F := Ideal) x0 x1 y = matProd (M := 100000) (K := 37) (N := 16) X W i := by
  unfold k0_pay1
  refine (congrFun (matmul_eq (M := 10000) (K := 37) (N := 16) dot_S10000x37_S37x16_S10000x16_1_0_0_1_n_n rfl rfl rfl rfl rfl rfl x0 x1 bitsLt_bf16_f32) y).trans ?_
  exact matProd_rows (M := 100000) (K := 37) (N := 16) (T := 10000) X W x0 x1 r hx hw y i hi0 hi1

/-- The row-tiled operand's block at point t holds rows 10000·t … of its array. -/
theorem blk0_apply (c : Dev nD) (t : Fin cfg0.N) (p : Fin 10000) (k : Fin 37) (hp : 10000 * t.val + p.val < 100000) :
    (iblk0 V c 0 t : Vec Ideal S10000x37 .f32) (ix2 p k) = (V c main_arg0 : FVec Ideal S100000x37 .f32) (ix2 ⟨10000 * t.val + p.val, hp⟩ k) := by
  obtain ⟨e0, e1, -, -, -, -⟩ := idx_facts t
  unfold iblk0
  rw [View.read_apply]
  show V c main_arg0 (((cfg0.win 0).blk t).view.emb (ix2 p k)) = V c main_arg0 _
  refine congrArg _ (funext fun a => Fin.ext ?_)
  match a with
  | ⟨0, _⟩ => show win0_0.index t (0 : Fin 2) * 10000 + 1 * p.val = 10000 * t.val + p.val; rw [e0]; omega
  | ⟨1, _⟩ => show win0_0.index t (1 : Fin 2) * 37 + 1 * k.val = k.val; rw [e1]; omega

/-- The weight's block at every point is its whole array. -/
theorem blk1_apply (c : Dev nD) (t : Fin cfg0.N) (z : S37x16.Idx) :
    (iblk0 V c 1 t : Vec Ideal S37x16 .f32) z = (V c main_arg3 : FVec Ideal S37x16 .f32) z := by
  obtain ⟨-, -, e2, e3, -, -⟩ := idx_facts t
  unfold iblk0
  rw [View.read_apply]
  show V c main_arg3 (((cfg0.win 1).blk t).view.emb z) = V c main_arg3 z
  refine congrArg _ (funext fun a => Fin.ext ?_)
  match a with
  | ⟨0, _⟩ => show win0_1.index t (0 : Fin 2) * 37 + 1 * (z 0).val = (z 0).val; rw [e2]; omega
  | ⟨1, _⟩ => show win0_1.index t (1 : Fin 2) * 16 + 1 * (z 1).val = (z 1).val; rw [e3]; omega

/-- What point t writes back is block t of the product of the two whole arrays. -/
theorem flushed_eq (c : Dev nD) (t : Fin cfg0.N) :
    (dat0 V c).flushed 2 t = ((cfg0.win 2).blk t).view.read (Elt Ideal)
      (matProd (M := 100000) (K := 37) (N := 16) (V c main_arg0) (V c main_arg3)) := by
  have hN : grid0.N = 10 := N_0
  have ht : t.val < 10 := hN ▸ t.isLt
  obtain ⟨-, -, -, -, e4, e5⟩ := idx_facts t
  show (cfg0.win 2).cut (grid0.coords t) ((dat0 V c).after 2 t) = _
  rw [after0_2]
  unfold out0_2
  rw [View.canon_unit_zero hz]
  simp only [View.ld_unit_zero (S := S10000x37) hz, View.ld_unit_zero (S := S37x16) hz]
  funext j
  rw [View.read_apply]
  refine pay_rows (V c main_arg0) (V c main_arg3) (iblk0 V c 0 t) (iblk0 V c 1 t) (10000 * t.val)
    (fun p k hp => blk0_apply V c t p k hp) (fun z => blk1_apply V c t z) j _ ?_ ?_
  · show win0_2.index t (0 : Fin 2) * 10000 + 1 * (j 0).val = 10000 * t.val + (j 0).val; rw [e4]; omega
  · show win0_2.index t (1 : Fin 2) * 16 + 1 * (j 1).val = (j 1).val; rw [e5]; omega

/-- An index of the result array is in point t's block iff each coordinate is in the block's range on its axis. -/
theorem mem_blk (t : Fin cfg0.N) (i : S100000x16.Idx) :
    i ∈ ((cfg0.win 2).blk t).view.set ↔ ∀ a : Fin 2, win0_2.index t a * S10000x16.size a ≤ (i a).val ∧ (i a).val < win0_2.index t a * S10000x16.size a + S10000x16.size a := by
  show i ∈ ((View.whole main_v32).slice (win0_2.rect t)).set ↔ _
  rw [View.set_slice_whole, Rect.mem_set_unit]
  exact Iff.rfl

/-- Row r of the result lies in the block of point r / 10000. -/
theorem cover (i : S100000x16.Idx) : ∃ t : Fin cfg0.N, (cfg0.win 2).flush t = true ∧ i ∈ ((cfg0.win 2).blk t).view.set := by
  have hN : grid0.N = 10 := N_0
  have hi0 : (i 0).val < 100000 := (i 0).isLt
  have hi1 : (i 1).val < 16 := (i 1).isLt
  let t : Fin cfg0.N := ⟨(i 0).val / 10000, by show (i 0).val / 10000 < grid0.N; rw [hN]; omega⟩
  have htv : t.val = (i 0).val / 10000 := rfl
  obtain ⟨-, -, -, -, e4, e5⟩ := idx_facts t
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; rw [e4, htv]; omega
  | ⟨1, _⟩ => show win0_2.index t (1 : Fin 2) * 16 ≤ (i 1).val ∧ (i 1).val < win0_2.index t (1 : Fin 2) * 16 + 16; rw [e5]; omega

/-- After the region the result array is the product of the two operand arrays as the region found them. -/
theorem final (c : Dev nD) : (dat0 V c).arrAt 2 cfg0.N
    = matProd (M := 100000) (K := 37) (N := 16) (V c main_arg0) (V c main_arg3) :=
  (dat0 V c).arrAt_eq_of_cover 2 _ (fun t _ => flushed_eq V c t) cover

end Cert.KernelIdeal.Region0

end
-- ==== Proof.Region1.lean ====
/-
  The second region: bias, clamp at zero, then a row-tiled product. Point t of the ten stages rows 10000·t … of the
  [100000, 16] operand, the whole one-row bias [1, 16] and the whole [16, 2] weight; the body adds the bias to every row,
  takes the maximum with zero, and multiplies by the weight on the matrix unit (narrowed to bf16, into a zero accumulator).
  Over the extended reals each block is the matching band of rows of one function of the whole arrays — the product of
  the clamped biased matrix with the weight — and the ten bands fill the result.
  The entry contents `V` of the buffers are a parameter, as in the generated frame.
-/
import proofs.«154108_j87540023427398_1_alg».proof.Proof.Gen.KernelIdeal.Frame
import proofs.«154108_j87540023427398_1_alg».proof.Proof.LibMatProd
import proofs.«154108_j87540023427398_1_alg».proof.Proof.LibBiasRelu
import Idealize.ShloMosaic.Lib.Pipeline.Value
import Idealize.ShloMosaic.Lib.ValueIdx

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat)
open Cert.LibMatProd Cert.LibBiasRelu

variable (V : (c : Dev nD) → (b : Ref sig .tc) → Buf (Elt Ideal) ((c : Thread nD τ).loc b))

theorem hz : (![0, 0] : Fin 2 → Nat) = fun _ => 0 := funext fun a => by fin_cases a <;> rfl

/-- The block indices of the four windows at point t: the row-tiled operand and the result move with t along the rows,
    the bias and the weight stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The body's value: the product of the clamped biased block with the weight. -/
theorem pay_eq (x0 : Vec Ideal S10000x16 .f32) (x1 : Vec Ideal S1x16 .f32) (x2 : Vec Ideal S16x2 .f32) :
    k1_pay1 (F := Ideal) x0 x1 x2 = matProd (M := 10000) (K := 16) (N := 2) (biasRelu (M := 10000) (N := 16) x0 x1) x2 :=
  (congrArg (fun z : FVec Ideal S10000x16 .f32 => matmul dot_S10000x16_S16x2_S10000x2_1_0_0_1_n_n none (truncf .bf16 z bitsLt_bf16_f32)
      (truncf .bf16 x2 bitsLt_bf16_f32) (constant S10000x2 .f32 0x00000000#32))
    (vector_form (M := 10000) (N := 16) x0 x1 shapeCasts_S10000x16_S10000x16 shapeCasts_S1x16_S1x16 broadcasts_S1x16_S10000x16)).trans
  (matmul_eq (M := 10000) (K := 16) (N := 2) dot_S10000x16_S16x2_S10000x2_1_0_0_1_n_n rfl rfl rfl rfl rfl rfl _ x2 bitsLt_bf16_f32)

/-- On a band of rows: if x0 holds rows r … r + 9999 of A, x1 is B and x2 is W, the body's value at y is the whole
    arrays' function at the index whose row is r plus y's row. -/
theorem pay_rows (A : FVec Ideal S100000x16 .f32) (B : FVec Ideal S1x16 .f32) (W : FVec Ideal S16x2 .f32)
    (x0 : Vec Ideal S10000x16 .f32) (x1 : Vec Ideal S1x16 .f32) (x2 : Vec Ideal S16x2 .f32) (r : ℕ)
    (hx : ∀ (p : Fin 10000) (k : Fin 16) (hp : r + p.val < 100000), x0 (ix2 p k) = A (ix2 ⟨r + p.val, hp⟩ k))
    (hb : ∀ z, x1 z = B z) (hw : ∀ z, x2 z = W z) (y : S10000x2.Idx) (i : S100000x2.Idx)
    (hi0 : (i 0).val = r + (y 0).val) (hi1 : (i 1).val = (y 1).val) :
    k1_pay1 (F := Ideal) x0 x1 x2 y
      = matProd (M := 100000) (K := 16) (N := 2) (biasRelu (M := 100000) (N := 16) A B) W i := by
  rw [pay_eq]
  exact matProd_rows (M := 100000) (K := 16) (N := 2) (T := 10000) (biasRelu (M := 100000) (N := 16) A B) W
    (biasRelu (M := 10000) (N := 16) x0 x1) x2 r
    (fun p k hp => biasRelu_rows (M := 100000) (N := 16) (T := 10000) A B x0 x1 r hx hb p k hp) hw y i hi0 hi1

/-- The row-tiled operand's block at point t holds rows 10000·t … of its array. -/
theorem blk0_apply (c : Dev nD) (t : Fin cfg1.N) (p : Fin 10000) (k : Fin 16) (hp : 10000 * t.val + p.val < 100000) :
    (iblk1 V c 0 t : Vec Ideal S10000x16 .f32) (ix2 p k) = (V c main_v45 : FVec Ideal S100000x16 .f32) (ix2 ⟨10000 * t.val + p.val, hp⟩ k) := by
  obtain ⟨e0, e1, -⟩ := idx_facts t
  unfold iblk1
  rw [View.read_apply]
  show V c main_v45 (((cfg1.win 0).blk t).view.emb (ix2 p k)) = V c main_v45 _
  refine congrArg _ (funext fun a => Fin.ext ?_)
  match a with
  | ⟨0, _⟩ => show win1_0.index t (0 : Fin 2) * 10000 + 1 * p.val = 10000 * t.val + p.val; rw [e0]; omega
  | ⟨1, _⟩ => show win1_0.index t (1 : Fin 2) * 16 + 1 * k.val = k.val; rw [e1]; omega

/-- The bias's block at every point is its whole array. -/
theorem blk1_apply (c : Dev nD) (t : Fin cfg1.N) (z : S1x16.Idx) :
    (iblk1 V c 1 t : Vec Ideal S1x16 .f32) z = (V c main_v46 : FVec Ideal S1x16 .f32) z := by
  obtain ⟨-, -, e2, e3, -⟩ := idx_facts t
  unfold iblk1
  rw [View.read_apply]
  show V c main_v46 (((cfg1.win 1).blk t).view.emb z) = V c main_v46 z
  refine congrArg _ (funext fun a => Fin.ext ?_)
  match a with
  | ⟨0, _⟩ => show win1_1.index t (0 : Fin 2) * 1 + 1 * (z 0).val = (z 0).val; rw [e2]; omega
  | ⟨1, _⟩ => show win1_1.index t (1 : Fin 2) * 16 + 1 * (z 1).val = (z 1).val; rw [e3]; omega

/-- The weight's block at every point is its whole array. -/
theorem blk2_apply (c : Dev nD) (t : Fin cfg1.N) (z : S16x2.Idx) :
    (iblk1 V c 2 t : Vec Ideal S16x2 .f32) z = (V c main_arg5 : FVec Ideal S16x2 .f32) z := by
  obtain ⟨-, -, -, -, e4, e5, -⟩ := idx_facts t
  unfold iblk1
  rw [View.read_apply]
  show V c main_arg5 (((cfg1.win 2).blk t).view.emb z) = V c main_arg5 z
  refine congrArg _ (funext fun a => Fin.ext ?_)
  match a with
  | ⟨0, _⟩ => show win1_2.index t (0 : Fin 2) * 16 + 1 * (z 0).val = (z 0).val; rw [e4]; omega
  | ⟨1, _⟩ => show win1_2.index t (1 : Fin 2) * 2 + 1 * (z 1).val = (z 1).val; rw [e5]; omega

/-- What point t writes back is block t of the one function of the whole arrays. -/
theorem flushed_eq (c : Dev nD) (t : Fin cfg1.N) :
    (dat1 V c).flushed 3 t = ((cfg1.win 3).blk t).view.read (Elt Ideal)
      (matProd (M := 100000) (K := 16) (N := 2) (biasRelu (M := 100000) (N := 16) (V c main_v45) (V c main_v46)) (V c main_arg5)) := by
  have hN : grid1.N = 10 := N_1
  have ht : t.val < 10 := hN ▸ t.isLt
  obtain ⟨-, -, -, -, -, -, e6, e7⟩ := idx_facts t
  show (cfg1.win 3).cut (grid1.coords t) ((dat1 V c).after 3 t) = _
  rw [after1_3]
  unfold out1_3
  rw [View.canon_unit_zero hz]
  simp only [View.ld_unit_zero (S := S10000x16) hz, View.ld_unit_zero (S := S1x16) hz, View.ld_unit_zero (S := S16x2) hz]
  funext j
  rw [View.read_apply]
  refine pay_rows (V c main_v45) (V c main_v46) (V c main_arg5) (iblk1 V c 0 t) (iblk1 V c 1 t) (iblk1 V c 2 t) (10000 * t.val)
    (fun p k hp => blk0_apply V c t p k hp) (fun z => blk1_apply V c t z) (fun z => blk2_apply V c t z) j _ ?_ ?_
  · show win1_3.index t (0 : Fin 2) * 10000 + 1 * (j 0).val = 10000 * t.val + (j 0).val; rw [e6]; omega
  · show win1_3.index t (1 : Fin 2) * 2 + 1 * (j 1).val = (j 1).val; rw [e7]; omega

/-- An index of the result array is in point t's block iff each coordinate is in the block's range on its axis. -/
theorem mem_blk (t : Fin cfg1.N) (i : S100000x2.Idx) :
    i ∈ ((cfg1.win 3).blk t).view.set ↔ ∀ a : Fin 2, win1_3.index t a * S10000x2.size a ≤ (i a).val ∧ (i a).val < win1_3.index t a * S10000x2.size a + S10000x2.size a := by
  show i ∈ ((View.whole main_v47).slice (win1_3.rect t)).set ↔ _
  rw [View.set_slice_whole, Rect.mem_set_unit]
  exact Iff.rfl

/-- Row r of the result lies in the block of point r / 10000. -/
theorem cover (i : S100000x2.Idx) : ∃ t : Fin cfg1.N, (cfg1.win 3).flush t = true ∧ i ∈ ((cfg1.win 3).blk t).view.set := by
  have hN : grid1.N = 10 := N_1
  have hi0 : (i 0).val < 100000 := (i 0).isLt
  have hi1 : (i 1).val < 2 := (i 1).isLt
  let t : Fin cfg1.N := ⟨(i 0).val / 10000, by show (i 0).val / 10000 < grid1.N; rw [hN]; omega⟩
  have htv : t.val = (i 0).val / 10000 := rfl
  obtain ⟨-, -, -, -, -, -, e6, e7⟩ := idx_facts t
  refine ⟨t, flush1_3 t, ?_⟩
  rw [mem_blk]
  intro a
  match a with
  | ⟨0, _⟩ => show win1_3.index t (0 : Fin 2) * 10000 ≤ (i 0).val ∧ (i 0).val < win1_3.index t (0 : Fin 2) * 10000 + 10000; rw [e6, htv]; omega
  | ⟨1, _⟩ => show win1_3.index t (1 : Fin 2) * 2 ≤ (i 1).val ∧ (i 1).val < win1_3.index t (1 : Fin 2) * 2 + 2; rw [e7]; omega

/-- After the region the result array is the product of the clamped biased operand with the weight, each array as the
    region found it. -/
theorem final (c : Dev nD) : (dat1 V c).arrAt 3 cfg1.N
    = matProd (M := 100000) (K := 16) (N := 2) (biasRelu (M := 100000) (N := 16) (V c main_v45) (V c main_v46)) (V c main_arg5) :=
  (dat1 V c).arrAt_eq_of_cover 3 _ (fun t _ => flushed_eq V c t) cover

end Cert.KernelIdeal.Region1

end
-- ==== Proof.Region2.lean ====
/-
  The third region: bias, then the logarithm of the softmax along each row. Point t of the ten stages rows 10000·t … of
  the [100000, 2] operand and the whole one-row bias [1, 2]; the body adds the bias to every row, subtracts each row's
  maximum, and subtracts the logarithm of the row's sum of exponentials. A row of the result depends on the same row of
  the operand only, so each block is the matching band of rows of one function of the whole arrays, and the ten bands
  fill the result.
  The entry contents `V` of the buffers are a parameter, as in the generated frame.
-/
import proofs.«154108_j87540023427398_1_alg».proof.Proof.Gen.KernelIdeal.Frame
import proofs.«154108_j87540023427398_1_alg».proof.Proof.LibRowBias
import Idealize.ShloMosaic.Lib.Pipeline.Value
import Idealize.ShloMosaic.Lib.ValueIdx

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat)
open Cert.LibRowBias Cert.RowLogSoftmax

variable (V : (c : Dev nD) → (b : Ref sig .tc) → Buf (Elt Ideal) ((c : Thread nD τ).loc b))

theorem hz : (![0, 0] : Fin 2 → Nat) = fun _ => 0 := funext fun a => by fin_cases a <;> rfl

/-- The block indices of the three windows at point t: the row-tiled operand and the result move with t along the rows,
    the bias stays. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The body's value: the logarithm of the row softmax of the biased block. -/
theorem pay_eq (x0 : Vec Ideal S10000x2 .f32) (x1 : Vec Ideal S1x2 .f32) :
    k2_pay1 (F := Ideal) x0 x1 = logSoftmax (M := 10000) (N := 2) (addRow (M := 10000) (N := 2) x0 x1) :=
  (logSoftmax_unit_form (T := 10000) (N := 2)
      (addf (shapeCast S10000x2 x0 shapeCasts_S10000x2_S10000x2) (broadcastTo S10000x2 (shapeCast S1x2 x1 shapeCasts_S1x2_S1x2) broadcasts_S1x2_S10000x2))
      shapeCasts_S10000x2_S10000x2 reduces_S10000x2_S10000 (.inl rfl) rfl rfl shapeCasts_S10000_S10000x1 broadcasts_S10000x1_S10000x2).trans
    (congrArg (logSoftmax (M := 10000) (N := 2))
      (addRow_vector_form (M := 10000) (N := 2) x0 x1 shapeCasts_S10000x2_S10000x2 shapeCasts_S1x2_S1x2 broadcasts_S1x2_S10000x2))

/-- On a band of rows: if x0 holds rows r … r + 9999 of A and x1 is B, the body's value at y is the whole arrays'
    function at the index whose row is r plus y's row. -/
theorem pay_rows (A : FVec Ideal S100000x2 .f32) (B : FVec Ideal S1x2 .f32)
    (x0 : Vec Ideal S10000x2 .f32) (x1 : Vec Ideal S1x2 .f32) (r : ℕ)
    (hx : ∀ (p : Fin 10000) (k : Fin 2) (hp : r + p.val < 100000), x0 (ix2 p k) = A (ix2 ⟨r + p.val, hp⟩ k))
    (hb : ∀ z, x1 z = B z) (y : S10000x2.Idx) (i : S100000x2.Idx)
    (hi0 : (i 0).val = r + (y 0).val) (hi1 : (i 1).val = (y 1).val) :
    k2_pay1 (F := Ideal) x0 x1 y
      = logSoftmax (M := 100000) (N := 2) (addRow (M := 100000) (N := 2) A B) i := by
  rw [pay_eq]
  exact logSoftmax_rows (M := 100000) (N := 2) (T := 10000) (addRow (M := 100000) (N := 2) A B) (addRow (M := 10000) (N := 2) x0 x1) r
    (fun p k hp => addRow_rows (M := 100000) (N := 2) (T := 10000) A B x0 x1 r hx hb p k hp) y i hi0 hi1

/-- The row-tiled operand's block at point t holds rows 10000·t … of its array. -/
theorem blk0_apply (c : Dev nD) (t : Fin cfg2.N) (p : Fin 10000) (k : Fin 2) (hp : 10000 * t.val + p.val < 100000) :
    (iblk2 V c 0 t : Vec Ideal S10000x2 .f32) (ix2 p k) = (V c main_v60 : FVec Ideal S100000x2 .f32) (ix2 ⟨10000 * t.val + p.val, hp⟩ k) := by
  obtain ⟨e0, e1, -⟩ := idx_facts t
  unfold iblk2
  rw [View.read_apply]
  show V c main_v60 (((cfg2.win 0).blk t).view.emb (ix2 p k)) = V c main_v60 _
  refine congrArg _ (funext fun a => Fin.ext ?_)
  match a with
  | ⟨0, _⟩ => show win2_0.index t (0 : Fin 2) * 10000 + 1 * p.val = 10000 * t.val + p.val; rw [e0]; omega
  | ⟨1, _⟩ => show win2_0.index t (1 : Fin 2) * 2 + 1 * k.val = k.val; rw [e1]; omega

/-- The bias's block at every point is its whole array. -/
theorem blk1_apply (c : Dev nD) (t : Fin cfg2.N) (z : S1x2.Idx) :
    (iblk2 V c 1 t : Vec Ideal S1x2 .f32) z = (V c main_v61 : FVec Ideal S1x2 .f32) z := by
  obtain ⟨-, -, e2, e3, -⟩ := idx_facts t
  unfold iblk2
  rw [View.read_apply]
  show V c main_v61 (((cfg2.win 1).blk t).view.emb z) = V c main_v61 z
  refine congrArg _ (funext fun a => Fin.ext ?_)
  match a with
  | ⟨0, _⟩ => show win2_1.index t (0 : Fin 2) * 1 + 1 * (z 0).val = (z 0).val; rw [e2]; omega
  | ⟨1, _⟩ => show win2_1.index t (1 : Fin 2) * 2 + 1 * (z 1).val = (z 1).val; rw [e3]; omega

/-- What point t writes back is block t of the one function of the whole arrays. -/
theorem flushed_eq (c : Dev nD) (t : Fin cfg2.N) :
    (dat2 V c).flushed 2 t = ((cfg2.win 2).blk t).view.read (Elt Ideal)
      (logSoftmax (M := 100000) (N := 2) (addRow (M := 100000) (N := 2) (V c main_v60) (V c main_v61))) := by
  have hN : grid2.N = 10 := N_2
  have ht : t.val < 10 := hN ▸ t.isLt
  obtain ⟨-, -, -, -, e4, e5⟩ := idx_facts t
  show (cfg2.win 2).cut (grid2.coords t) ((dat2 V c).after 2 t) = _
  rw [after2_2]
  unfold out2_2
  rw [View.canon_unit_zero hz]
  simp only [View.ld_unit_zero (S := S10000x2) hz, View.ld_unit_zero (S := S1x2) hz]
  funext j
  rw [View.read_apply]
  refine pay_rows (V c main_v60) (V c main_v61) (iblk2 V c 0 t) (iblk2 V c 1 t) (10000 * t.val)
    (fun p k hp => blk0_apply V c t p k hp) (fun z => blk1_apply V c t z) j _ ?_ ?_
  · show win2_2.index t (0 : Fin 2) * 10000 + 1 * (j 0).val = 10000 * t.val + (j 0).val; rw [e4]; omega
  · show win2_2.index t (1 : Fin 2) * 2 + 1 * (j 1).val = (j 1).val; rw [e5]; omega

/-- An index of the result array is in point t's block iff each coordinate is in the block's range on its axis. -/
theorem mem_blk (t : Fin cfg2.N) (i : S100000x2.Idx) :
    i ∈ ((cfg2.win 2).blk t).view.set ↔ ∀ a : Fin 2, win2_2.index t a * S10000x2.size a ≤ (i a).val ∧ (i a).val < win2_2.index t a * S10000x2.size a + S10000x2.size a := by
  show i ∈ ((View.whole main_v62).slice (win2_2.rect t)).set ↔ _
  rw [View.set_slice_whole, Rect.mem_set_unit]
  exact Iff.rfl

/-- Row r of the result lies in the block of point r / 10000. -/
theorem cover (i : S100000x2.Idx) : ∃ t : Fin cfg2.N, (cfg2.win 2).flush t = true ∧ i ∈ ((cfg2.win 2).blk t).view.set := by
  have hN : grid2.N = 10 := N_2
  have hi0 : (i 0).val < 100000 := (i 0).isLt
  have hi1 : (i 1).val < 2 := (i 1).isLt
  let t : Fin cfg2.N := ⟨(i 0).val / 10000, by show (i 0).val / 10000 < grid2.N; rw [hN]; omega⟩
  have htv : t.val = (i 0).val / 10000 := rfl
  obtain ⟨-, -, -, -, e4, e5⟩ := idx_facts t
  refine ⟨t, flush2_2 t, ?_⟩
  rw [mem_blk]
  intro a
  match a with
  | ⟨0, _⟩ => show win2_2.index t (0 : Fin 2) * 10000 ≤ (i 0).val ∧ (i 0).val < win2_2.index t (0 : Fin 2) * 10000 + 10000; rw [e4, htv]; omega
  | ⟨1, _⟩ => show win2_2.index t (1 : Fin 2) * 2 ≤ (i 1).val ∧ (i 1).val < win2_2.index t (1 : Fin 2) * 2 + 2; rw [e5]; omega

/-- After the region the result array is the logarithm of the row softmax of the biased operand, each array as the region
    found it. -/
theorem final (c : Dev nD) : (dat2 V c).arrAt 2 cfg2.N
    = logSoftmax (M := 100000) (N := 2) (addRow (M := 100000) (N := 2) (V c main_v60) (V c main_v61)) :=
  (dat2 V c).arrAt_eq_of_cover 2 _ (fun t _ => flushed_eq V c t) cover

end Cert.KernelIdeal.Region2

end
-- ==== Proof.HostPre0a.lean ====
/-
  The kernel's first stretch of host operations, read from any contents `W`: the edge lists with the self loops appended
  and the weights with a one per node, each as a function of the argument it is made from.
-/
import proofs.«154108_j87540023427398_1_alg».proof.Proof.Gen.KernelIdeal.Frame
import proofs.«154108_j87540023427398_1_alg».proof.Proof.Chain
import Idealize.ShloMosaic.Lib.StableHlo.Run

set_option maxRecDepth 16384
set_option maxHeartbeats 8000000

noncomputable section

namespace Cert.KernelIdeal.HostPre0

open Cert.KernelIdeal Cert.KernelIdeal.Gen
open Idealize.ShloMosaic Idealize.ShloMosaic.TcCoe Idealize.SL.Sem Idealize.ShloMosaic.StableHlo
open Cert.Chain

variable (W : Valuation τ sig (Elt Ideal))

theorem p0_v3 : after (hostOps0 (F := Ideal)) W (Proc.devRef .tc main_v3)
    = rowIdx (W (Proc.devRef .tc main_arg1)) := by
  dsimp only [hostOps0]; after_results <;> rfl

theorem p0_v6 : after (hostOps0 (F := Ideal)) W (Proc.devRef .tc main_v6)
    = colIdx (W (Proc.devRef .tc main_arg1)) := by
  dsimp only [hostOps0]; after_results <;> rfl

theorem p0_v8 : after (hostOps0 (F := Ideal)) W (Proc.devRef .tc main_v8)
    = wts (W (Proc.devRef .tc main_arg2)) := by
  dsimp only [hostOps0]; after_results <;> rfl

end Cert.KernelIdeal.HostPre0

end
-- ==== Proof.HostPre0b.lean ====
/-
  The kernel's first stretch of host operations, read from any contents `W`: the comparison of the degrees with zero,
  their reciprocal square roots and the scalar zero; and the stretch writes none of the five float parameters' arrays.
-/
import proofs.«154108_j87540023427398_1_alg».proof.Proof.Gen.KernelIdeal.Frame
import proofs.«154108_j87540023427398_1_alg».proof.Proof.Chain
import Idealize.ShloMosaic.Lib.StableHlo.Run

set_option maxRecDepth 16384
set_option maxHeartbeats 8000000

noncomputable section

namespace Cert.KernelIdeal.HostPre0

open Cert.KernelIdeal Cert.KernelIdeal.Gen
open Idealize.ShloMosaic Idealize.ShloMosaic.TcCoe Idealize.SL.Sem Idealize.ShloMosaic.StableHlo
open Cert.Chain

variable (W : Valuation τ sig (Elt Ideal))

theorem p0_v13 : after (hostOps0 (F := Ideal)) W (Proc.devRef .tc main_v13)
    = cmpf .ogt (deg (colIdx (W (Proc.devRef .tc main_arg1))) (wts (W (Proc.devRef .tc main_arg2)))) (broadcastInDim S100000 ![] bcast_S_S100000 (constant (F := Ideal) S_ .f32 0x00000000#32)) := by
  dsimp only [hostOps0]; after_results <;> rfl

theorem p0_v14 : after (hostOps0 (F := Ideal)) W (Proc.devRef .tc main_v14)
    = Host.rsqrt (F := Ideal) (deg (colIdx (W (Proc.devRef .tc main_arg1))) (wts (W (Proc.devRef .tc main_arg2)))) := by
  dsimp only [hostOps0]; after_results <;> rfl

theorem p0_cst_2 : after (hostOps0 (F := Ideal)) W (Proc.devRef .tc main_cst_2)
    = (constant (F := Ideal) S_ .f32 0x00000000#32) := by
  dsimp only [hostOps0]; after_results <;> rfl

theorem p0_main_arg0 : after (hostOps0 (F := Ideal)) W (Proc.devRef .tc main_arg0) = W (Proc.devRef .tc main_arg0) := by
  dsimp only [hostOps0]; after_results_simp <;> rfl

theorem p0_main_arg3 : after (hostOps0 (F := Ideal)) W (Proc.devRef .tc main_arg3) = W (Proc.devRef .tc main_arg3) := by
  dsimp only [hostOps0]; after_results_simp <;> rfl

theorem p0_main_arg4 : after (hostOps0 (F := Ideal)) W (Proc.devRef .tc main_arg4) = W (Proc.devRef .tc main_arg4) := by
  dsimp only [hostOps0]; after_results_simp <;> rfl

theorem p0_main_arg5 : after (hostOps0 (F := Ideal)) W (Proc.devRef .tc main_arg5) = W (Proc.devRef .tc main_arg5) := by
  dsimp only [hostOps0]; after_results_simp <;> rfl

theorem p0_main_arg6 : after (hostOps0 (F := Ideal)) W (Proc.devRef .tc main_arg6) = W (Proc.devRef .tc main_arg6) := by
  dsimp only [hostOps0]; after_results_simp <;> rfl

end Cert.KernelIdeal.HostPre0

end
-- ==== Proof.HostPre1.lean ====
/-
  The kernel's two stretches between the degrees and the first region, read from any contents `W`: the choice between the
  reciprocal square root and zero (an outlined function of three operations), and the edges' coefficients; and what each
  stretch leaves as it was.
-/
import proofs.«154108_j87540023427398_1_alg».proof.Proof.Gen.KernelIdeal.Frame
import proofs.«154108_j87540023427398_1_alg».proof.Proof.Chain
import Idealize.ShloMosaic.Lib.StableHlo.Run

set_option maxRecDepth 16384
set_option maxHeartbeats 8000000

noncomputable section

namespace Cert.KernelIdeal.HostPre1

open Cert.KernelIdeal Cert.KernelIdeal.Gen
open Idealize.ShloMosaic Idealize.ShloMosaic.TcCoe Idealize.SL.Sem Idealize.ShloMosaic.StableHlo
open Cert.Chain

variable (W : Valuation τ sig (Elt Ideal))

theorem p1_v15 : after (hostOps0_1 (F := Ideal)) W (Proc.devRef .tc main_v15)
    = select (W (Proc.devRef .tc main_v13)) (W (Proc.devRef .tc main_v14)) (broadcastInDim S100000 ![] bcast_S_S100000 (W (Proc.devRef .tc main_cst_2))) := by
  dsimp only [hostOps0_1]; after_results <;> rfl

theorem p1_main_v3 : after (hostOps0_1 (F := Ideal)) W (Proc.devRef .tc main_v3) = W (Proc.devRef .tc main_v3) := by
  dsimp only [hostOps0_1]; after_results_simp <;> rfl

theorem p1_main_v6 : after (hostOps0_1 (F := Ideal)) W (Proc.devRef .tc main_v6) = W (Proc.devRef .tc main_v6) := by
  dsimp only [hostOps0_1]; after_results_simp <;> rfl

theorem p1_main_v8 : after (hostOps0_1 (F := Ideal)) W (Proc.devRef .tc main_v8) = W (Proc.devRef .tc main_v8) := by
  dsimp only [hostOps0_1]; after_results_simp <;> rfl

theorem p1_main_arg0 : after (hostOps0_1 (F := Ideal)) W (Proc.devRef .tc main_arg0) = W (Proc.devRef .tc main_arg0) := by
  dsimp only [hostOps0_1]; after_results_simp <;> rfl

theorem p1_main_arg3 : after (hostOps0_1 (F := Ideal)) W (Proc.devRef .tc main_arg3) = W (Proc.devRef .tc main_arg3) := by
  dsimp only [hostOps0_1]; after_results_simp <;> rfl

theorem p1_main_arg4 : after (hostOps0_1 (F := Ideal)) W (Proc.devRef .tc main_arg4) = W (Proc.devRef .tc main_arg4) := by
  dsimp only [hostOps0_1]; after_results_simp <;> rfl

theorem p1_main_arg5 : after (hostOps0_1 (F := Ideal)) W (Proc.devRef .tc main_arg5) = W (Proc.devRef .tc main_arg5) := by
  dsimp only [hostOps0_1]; after_results_simp <;> rfl

theorem p1_main_arg6 : after (hostOps0_1 (F := Ideal)) W (Proc.devRef .tc main_arg6) = W (Proc.devRef .tc main_arg6) := by
  dsimp only [hostOps0_1]; after_results_simp <;> rfl

theorem p2_v31 : after (hostOps0_2 (F := Ideal)) W (Proc.devRef .tc main_v31)
    = norm (W (Proc.devRef .tc main_v3)) (W (Proc.devRef .tc main_v6)) (W (Proc.devRef .tc main_v8)) (W (Proc.devRef .tc main_v15)) := by
  dsimp only [hostOps0_2]; after_results_simp <;> rfl

theorem p2_main_v3 : after (hostOps0_2 (F := Ideal)) W (Proc.devRef .tc main_v3) = W (Proc.devRef .tc main_v3) := by
  dsimp only [hostOps0_2]; after_results_simp <;> rfl

theorem p2_main_v6 : after (hostOps0_2 (F := Ideal)) W (Proc.devRef .tc main_v6) = W (Proc.devRef .tc main_v6) := by
  dsimp only [hostOps0_2]; after_results_simp <;> rfl

theorem p2_main_arg0 : after (hostOps0_2 (F := Ideal)) W (Proc.devRef .tc main_arg0) = W (Proc.devRef .tc main_arg0) := by
  dsimp only [hostOps0_2]; after_results_simp <;> rfl

theorem p2_main_arg3 : after (hostOps0_2 (F := Ideal)) W (Proc.devRef .tc main_arg3) = W (Proc.devRef .tc main_arg3) := by
  dsimp only [hostOps0_2]; after_results_simp <;> rfl

theorem p2_main_arg4 : after (hostOps0_2 (F := Ideal)) W (Proc.devRef .tc main_arg4) = W (Proc.devRef .tc main_arg4) := by
  dsimp only [hostOps0_2]; after_results_simp <;> rfl

theorem p2_main_arg5 : after (hostOps0_2 (F := Ideal)) W (Proc.devRef .tc main_arg5) = W (Proc.devRef .tc main_arg5) := by
  dsimp only [hostOps0_2]; after_results_simp <;> rfl

theorem p2_main_arg6 : after (hostOps0_2 (F := Ideal)) W (Proc.devRef .tc main_arg6) = W (Proc.devRef .tc main_arg6) := by
  dsimp only [hostOps0_2]; after_results_simp <;> rfl

end Cert.KernelIdeal.HostPre1

end
-- ==== Proof.HostMid.lean ====
/-
  The kernel's two stretches of host operations between its regions, read from any contents `W`. Each is one round of
  message passing over the array the region before it left — gather the source node's row for every edge, scale by the
  edge's coefficient, add into the target node's row — and a re-lay of a bias vector as one row; the first stretch writes
  neither the edge lists, the coefficients nor the later parameters.
-/
import proofs.«154108_j87540023427398_1_alg».proof.Proof.Gen.KernelIdeal.Frame
import proofs.«154108_j87540023427398_1_alg».proof.Proof.Chain
import Idealize.ShloMosaic.Lib.StableHlo.Run

set_option maxRecDepth 16384
set_option maxHeartbeats 8000000

noncomputable section

namespace Cert.KernelIdeal.HostMid

open Cert.KernelIdeal Cert.KernelIdeal.Gen
open Idealize.ShloMosaic Idealize.ShloMosaic.TcCoe Idealize.SL.Sem Idealize.ShloMosaic.StableHlo
open Cert.Chain

variable (W : Valuation τ sig (Elt Ideal))

theorem mid1_v45 : after (hostOps1 (F := Ideal)) W (Proc.devRef .tc main_v45)
    = agg16 (W (Proc.devRef .tc main_v3)) (W (Proc.devRef .tc main_v6)) (W (Proc.devRef .tc main_v31)) (W (Proc.devRef .tc main_v32)) := by
  dsimp only [hostOps1]; after_results_simp <;> rfl

theorem mid1_v46 : after (hostOps1 (F := Ideal)) W (Proc.devRef .tc main_v46)
    = shapeCast S1x16 (W (Proc.devRef .tc main_arg4) : FVec Ideal S16 .f32) shapeCasts_S16_S1x16 := by
  dsimp only [hostOps1]; after_results_simp <;> rfl

theorem mid1_main_v3 : after (hostOps1 (F := Ideal)) W (Proc.devRef .tc main_v3) = W (Proc.devRef .tc main_v3) := by
  dsimp only [hostOps1]; after_results_simp <;> rfl

theorem mid1_main_v6 : after (hostOps1 (F := Ideal)) W (Proc.devRef .tc main_v6) = W (Proc.devRef .tc main_v6) := by
  dsimp only [hostOps1]; after_results_simp <;> rfl

theorem mid1_main_v31 : after (hostOps1 (F := Ideal)) W (Proc.devRef .tc main_v31) = W (Proc.devRef .tc main_v31) := by
  dsimp only [hostOps1]; after_results_simp <;> rfl

theorem mid1_main_arg5 : after (hostOps1 (F := Ideal)) W (Proc.devRef .tc main_arg5) = W (Proc.devRef .tc main_arg5) := by
  dsimp only [hostOps1]; after_results_simp <;> rfl

theorem mid1_main_arg6 : after (hostOps1 (F := Ideal)) W (Proc.devRef .tc main_arg6) = W (Proc.devRef .tc main_arg6) := by
  dsimp only [hostOps1]; after_results_simp <;> rfl

theorem mid2_v60 : after (hostOps2 (F := Ideal)) W (Proc.devRef .tc main_v60)
    = agg2 (W (Proc.devRef .tc main_v3)) (W (Proc.devRef .tc main_v6)) (W (Proc.devRef .tc main_v31)) (W (Proc.devRef .tc main_v47)) := by
  dsimp only [hostOps2]; after_results_simp <;> rfl

theorem mid2_v61 : after (hostOps2 (F := Ideal)) W (Proc.devRef .tc main_v61)
    = shapeCast S1x2 (W (Proc.devRef .tc main_arg6) : FVec Ideal S2 .f32) shapeCasts_S2_S1x2 := by
  dsimp only [hostOps2]; after_results_simp <;> rfl

end Cert.KernelIdeal.HostMid

end
-- ==== Proof.KernelRun.lean ====
/-
  The idealized kernel's run, with its result named. The program is three pipelined regions among stretches of host
  operations; the contents of every buffer at each boundary are a fold from the launch memory (`Gen.W0` … `Gen.W8`), and
  the last boundary's contents are what the final state holds. So the result buffer ends at `Gen.W8` read at the result's
  reference, and the seven argument arrays end as launched.
-/
import proofs.«154108_j87540023427398_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer then holds the last boundary's
    contents at the result's reference, and each argument array is as launched. -/
theorem run_result : θ_run defs (onTc (τ := τ) (main (F := F))) ⟨m, fun _ => 0, ρ⟩ (fun r => ∀ c : Dev nD,
      r.2.mem ((c.tc : Thread nD τ).loc main_v62) = W8 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v62 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c)⟩)

end Cert.KernelIdeal.RunValue

end
-- ==== Proof.KernelValue.lean ====
/-
  The idealized kernel's result as one function of the arguments. The contents of every buffer at each boundary of the
  program are a fold from the launch memory: a stretch of host operations rewrites the buffers it writes, a region leaves
  its result array at what its region module says and every other buffer as it was. Read back from the result: the last
  region's array is the logarithm of the row softmax of its biased operand; that operand is one round of message passing
  over what the second region left, the bias a re-lay of the last argument; the second region's array is the product, with
  the second weights, of the clamped biased round over what the first region left; the first region's array is the product
  of the node features with the first weights. The edge lists and coefficients are written once, before the first region,
  and nothing writes them again. Together: the network of `Chain`.
-/
import proofs.«154108_j87540023427398_1_alg».proof.Proof.Gen.KernelIdeal.Frame
import proofs.«154108_j87540023427398_1_alg».proof.Proof.Chain
import proofs.«154108_j87540023427398_1_alg».proof.Proof.Region0
import proofs.«154108_j87540023427398_1_alg».proof.Proof.Region1
import proofs.«154108_j87540023427398_1_alg».proof.Proof.Region2
import proofs.«154108_j87540023427398_1_alg».proof.Proof.HostPre0a
import proofs.«154108_j87540023427398_1_alg».proof.Proof.HostPre0b
import proofs.«154108_j87540023427398_1_alg».proof.Proof.HostPre1
import proofs.«154108_j87540023427398_1_alg».proof.Proof.HostMid
import proofs.«154108_j87540023427398_1_alg».proof.Proof.KernelRun
import Idealize.ShloMosaic.Lib.StableHlo.Run

set_option maxRecDepth 16384
set_option maxHeartbeats 8000000

noncomputable section

namespace Cert.KernelIdeal.KernelValue

open Cert.KernelIdeal Cert.KernelIdeal.Gen
open Idealize.ShloMosaic Idealize.ShloMosaic.TcCoe Idealize.SL.Sem Idealize.ShloMosaic.StableHlo
open Cert.Chain Cert.LibMatProd Cert.LibBiasRelu Cert.LibRowBias Cert.RowLogSoftmax
open Cert.KernelIdeal.HostPre0 Cert.KernelIdeal.HostPre1 Cert.KernelIdeal.HostMid

/-! ## Before the first region -/

section Pre

variable (W : Valuation τ sig (Elt Ideal))

/-- The contents at the first region's entry, from launch contents `W`: the three stretches before it, in order. -/
abbrev pre : Valuation τ sig (Elt Ideal) :=
  after (hostOps0_2 (F := Ideal)) (after (hostOps0_1 (F := Ideal)) (after (hostOps0 (F := Ideal)) W))

theorem pre_v3 : pre W (Proc.devRef .tc main_v3) = rowIdx (W (Proc.devRef .tc main_arg1)) := by
  show after hostOps0_2 (after hostOps0_1 (after hostOps0 W)) (Proc.devRef .tc main_v3) = _
  rw [p2_main_v3, p1_main_v3, p0_v3]
theorem pre_v6 : pre W (Proc.devRef .tc main_v6) = colIdx (W (Proc.devRef .tc main_arg1)) := by
  show after hostOps0_2 (after hostOps0_1 (after hostOps0 W)) (Proc.devRef .tc main_v6) = _
  rw [p2_main_v6, p1_main_v6, p0_v6]
/-- The coefficients: dinv is the choice the middle stretch makes between the first stretch's reciprocal square root and
    zero, by the first stretch's comparison. -/
theorem pre_v31 : pre W (Proc.devRef .tc main_v31) = coeffs (W (Proc.devRef .tc main_arg1)) (W (Proc.devRef .tc main_arg2)) := by
  show after hostOps0_2 (after hostOps0_1 (after hostOps0 W)) (Proc.devRef .tc main_v31) = _
  rw [p2_v31, p1_main_v3, p1_main_v6, p1_main_v8, p1_v15, p0_v3, p0_v6, p0_v8, p0_v13, p0_v14, p0_cst_2]
  rfl
theorem pre_main_arg0 : pre W (Proc.devRef .tc main_arg0) = W (Proc.devRef .tc main_arg0) := by
  show after hostOps0_2 (after hostOps0_1 (after hostOps0 W)) (Proc.devRef .tc main_arg0) = _
  rw [p2_main_arg0, p1_main_arg0, p0_main_arg0]
theorem pre_main_arg3 : pre W (Proc.devRef .tc main_arg3) = W (Proc.devRef .tc main_arg3) := by
  show after hostOps0_2 (after hostOps0_1 (after hostOps0 W)) (Proc.devRef .tc main_arg3) = _
  rw [p2_main_arg3, p1_main_arg3, p0_main_arg3]
theorem pre_main_arg4 : pre W (Proc.devRef .tc main_arg4) = W (Proc.devRef .tc main_arg4) := by
  show after hostOps0_2 (after hostOps0_1 (after hostOps0 W)) (Proc.devRef .tc main_arg4) = _
  rw [p2_main_arg4, p1_main_arg4, p0_main_arg4]
theorem pre_main_arg5 : pre W (Proc.devRef .tc main_arg5) = W (Proc.devRef .tc main_arg5) := by
  show after hostOps0_2 (after hostOps0_1 (after hostOps0 W)) (Proc.devRef .tc main_arg5) = _
  rw [p2_main_arg5, p1_main_arg5, p0_main_arg5]
theorem pre_main_arg6 : pre W (Proc.devRef .tc main_arg6) = W (Proc.devRef .tc main_arg6) := by
  show after hostOps0_2 (after hostOps0_1 (after hostOps0 W)) (Proc.devRef .tc main_arg6) = _
  rw [p2_main_arg6, p1_main_arg6, p0_main_arg6]

end Pre

/-! ## The result -/

variable (m : (ℓ : Loc nD τ sig) → Buf (Elt Ideal) ℓ) (ρ : Dev nD → PrngReg)

/-- The last boundary's contents at the result's reference: the network of the seven argument arrays as launched. -/
theorem result_eq (c : Dev nD) : W8 m ρ c (Proc.devRef .tc main_v62)
    = network (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) := by
  -- the last region and the stretch before it
  have e8 : W8 m ρ c (Proc.devRef .tc main_v62) = logSoftmax (M := 100000) (N := 2) (addRow (M := 100000) (N := 2) (V7 m ρ c main_v60) (V7 m ρ c main_v61)) :=
    (W8_arr m ρ c 2).trans (Region2.final (V7 m ρ) c)
  have e60 : V7 m ρ c main_v60 = agg2 (W6 m ρ c (Proc.devRef .tc main_v3)) (W6 m ρ c (Proc.devRef .tc main_v6)) (W6 m ρ c (Proc.devRef .tc main_v31)) (W6 m ρ c (Proc.devRef .tc main_v47)) :=
    mid2_v60 (W6 m ρ c)
  have e61 : V7 m ρ c main_v61 = shapeCast S1x2 (W6 m ρ c (Proc.devRef .tc main_arg6) : FVec Ideal S2 .f32) shapeCasts_S2_S1x2 :=
    mid2_v61 (W6 m ρ c)
  -- the second region and the stretch before it
  have e47 : W6 m ρ c (Proc.devRef .tc main_v47) = matProd (M := 100000) (K := 16) (N := 2)
      (biasRelu (M := 100000) (N := 16) (V5 m ρ c main_v45) (V5 m ρ c main_v46)) (V5 m ρ c main_arg5) :=
    (W6_arr m ρ c 3).trans (Region1.final (V5 m ρ) c)
  have k6_main_v3 : W6 m ρ c (Proc.devRef .tc main_v3) = W4 m ρ c (Proc.devRef .tc main_v3) :=
    (W6_of_ne m ρ c main_v3 (by decide)).trans (mid1_main_v3 (W4 m ρ c))
  have k6_main_v6 : W6 m ρ c (Proc.devRef .tc main_v6) = W4 m ρ c (Proc.devRef .tc main_v6) :=
    (W6_of_ne m ρ c main_v6 (by decide)).trans (mid1_main_v6 (W4 m ρ c))
  have k6_main_v31 : W6 m ρ c (Proc.devRef .tc main_v31) = W4 m ρ c (Proc.devRef .tc main_v31) :=
    (W6_of_ne m ρ c main_v31 (by decide)).trans (mid1_main_v31 (W4 m ρ c))
  have k6_main_arg6 : W6 m ρ c (Proc.devRef .tc main_arg6) = W4 m ρ c (Proc.devRef .tc main_arg6) :=
    (W6_of_ne m ρ c main_arg6 (by decide)).trans (mid1_main_arg6 (W4 m ρ c))
  have e45 : V5 m ρ c main_v45 = agg16 (W4 m ρ c (Proc.devRef .tc main_v3)) (W4 m ρ c (Proc.devRef .tc main_v6)) (W4 m ρ c (Proc.devRef .tc main_v31)) (W4 m ρ c (Proc.devRef .tc main_v32)) :=
    mid1_v45 (W4 m ρ c)
  have e46 : V5 m ρ c main_v46 = shapeCast S1x16 (W4 m ρ c (Proc.devRef .tc main_arg4) : FVec Ideal S16 .f32) shapeCasts_S16_S1x16 :=
    mid1_v46 (W4 m ρ c)
  have e55 : V5 m ρ c main_arg5 = W4 m ρ c (Proc.devRef .tc main_arg5) := mid1_main_arg5 (W4 m ρ c)
  -- the first region and what comes before it
  have e32 : W4 m ρ c (Proc.devRef .tc main_v32) = matProd (M := 100000) (K := 37) (N := 16) (V3 m ρ c main_arg0) (V3 m ρ c main_arg3) :=
    (W4_arr m ρ c 2).trans (Region0.final (V3 m ρ) c)
  have k4_main_v3 : W4 m ρ c (Proc.devRef .tc main_v3) = rowIdx (m ((c.tc : Thread nD τ).loc main_arg1)) :=
    (W4_of_ne m ρ c main_v3 (by decide)).trans (pre_v3 (W0 m ρ c))
  have k4_main_v6 : W4 m ρ c (Proc.devRef .tc main_v6) = colIdx (m ((c.tc : Thread nD τ).loc main_arg1)) :=
    (W4_of_ne m ρ c main_v6 (by decide)).trans (pre_v6 (W0 m ρ c))
  have k4_main_v31 : W4 m ρ c (Proc.devRef .tc main_v31) = coeffs (m ((c.tc : Thread nD τ).loc main_arg1)) (m ((c.tc : Thread nD τ).loc main_arg2)) :=
    (W4_of_ne m ρ c main_v31 (by decide)).trans (pre_v31 (W0 m ρ c))
  have k4_main_arg4 : W4 m ρ c (Proc.devRef .tc main_arg4) = m ((c.tc : Thread nD τ).loc main_arg4) :=
    (W4_of_ne m ρ c main_arg4 (by decide)).trans (pre_main_arg4 (W0 m ρ c))
  have k4_main_arg5 : W4 m ρ c (Proc.devRef .tc main_arg5) = m ((c.tc : Thread nD τ).loc main_arg5) :=
    (W4_of_ne m ρ c main_arg5 (by decide)).trans (pre_main_arg5 (W0 m ρ c))
  have k4_main_arg6 : W4 m ρ c (Proc.devRef .tc main_arg6) = m ((c.tc : Thread nD τ).loc main_arg6) :=
    (W4_of_ne m ρ c main_arg6 (by decide)).trans (pre_main_arg6 (W0 m ρ c))
  have e30 : V3 m ρ c main_arg0 = m ((c.tc : Thread nD τ).loc main_arg0) := pre_main_arg0 (W0 m ρ c)
  have e33 : V3 m ρ c main_arg3 = m ((c.tc : Thread nD τ).loc main_arg3) := pre_main_arg3 (W0 m ρ c)
  rw [e8, e60, e61, e47, k6_main_v3, k6_main_v6, k6_main_v31, k6_main_arg6, e45, e46, e55, e32, k4_main_v3, k4_main_v6, k4_main_v31,
    k4_main_arg4, k4_main_arg5, k4_main_arg6, e30, e33]
  rw [rowOf_cast (N := 2), rowOf_cast (N := 16)]
  rfl

/-- The idealized kernel's run: the result buffer ends at the network of the argument arrays, and these end as launched. -/
theorem run : θ_run defs (onTc (τ := τ) (main (F := Ideal))) ⟨m, fun _ => 0, ρ⟩ (fun r => ∀ c : Dev nD,
      r.2.mem ((c.tc : Thread nD τ).loc main_v62)
        = network (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c).1.trans (result_eq m ρ c), (h c).2⟩)
    (Cert.KernelIdeal.RunValue.run_result (F := Ideal) m ρ)

end Cert.KernelIdeal.KernelValue

end
-- ==== Proof.RefParts.lean ====
/-
  The reference's line of host operations cut in six consecutive parts: the edge lists with the self loops appended and
  the degrees; the choice between a degree's reciprocal square root and zero; the edges' coefficients; the product with
  the first weights and one round of message passing; bias, clamp at zero, the product with the second weights and a
  second round; bias and the logarithm of the softmax along each row. Run one after the other the parts fold as the
  whole line does.
-/
import proofs.«154108_j87540023427398_1_alg».proof.Proof.RefRun
import Idealize.ShloMosaic.Lib.StableHlo.Run

set_option maxRecDepth 16384

noncomputable section

namespace Cert.ReferenceIdeal.RefParts

open Cert.ReferenceIdeal Cert.ReferenceIdeal.Gen Cert.ReferenceIdeal.RunP
open Idealize.ShloMosaic Idealize.ShloMosaic.TcCoe Idealize.SL.Sem Idealize.ShloMosaic.StableHlo

variable {F : FTy → Type} [FloatOps F]

/-- The edge lists with the self loops appended, the weights with a one per node, the degrees, their comparison with zero and their reciprocal square roots. -/
abbrev opsA0 : List (HloOp τ sig (Elt F)) :=
  [ nullary main_v0 (iotaInDim S100000 32 0),
    unary main_arg1 main_v1 ((extractStridedSlice S1x3200000 ![0, 0] · slices_S2x3200000_S1x3200000_0_0) : (⟨S2x3200000, .i32⟩ : BufTy).Contents (Elt F) → (⟨S1x3200000, .i32⟩ : BufTy).Contents (Elt F)),
    reshape main_v1 main_v2 rfl shapeCasts_S1x3200000_S3200000,
    binary main_v2 main_v0 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg1 main_v4 ((extractStridedSlice S1x3200000 ![1, 0] · slices_S2x3200000_S1x3200000_1_0) : (⟨S2x3200000, .i32⟩ : BufTy).Contents (Elt F) → (⟨S1x3200000, .i32⟩ : BufTy).Contents (Elt F)),
    reshape main_v4 main_v5 rfl shapeCasts_S1x3200000_S3200000,
    binary main_v5 main_v0 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst (constant S_ .f32 0x3F800000#32),
    unary main_cst main_v7 (broadcastInDim S100000 ![] bcast_S_S100000 : (⟨S_, .f32⟩ : BufTy).Contents (Elt F) → (⟨S100000, .f32⟩ : BufTy).Contents (Elt F)),
    binary main_arg2 main_v7 main_v8 ((fun a b => concatenate S3300000 0 [⟨S3200000, a⟩, ⟨S100000, b⟩] concatenates_S3200000_S100000_S3300000_d0) : (⟨S3200000, .f32⟩ : BufTy).Contents (Elt F) → (⟨S100000, .f32⟩ : BufTy).Contents (Elt F) → (⟨S3300000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v6 main_v10 (broadcastInDim S3300000x1 ![0] bcast_S3300000_S3300000x1_0 : (⟨S3300000, .i32⟩ : BufTy).Contents (Elt F) → (⟨S3300000x1, .i32⟩ : BufTy).Contents (Elt F)),
    ternary main_v9 main_v10 main_v8 main_v11 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf .ogt : (⟨S100000, .f32⟩ : BufTy).Contents (Elt F) → (⟨S100000, .f32⟩ : BufTy).Contents (Elt F) → (⟨S100000, .i1⟩ : BufTy).Contents (Elt F)),
    unary main_v11 main_v14 (Host.rsqrt : (⟨S100000, .f32⟩ : BufTy).Contents (Elt F) → (⟨S100000, .f32⟩ : BufTy).Contents (Elt F)),
    nullary main_cst_2 (constant S_ .f32 0x00000000#32) ]

/-- The reciprocal square root where the degree is positive, zero elsewhere. -/
abbrev opsA1 : List (HloOp τ sig (Elt F)) :=
  [ TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v13) (TRef.of (T := ⟨S100000, .f32⟩) main_v14) (TRef.of (T := ⟨S100000, .f32⟩) main_call0_v1) (TRef.of (T := ⟨S100000, .f32⟩) main_v15) select ]

/-- An edge's coefficient: the choice above at its source, times its weight, times the choice at its target. -/
abbrev opsA2 : List (HloOp τ sig (Elt F)) :=
  [ nullary main_c (constantI S_ 32 0#32),
    unary main_c main_v16 (broadcastInDim S3300000 ![] bcast_S_S3300000 : (⟨S_, .i32⟩ : BufTy).Contents (Elt F) → (⟨S3300000, .i32⟩ : BufTy).Contents (Elt F)),
    binary main_v3 main_v16 main_v17 (cmpi .slt : (⟨S3300000, .i32⟩ : BufTy).Contents (Elt F) → (⟨S3300000, .i32⟩ : BufTy).Contents (Elt F) → (⟨S3300000, .i1⟩ : BufTy).Contents (Elt F)),
    nullary main_c_3 (constantI S_ 32 100000#32),
    unary main_c_3 main_v18 (broadcastInDim S3300000 ![] bcast_S_S3300000 : (⟨S_, .i32⟩ : BufTy).Contents (Elt F) → (⟨S3300000, .i32⟩ : BufTy).Contents (Elt F)),
    binary main_v3 main_v18 main_v19 (addi : (⟨S3300000, .i32⟩ : BufTy).Contents (Elt F) → (⟨S3300000, .i32⟩ : BufTy).Contents (Elt F) → (⟨S3300000, .i32⟩ : BufTy).Contents (Elt F)),
    ternary main_v17 main_v19 main_v3 main_v20 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v20 main_v21 (broadcastInDim S3300000x1 ![0] bcast_S3300000_S3300000x1_0 : (⟨S3300000, .i32⟩ : BufTy).Contents (Elt F) → (⟨S3300000x1, .i32⟩ : BufTy).Contents (Elt F)),
    binary main_v15 main_v21 main_v22 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v22 main_v8 main_v23 (mulf : (⟨S3300000, .f32⟩ : BufTy).Contents (Elt F) → (⟨S3300000, .f32⟩ : BufTy).Contents (Elt F) → (⟨S3300000, .f32⟩ : BufTy).Contents (Elt F)),
    nullary main_c_4 (constantI S_ 32 0#32),
    unary main_c_4 main_v24 (broadcastInDim S3300000 ![] bcast_S_S3300000 : (⟨S_, .i32⟩ : BufTy).Contents (Elt F) → (⟨S3300000, .i32⟩ : BufTy).Contents (Elt F)),
    binary main_v6 main_v24 main_v25 (cmpi .slt : (⟨S3300000, .i32⟩ : BufTy).Contents (Elt F) → (⟨S3300000, .i32⟩ : BufTy).Contents (Elt F) → (⟨S3300000, .i1⟩ : BufTy).Contents (Elt F)),
    nullary main_c_5 (constantI S_ 32 100000#32),
    unary main_c_5 main_v26 (broadcastInDim S3300000 ![] bcast_S_S3300000 : (⟨S_, .i32⟩ : BufTy).Contents (Elt F) → (⟨S3300000, .i32⟩ : BufTy).Contents (Elt F)),
    binary main_v6 main_v26 main_v27 (addi : (⟨S3300000, .i32⟩ : BufTy).Contents (Elt F) → (⟨S3300000, .i32⟩ : BufTy).Contents (Elt F) → (⟨S3300000, .i32⟩ : BufTy).Contents (Elt F)),
    ternary main_v25 main_v27 main_v6 main_v28 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v28 main_v29 (broadcastInDim S3300000x1 ![0] bcast_S3300000_S3300000x1_0 : (⟨S3300000, .i32⟩ : BufTy).Contents (Elt F) → (⟨S3300000x1, .i32⟩ : BufTy).Contents (Elt F)),
    binary main_v15 main_v29 main_v30 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v23 main_v30 main_v31 (mulf : (⟨S3300000, .f32⟩ : BufTy).Contents (Elt F) → (⟨S3300000, .f32⟩ : BufTy).Contents (Elt F) → (⟨S3300000, .f32⟩ : BufTy).Contents (Elt F)) ]

/-- The product with the first weights and one round of message passing. -/
abbrev opsB : List (HloOp τ sig (Elt F)) :=
  [ binary main_arg0 main_arg3 main_v32 ((fun l r => Host.dotGeneral dot_S100000x37_S37x16_S100000x16_1_0_0_1_n_n none l r) : (⟨S100000x37, .f32⟩ : BufTy).Contents (Elt F) → (⟨S37x16, .f32⟩ : BufTy).Contents (Elt F) → (⟨S100000x16, .f32⟩ : BufTy).Contents (Elt F)),
    unary main_v31 main_v33 (broadcastInDim S3300000x1 ![0] bcast_S3300000_S3300000x1_0 : (⟨S3300000, .f32⟩ : BufTy).Contents (Elt F) → (⟨S3300000x1, .f32⟩ : BufTy).Contents (Elt F)),
    nullary main_c_6 (constantI S_ 32 0#32),
    unary main_c_6 main_v34 (broadcastInDim S3300000 ![] bcast_S_S3300000 : (⟨S_, .i32⟩ : BufTy).Contents (Elt F) → (⟨S3300000, .i32⟩ : BufTy).Contents (Elt F)),
    binary main_v3 main_v34 main_v35 (cmpi .slt : (⟨S3300000, .i32⟩ : BufTy).Contents (Elt F) → (⟨S3300000, .i32⟩ : BufTy).Contents (Elt F) → (⟨S3300000, .i1⟩ : BufTy).Contents (Elt F)),
    nullary main_c_7 (constantI S_ 32 100000#32),
    unary main_c_7 main_v36 (broadcastInDim S3300000 ![] bcast_S_S3300000 : (⟨S_, .i32⟩ : BufTy).Contents (Elt F) → (⟨S3300000, .i32⟩ : BufTy).Contents (Elt F)),
    binary main_v3 main_v36 main_v37 (addi : (⟨S3300000, .i32⟩ : BufTy).Contents (Elt F) → (⟨S3300000, .i32⟩ : BufTy).Contents (Elt F) → (⟨S3300000, .i32⟩ : BufTy).Contents (Elt F)),
    ternary main_v35 main_v37 main_v3 main_v38 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v38 main_v39 (broadcastInDim S3300000x1 ![0] bcast_S3300000_S3300000x1_0 : (⟨S3300000, .i32⟩ : BufTy).Contents (Elt F) → (⟨S3300000x1, .i32⟩ : BufTy).Contents (Elt F)),
    binary main_v32 main_v39 main_v40 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v33 main_v41 (broadcastInDim S3300000x16 ![0, 1] bcast_S3300000x1_S3300000x16_0_1 : (⟨S3300000x1, .f32⟩ : BufTy).Contents (Elt F) → (⟨S3300000x16, .f32⟩ : BufTy).Contents (Elt F)),
    binary main_v41 main_v40 main_v42 (mulf : (⟨S3300000x16, .f32⟩ : BufTy).Contents (Elt F) → (⟨S3300000x16, .f32⟩ : BufTy).Contents (Elt F) → (⟨S3300000x16, .f32⟩ : BufTy).Contents (Elt F)),
    nullary main_cst_8 (constant S_ .f32 0x00000000#32),
    unary main_cst_8 main_v43 (broadcastInDim S100000x16 ![] bcast_S_S100000x16 : (⟨S_, .f32⟩ : BufTy).Contents (Elt F) → (⟨S100000x16, .f32⟩ : BufTy).Contents (Elt F)),
    unary main_v6 main_v44 (broadcastInDim S3300000x1 ![0] bcast_S3300000_S3300000x1_0 : (⟨S3300000, .i32⟩ : BufTy).Contents (Elt F) → (⟨S3300000x1, .i32⟩ : BufTy).Contents (Elt F)),
    ternary main_v43 main_v44 main_v42 main_v45 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)) ]

/-- Bias, clamp at zero, the product with the second weights, and a second round. -/
abbrev opsC : List (HloOp τ sig (Elt F)) :=
  [ unary main_arg4 main_v46 (broadcastInDim S1x16 ![1] bcast_S16_S1x16_1 : (⟨S16, .f32⟩ : BufTy).Contents (Elt F) → (⟨S1x16, .f32⟩ : BufTy).Contents (Elt F)),
    unary main_v46 main_v47 (broadcastInDim S100000x16 ![0, 1] bcast_S1x16_S100000x16_0_1 : (⟨S1x16, .f32⟩ : BufTy).Contents (Elt F) → (⟨S100000x16, .f32⟩ : BufTy).Contents (Elt F)),
    binary main_v45 main_v47 main_v48 (addf : (⟨S100000x16, .f32⟩ : BufTy).Contents (Elt F) → (⟨S100000x16, .f32⟩ : BufTy).Contents (Elt F) → (⟨S100000x16, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x16, .f32⟩) main_call1_v0) (broadcastInDim S100000x16 ![] bcast_S_S100000x16),
    TRef.binary (TRef.of (T := ⟨S100000x16, .f32⟩) main_v48) (TRef.of (T := ⟨S100000x16, .f32⟩) main_call1_v0) (TRef.of (T := ⟨S100000x16, .f32⟩) main_v49) maximumf,
    binary main_v49 main_arg5 main_v50 ((fun l r => Host.dotGeneral dot_S100000x16_S16x2_S100000x2_1_0_0_1_n_n none l r) : (⟨S100000x16, .f32⟩ : BufTy).Contents (Elt F) → (⟨S16x2, .f32⟩ : BufTy).Contents (Elt F) → (⟨S100000x2, .f32⟩ : BufTy).Contents (Elt F)),
    unary main_v31 main_v51 (broadcastInDim S3300000x1 ![0] bcast_S3300000_S3300000x1_0 : (⟨S3300000, .f32⟩ : BufTy).Contents (Elt F) → (⟨S3300000x1, .f32⟩ : BufTy).Contents (Elt F)),
    nullary main_c_9 (constantI S_ 32 0#32),
    unary main_c_9 main_v52 (broadcastInDim S3300000 ![] bcast_S_S3300000 : (⟨S_, .i32⟩ : BufTy).Contents (Elt F) → (⟨S3300000, .i32⟩ : BufTy).Contents (Elt F)),
    binary main_v3 main_v52 main_v53 (cmpi .slt : (⟨S3300000, .i32⟩ : BufTy).Contents (Elt F) → (⟨S3300000, .i32⟩ : BufTy).Contents (Elt F) → (⟨S3300000, .i1⟩ : BufTy).Contents (Elt F)),
    nullary main_c_10 (constantI S_ 32 100000#32),
    unary main_c_10 main_v54 (broadcastInDim S3300000 ![] bcast_S_S3300000 : (⟨S_, .i32⟩ : BufTy).Contents (Elt F) → (⟨S3300000, .i32⟩ : BufTy).Contents (Elt F)),
    binary main_v3 main_v54 main_v55 (addi : (⟨S3300000, .i32⟩ : BufTy).Contents (Elt F) → (⟨S3300000, .i32⟩ : BufTy).Contents (Elt F) → (⟨S3300000, .i32⟩ : BufTy).Contents (Elt F)),
    ternary main_v53 main_v55 main_v3 main_v56 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v56 main_v57 (broadcastInDim S3300000x1 ![0] bcast_S3300000_S3300000x1_0 : (⟨S3300000, .i32⟩ : BufTy).Contents (Elt F) → (⟨S3300000x1, .i32⟩ : BufTy).Contents (Elt F)),
    binary main_v50 main_v57 main_v58 ((fun x i => Host.gather gather_S100000x2_S3300000x1_S3300000x2_1_0_n_n_0_1_12 x i) : (⟨S100000x2, .f32⟩ : BufTy).Contents (Elt F) → (⟨S3300000x1, .i32⟩ : BufTy).Contents (Elt F) → (⟨S3300000x2, .f32⟩ : BufTy).Contents (Elt F)),
    unary main_v51 main_v59 (broadcastInDim S3300000x2 ![0, 1] bcast_S3300000x1_S3300000x2_0_1 : (⟨S3300000x1, .f32⟩ : BufTy).Contents (Elt F) → (⟨S3300000x2, .f32⟩ : BufTy).Contents (Elt F)),
    binary main_v59 main_v58 main_v60 (mulf : (⟨S3300000x2, .f32⟩ : BufTy).Contents (Elt F) → (⟨S3300000x2, .f32⟩ : BufTy).Contents (Elt F) → (⟨S3300000x2, .f32⟩ : BufTy).Contents (Elt F)),
    nullary main_cst_11 (constant S_ .f32 0x00000000#32),
    unary main_cst_11 main_v61 (broadcastInDim S100000x2 ![] bcast_S_S100000x2 : (⟨S_, .f32⟩ : BufTy).Contents (Elt F) → (⟨S100000x2, .f32⟩ : BufTy).Contents (Elt F)),
    unary main_v6 main_v62 (broadcastInDim S3300000x1 ![0] bcast_S3300000_S3300000x1_0 : (⟨S3300000, .i32⟩ : BufTy).Contents (Elt F) → (⟨S3300000x1, .i32⟩ : BufTy).Contents (Elt F)),
    ternary main_v61 main_v62 main_v60 main_v63 ((fun x i u => Host.scatterAdd scatter_S100000x2_S3300000x1_S3300000x2_1_0_0_1 x i u) : (⟨S100000x2, .f32⟩ : BufTy).Contents (Elt F) → (⟨S3300000x1, .i32⟩ : BufTy).Contents (Elt F) → (⟨S3300000x2, .f32⟩ : BufTy).Contents (Elt F) → (⟨S100000x2, .f32⟩ : BufTy).Contents (Elt F)) ]

/-- Bias and the logarithm of the softmax along each row. -/
abbrev opsD : List (HloOp τ sig (Elt F)) :=
  [ unary main_arg6 main_v64 (broadcastInDim S1x2 ![1] bcast_S2_S1x2_1 : (⟨S2, .f32⟩ : BufTy).Contents (Elt F) → (⟨S1x2, .f32⟩ : BufTy).Contents (Elt F)),
    unary main_v64 main_v65 (broadcastInDim S100000x2 ![0, 1] bcast_S1x2_S100000x2_0_1 : (⟨S1x2, .f32⟩ : BufTy).Contents (Elt F) → (⟨S100000x2, .f32⟩ : BufTy).Contents (Elt F)),
    binary main_v63 main_v65 main_v66 (addf : (⟨S100000x2, .f32⟩ : BufTy).Contents (Elt F) → (⟨S100000x2, .f32⟩ : BufTy).Contents (Elt F) → (⟨S100000x2, .f32⟩ : BufTy).Contents (Elt F)),
    TRef.nullary (TRef.of (T := ⟨S_, .f32⟩) main_call2_cst) (constant S_ .f32 0xFF800000#32),
    TRef.binary (TRef.of (T := ⟨S100000x2, .f32⟩) main_v66) (TRef.of (T := ⟨S_, .f32⟩) main_call2_cst) (TRef.of (T := ⟨S100000, .f32⟩) main_call2_v0) (fun x v => Host.reduce FloatOps.maximumf x v reducesTo_S100000x2_S100000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf,
    TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x2, .f32⟩) main_call2_v4) (broadcastInDim S100000x2 ![0, 1] bcast_S100000x1_S100000x2_0_1),
    TRef.binary (TRef.of (T := ⟨S100000x2, .f32⟩) main_v66) (TRef.of (T := ⟨S100000x2, .f32⟩) main_call2_v4) (TRef.of (T := ⟨S100000x2, .f32⟩) main_call2_v5) subf,
    TRef.unary (TRef.of (T := ⟨S100000x2, .f32⟩) main_call2_v5) (TRef.of (T := ⟨S100000x2, .f32⟩) main_call2_v6) Host.exp,
    TRef.nullary (TRef.of (T := ⟨S_, .f32⟩) main_call2_cst_1) (constant S_ .f32 0x00000000#32),
    TRef.binary (TRef.of (T := ⟨S100000x2, .f32⟩) main_call2_v6) (TRef.of (T := ⟨S_, .f32⟩) main_call2_cst_1) (TRef.of (T := ⟨S100000, .f32⟩) main_call2_v7) (fun x v => Host.reduceAdd x v reducesTo_S100000x2_S100000_d1 h_S_),
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x2, .f32⟩) main_call2_v10) (broadcastInDim S100000x2 ![0, 1] bcast_S100000x1_S100000x2_0_1),
    TRef.binary (TRef.of (T := ⟨S100000x2, .f32⟩) main_call2_v5) (TRef.of (T := ⟨S100000x2, .f32⟩) main_call2_v10) (TRef.of (T := ⟨S100000x2, .f32⟩) main_v67) subf ]

theorem ops_split : (ops : List (HloOp τ sig (Elt F))) = opsA0 ++ (opsA1 ++ (opsA2 ++ (opsB ++ (opsC ++ opsD)))) := rfl

/-- Two lines run one after the other fold as one. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

end Cert.ReferenceIdeal.RefParts

end
-- ==== Proof.RefPre0a.lean ====
/-
  The reference's first part, read from any contents `W`: the edge lists with the self loops appended and the weights
  with a one per node, each as a function of the argument it is made from.
-/
import proofs.«154108_j87540023427398_1_alg».proof.Proof.RefParts
import proofs.«154108_j87540023427398_1_alg».proof.Proof.Chain
import Idealize.ShloMosaic.Lib.StableHlo.Run

set_option maxRecDepth 16384
set_option maxHeartbeats 8000000

noncomputable section

namespace Cert.ReferenceIdeal.RefPre0

open Cert.ReferenceIdeal Cert.ReferenceIdeal.Gen Cert.ReferenceIdeal.RefParts
open Idealize.ShloMosaic Idealize.ShloMosaic.TcCoe Idealize.SL.Sem Idealize.ShloMosaic.StableHlo
open Cert.Chain

variable (W : Valuation τ sig (Elt Ideal))

theorem p0_v3 : after (opsA0 (F := Ideal)) W (Proc.devRef .tc main_v3)
    = rowIdx (W (Proc.devRef .tc main_arg1)) := by
  dsimp only [opsA0]; after_results <;> rfl

theorem p0_v6 : after (opsA0 (F := Ideal)) W (Proc.devRef .tc main_v6)
    = colIdx (W (Proc.devRef .tc main_arg1)) := by
  dsimp only [opsA0]; after_results <;> rfl

theorem p0_v8 : after (opsA0 (F := Ideal)) W (Proc.devRef .tc main_v8)
    = wts (W (Proc.devRef .tc main_arg2)) := by
  dsimp only [opsA0]; after_results <;> rfl

end Cert.ReferenceIdeal.RefPre0

end
-- ==== Proof.RefPre0b.lean ====
/-
  The reference's first part, read from any contents `W`: the comparison of the degrees with zero, their reciprocal
  square roots and the scalar zero; and the part writes none of the five float parameters' arrays.
-/
import proofs.«154108_j87540023427398_1_alg».proof.Proof.RefParts
import proofs.«154108_j87540023427398_1_alg».proof.Proof.Chain
import Idealize.ShloMosaic.Lib.StableHlo.Run

set_option maxRecDepth 16384
set_option maxHeartbeats 8000000

noncomputable section

namespace Cert.ReferenceIdeal.RefPre0

open Cert.ReferenceIdeal Cert.ReferenceIdeal.Gen Cert.ReferenceIdeal.RefParts
open Idealize.ShloMosaic Idealize.ShloMosaic.TcCoe Idealize.SL.Sem Idealize.ShloMosaic.StableHlo
open Cert.Chain

variable (W : Valuation τ sig (Elt Ideal))

theorem p0_v13 : after (opsA0 (F := Ideal)) W (Proc.devRef .tc main_v13)
    = cmpf .ogt (deg (colIdx (W (Proc.devRef .tc main_arg1))) (wts (W (Proc.devRef .tc main_arg2)))) (broadcastInDim S100000 ![] bcast_S_S100000 (constant (F := Ideal) S_ .f32 0x00000000#32)) := by
  dsimp only [opsA0]; after_results <;> rfl

theorem p0_v14 : after (opsA0 (F := Ideal)) W (Proc.devRef .tc main_v14)
    = Host.rsqrt (F := Ideal) (deg (colIdx (W (Proc.devRef .tc main_arg1))) (wts (W (Proc.devRef .tc main_arg2)))) := by
  dsimp only [opsA0]; after_results <;> rfl

theorem p0_cst_2 : after (opsA0 (F := Ideal)) W (Proc.devRef .tc main_cst_2)
    = (constant (F := Ideal) S_ .f32 0x00000000#32) := by
  dsimp only [opsA0]; after_results <;> rfl

theorem p0_main_arg0 : after (opsA0 (F := Ideal)) W (Proc.devRef .tc main_arg0) = W (Proc.devRef .tc main_arg0) := by
  dsimp only [opsA0]; after_results_simp <;> rfl

theorem p0_main_arg3 : after (opsA0 (F := Ideal)) W (Proc.devRef .tc main_arg3) = W (Proc.devRef .tc main_arg3) := by
  dsimp only [opsA0]; after_results_simp <;> rfl

theorem p0_main_arg4 : after (opsA0 (F := Ideal)) W (Proc.devRef .tc main_arg4) = W (Proc.devRef .tc main_arg4) := by
  dsimp only [opsA0]; after_results_simp <;> rfl

theorem p0_main_arg5 : after (opsA0 (F := Ideal)) W (Proc.devRef .tc main_arg5) = W (Proc.devRef .tc main_arg5) := by
  dsimp only [opsA0]; after_results_simp <;> rfl

theorem p0_main_arg6 : after (opsA0 (F := Ideal)) W (Proc.devRef .tc main_arg6) = W (Proc.devRef .tc main_arg6) := by
  dsimp only [opsA0]; after_results_simp <;> rfl

end Cert.ReferenceIdeal.RefPre0

end
-- ==== Proof.RefPre1.lean ====
/-
  The reference's second and third parts, read from any contents `W`: the choice between the reciprocal square root and
  zero (an outlined function of three operations), and the edges' coefficients; and what each part leaves as it was.
-/
import proofs.«154108_j87540023427398_1_alg».proof.Proof.RefParts
import proofs.«154108_j87540023427398_1_alg».proof.Proof.Chain
import Idealize.ShloMosaic.Lib.StableHlo.Run

set_option maxRecDepth 16384
set_option maxHeartbeats 8000000

noncomputable section

namespace Cert.ReferenceIdeal.RefPre1

open Cert.ReferenceIdeal Cert.ReferenceIdeal.Gen Cert.ReferenceIdeal.RefParts
open Idealize.ShloMosaic Idealize.ShloMosaic.TcCoe Idealize.SL.Sem Idealize.ShloMosaic.StableHlo
open Cert.Chain

variable (W : Valuation τ sig (Elt Ideal))

theorem p1_v15 : after (opsA1 (F := Ideal)) W (Proc.devRef .tc main_v15)
    = select (W (Proc.devRef .tc main_v13)) (W (Proc.devRef .tc main_v14)) (broadcastInDim S100000 ![] bcast_S_S100000 (W (Proc.devRef .tc main_cst_2))) := by
  dsimp only [opsA1]; after_results <;> rfl

theorem p1_main_v3 : after (opsA1 (F := Ideal)) W (Proc.devRef .tc main_v3) = W (Proc.devRef .tc main_v3) := by
  dsimp only [opsA1]; after_results_simp <;> rfl

theorem p1_main_v6 : after (opsA1 (F := Ideal)) W (Proc.devRef .tc main_v6) = W (Proc.devRef .tc main_v6) := by
  dsimp only [opsA1]; after_results_simp <;> rfl

theorem p1_main_v8 : after (opsA1 (F := Ideal)) W (Proc.devRef .tc main_v8) = W (Proc.devRef .tc main_v8) := by
  dsimp only [opsA1]; after_results_simp <;> rfl

theorem p1_main_arg0 : after (opsA1 (F := Ideal)) W (Proc.devRef .tc main_arg0) = W (Proc.devRef .tc main_arg0) := by
  dsimp only [opsA1]; after_results_simp <;> rfl

theorem p1_main_arg3 : after (opsA1 (F := Ideal)) W (Proc.devRef .tc main_arg3) = W (Proc.devRef .tc main_arg3) := by
  dsimp only [opsA1]; after_results_simp <;> rfl

theorem p1_main_arg4 : after (opsA1 (F := Ideal)) W (Proc.devRef .tc main_arg4) = W (Proc.devRef .tc main_arg4) := by
  dsimp only [opsA1]; after_results_simp <;> rfl

theorem p1_main_arg5 : after (opsA1 (F := Ideal)) W (Proc.devRef .tc main_arg5) = W (Proc.devRef .tc main_arg5) := by
  dsimp only [opsA1]; after_results_simp <;> rfl

theorem p1_main_arg6 : after (opsA1 (F := Ideal)) W (Proc.devRef .tc main_arg6) = W (Proc.devRef .tc main_arg6) := by
  dsimp only [opsA1]; after_results_simp <;> rfl

theorem p2_v31 : after (opsA2 (F := Ideal)) W (Proc.devRef .tc main_v31)
    = norm (W (Proc.devRef .tc main_v3)) (W (Proc.devRef .tc main_v6)) (W (Proc.devRef .tc main_v8)) (W (Proc.devRef .tc main_v15)) := by
  dsimp only [opsA2]; after_results_simp <;> rfl

theorem p2_main_v3 : after (opsA2 (F := Ideal)) W (Proc.devRef .tc main_v3) = W (Proc.devRef .tc main_v3) := by
  dsimp only [opsA2]; after_results_simp <;> rfl

theorem p2_main_v6 : after (opsA2 (F := Ideal)) W (Proc.devRef .tc main_v6) = W (Proc.devRef .tc main_v6) := by
  dsimp only [opsA2]; after_results_simp <;> rfl

theorem p2_main_arg0 : after (opsA2 (F := Ideal)) W (Proc.devRef .tc main_arg0) = W (Proc.devRef .tc main_arg0) := by
  dsimp only [opsA2]; after_results_simp <;> rfl

theorem p2_main_arg3 : after (opsA2 (F := Ideal)) W (Proc.devRef .tc main_arg3) = W (Proc.devRef .tc main_arg3) := by
  dsimp only [opsA2]; after_results_simp <;> rfl

theorem p2_main_arg4 : after (opsA2 (F := Ideal)) W (Proc.devRef .tc main_arg4) = W (Proc.devRef .tc main_arg4) := by
  dsimp only [opsA2]; after_results_simp <;> rfl

theorem p2_main_arg5 : after (opsA2 (F := Ideal)) W (Proc.devRef .tc main_arg5) = W (Proc.devRef .tc main_arg5) := by
  dsimp only [opsA2]; after_results_simp <;> rfl

theorem p2_main_arg6 : after (opsA2 (F := Ideal)) W (Proc.devRef .tc main_arg6) = W (Proc.devRef .tc main_arg6) := by
  dsimp only [opsA2]; after_results_simp <;> rfl

end Cert.ReferenceIdeal.RefPre1

end
-- ==== Proof.RefDense.lean ====
/-
  The reference's dense steps, in the host's spelling, and what each is over the extended reals. The contraction of the
  node features with the first weights is their matrix product. The first bias broadcast in two steps and added, a maximum
  against a broadcast zero, and the contraction with the second weights, is the product of the clamped biased matrix with
  those weights. The second bias broadcast and added, then the host's logarithm of the row softmax — the row maximum by a
  reduction from minus infinity and one more maximum against minus infinity, the row sum of the exponentials from zero,
  both broadcast back in two steps — is the logarithm of the row softmax of the biased matrix.
-/
import proofs.«154108_j87540023427398_1_alg».proof.Proof.Gen.ReferenceIdeal
import proofs.«154108_j87540023427398_1_alg».proof.Proof.LibMatProd
import proofs.«154108_j87540023427398_1_alg».proof.Proof.LibBiasRelu
import proofs.«154108_j87540023427398_1_alg».proof.Proof.LibRowBias

set_option maxRecDepth 16384

noncomputable section

namespace Cert.ReferenceIdeal.RefDense

open Cert.ReferenceIdeal Cert.ReferenceIdeal.Gen
open Idealize.ShloMosaic
open Cert.LibMatProd Cert.LibBiasRelu Cert.LibRowBias Cert.RowLogSoftmax

/-- The product of the node features with the first weights, as the host contracts it. -/
def dense1 (x0 : FVec Ideal S100000x37 .f32) (x3 : FVec Ideal S37x16 .f32) : FVec Ideal S100000x16 .f32 :=
  Host.dotGeneral (F := Ideal) dot_S100000x37_S37x16_S100000x16_1_0_0_1_n_n none x0 x3

/-- Bias broadcast in two steps, a maximum against a broadcast zero, and the contraction with the second weights. -/
def dense2 (a : FVec Ideal S100000x16 .f32) (x4 : FVec Ideal S16 .f32) (x5 : FVec Ideal S16x2 .f32) : FVec Ideal S100000x2 .f32 :=
  Host.dotGeneral (F := Ideal) dot_S100000x16_S16x2_S100000x2_1_0_0_1_n_n none
    (maximumf (addf a (broadcastInDim S100000x16 ![0, 1] bcast_S1x16_S100000x16_0_1 (broadcastInDim S1x16 ![1] bcast_S16_S1x16_1 x4)))
      (broadcastInDim S100000x16 ![] bcast_S_S100000x16 (constant (F := Ideal) S_ .f32 0x00000000#32))) x5

/-- The host's logarithm of the row softmax. -/
def hostLogSoftmax (v : FVec Ideal S100000x2 .f32) : FVec Ideal S100000x2 .f32 :=
  subf (subf v (broadcastInDim S100000x2 ![0, 1] bcast_S100000x1_S100000x2_0_1 (broadcastInDim S100000x1 ![0] bcast_S100000_S100000x1_0
        (maximumf (broadcastInDim S100000 ![] bcast_S_S100000 (constant (F := Ideal) S_ .f32 0xFF800000#32))
          (Host.reduce (FloatOps.maximumf (F := Ideal) (φ := .f32)) v (constant (F := Ideal) S_ .f32 0xFF800000#32) reducesTo_S100000x2_S100000_d1 h_S_)))))
    (broadcastInDim S100000x2 ![0, 1] bcast_S100000x1_S100000x2_0_1 (Host.log (F := Ideal) (broadcastInDim S100000x1 ![0] bcast_S100000_S100000x1_0
      (Host.reduceAdd (F := Ideal)
        (Host.exp (F := Ideal) (subf v (broadcastInDim S100000x2 ![0, 1] bcast_S100000x1_S100000x2_0_1 (broadcastInDim S100000x1 ![0] bcast_S100000_S100000x1_0
          (maximumf (broadcastInDim S100000 ![] bcast_S_S100000 (constant (F := Ideal) S_ .f32 0xFF800000#32))
            (Host.reduce (FloatOps.maximumf (F := Ideal) (φ := .f32)) v (constant (F := Ideal) S_ .f32 0xFF800000#32) reducesTo_S100000x2_S100000_d1 h_S_))))))
        (constant (F := Ideal) S_ .f32 0x00000000#32) reducesTo_S100000x2_S100000_d1 h_S_))))

/-- The second bias broadcast in two steps and added, then the logarithm of the row softmax. -/
def out (a : FVec Ideal S100000x2 .f32) (x6 : FVec Ideal S2 .f32) : FVec Ideal S100000x2 .f32 :=
  hostLogSoftmax (addf a (broadcastInDim S100000x2 ![0, 1] bcast_S1x2_S100000x2_0_1 (broadcastInDim S1x2 ![1] bcast_S2_S1x2_1 x6)))

theorem dense1_eq (x0 : FVec Ideal S100000x37 .f32) (x3 : FVec Ideal S37x16 .f32) :
    dense1 x0 x3 = matProd (M := 100000) (K := 37) (N := 16) x0 x3 :=
  host_dot_eq (M := 100000) (K := 37) (N := 16) dot_S100000x37_S37x16_S100000x16_1_0_0_1_n_n rfl rfl rfl rfl rfl rfl x0 x3

theorem dense2_eq (a : FVec Ideal S100000x16 .f32) (x4 : FVec Ideal S16 .f32) (x5 : FVec Ideal S16x2 .f32) :
    dense2 a x4 x5 = matProd (M := 100000) (K := 16) (N := 2) (biasRelu (M := 100000) (N := 16) a (rowOf (N := 16) x4)) x5 := by
  unfold dense2
  rw [rowOf_bcast (N := 16) x4 bcast_S16_S1x16_1]
  rw [host_form (M := 100000) (N := 16) a (rowOf (N := 16) x4) bcast_S1x16_S100000x16_0_1 bcast_S_S100000x16]
  exact host_dot_eq (M := 100000) (K := 16) (N := 2) dot_S100000x16_S16x2_S100000x2_1_0_0_1_n_n rfl rfl rfl rfl rfl rfl _ x5

theorem out_eq (a : FVec Ideal S100000x2 .f32) (x6 : FVec Ideal S2 .f32) :
    out a x6 = logSoftmax (M := 100000) (N := 2) (addRow (M := 100000) (N := 2) a (rowOf (N := 2) x6)) := by
  unfold out
  rw [rowOf_bcast (N := 2) x6 bcast_S2_S1x2_1, addRow_host_form (M := 100000) (N := 2) a (rowOf (N := 2) x6) bcast_S1x2_S100000x2_0_1]
  exact Cert.RowLogSoftmax.host_form (M := 100000) (N := 2) _ reducesTo_S100000x2_S100000_d1 (by decide) h_S_
    bcast_S_S100000 bcast_S100000_S100000x1_0 bcast_S100000x1_S100000x2_0_1

end Cert.ReferenceIdeal.RefDense

end
-- ==== Proof.LibTypedRef.lean ====
/-
  Typed references: the two transports are inverse.

  A host function outlined by the tracer (a `where`, a `relu`, a `log_softmax`) is printed over typed references: each of
  its operations carries its operands from their buffers' own types to the values' types (`ofBuf`) and its result back
  (`toBuf`), both casts along the reference's type equation. Reading a chain of such operations back therefore leaves
  `ofBuf (toBuf v)` around every intermediate value; this is `v`, for any typed reference and any contents: the two
  casts are along one equation and its inverse.
-/
import Idealize.ShloMosaic.Lib.StableHlo

namespace Cert.Lib

open Idealize.ShloMosaic Idealize.ShloMosaic.StableHlo

variable {sig : RefSig} {Val : EltTy → Type} {T : BufTy}

/-- Contents carried to the buffer's own type and back are unchanged. -/
theorem ofBuf_toBuf (x : TRef sig T) (v : T.Contents Val) : x.ofBuf (x.toBuf v) = v := by
  obtain ⟨r, rfl, _, _⟩ := x
  rfl

/-- Contents of the buffer carried to the value's type and back are unchanged. -/
theorem toBuf_ofBuf (x : TRef sig T) (v : x.ref.ty.Contents Val) : x.toBuf (x.ofBuf v) = v := by
  obtain ⟨r, rfl, _, _⟩ := x
  rfl

end Cert.Lib
-- ==== Proof.RefMid.lean ====
/-
  The reference's last three parts, read from any contents `W`: the product with the first weights and one round of
  message passing; bias, clamp, the product with the second weights and a second round; bias and the logarithm of the row
  softmax. The rounds are the chain of operations the kernel's host stretches apply; the dense steps are in the host's
  spelling. What the first two of these parts leave as it was is read too.
-/
import proofs.«154108_j87540023427398_1_alg».proof.Proof.RefParts
import proofs.«154108_j87540023427398_1_alg».proof.Proof.Chain
import proofs.«154108_j87540023427398_1_alg».proof.Proof.RefDense
import proofs.«154108_j87540023427398_1_alg».proof.Proof.LibTypedRef
import Idealize.ShloMosaic.Lib.StableHlo.Run

set_option maxRecDepth 16384
set_option maxHeartbeats 8000000

noncomputable section

namespace Cert.ReferenceIdeal.RefMid

open Cert.ReferenceIdeal Cert.ReferenceIdeal.Gen Cert.ReferenceIdeal.RefParts
open Idealize.ShloMosaic Idealize.ShloMosaic.TcCoe Idealize.SL.Sem Idealize.ShloMosaic.StableHlo
open Cert.Chain
open Cert.ReferenceIdeal.RefDense

variable (W : Valuation τ sig (Elt Ideal))

theorem b_v45 : after (opsB (F := Ideal)) W (Proc.devRef .tc main_v45)
    = agg16 (W (Proc.devRef .tc main_v3)) (W (Proc.devRef .tc main_v6)) (W (Proc.devRef .tc main_v31)) (dense1 (W (Proc.devRef .tc main_arg0)) (W (Proc.devRef .tc main_arg3))) := by
  dsimp only [opsB]; after_results_simp <;> rfl

theorem b_main_v3 : after (opsB (F := Ideal)) W (Proc.devRef .tc main_v3) = W (Proc.devRef .tc main_v3) := by
  dsimp only [opsB]; after_results_simp <;> rfl

theorem b_main_v6 : after (opsB (F := Ideal)) W (Proc.devRef .tc main_v6) = W (Proc.devRef .tc main_v6) := by
  dsimp only [opsB]; after_results_simp <;> rfl

theorem b_main_v31 : after (opsB (F := Ideal)) W (Proc.devRef .tc main_v31) = W (Proc.devRef .tc main_v31) := by
  dsimp only [opsB]; after_results_simp <;> rfl

theorem b_main_arg4 : after (opsB (F := Ideal)) W (Proc.devRef .tc main_arg4) = W (Proc.devRef .tc main_arg4) := by
  dsimp only [opsB]; after_results_simp <;> rfl

theorem b_main_arg5 : after (opsB (F := Ideal)) W (Proc.devRef .tc main_arg5) = W (Proc.devRef .tc main_arg5) := by
  dsimp only [opsB]; after_results_simp <;> rfl

theorem b_main_arg6 : after (opsB (F := Ideal)) W (Proc.devRef .tc main_arg6) = W (Proc.devRef .tc main_arg6) := by
  dsimp only [opsB]; after_results_simp <;> rfl

theorem c_v63 : after (opsC (F := Ideal)) W (Proc.devRef .tc main_v63)
    = agg2 (W (Proc.devRef .tc main_v3)) (W (Proc.devRef .tc main_v6)) (W (Proc.devRef .tc main_v31)) (dense2 (W (Proc.devRef .tc main_v45)) (W (Proc.devRef .tc main_arg4)) (W (Proc.devRef .tc main_arg5))) := by
  dsimp only [opsC]; after_results_simp <;> rfl

theorem c_main_arg6 : after (opsC (F := Ideal)) W (Proc.devRef .tc main_arg6) = W (Proc.devRef .tc main_arg6) := by
  dsimp only [opsC]; after_results_simp <;> rfl

theorem d_v67 : after (opsD (F := Ideal)) W (Proc.devRef .tc main_v67)
    = out (W (Proc.devRef .tc main_v63)) (W (Proc.devRef .tc main_arg6)) := by
  dsimp only [opsD]; after_results_simp
  simp only [Cert.Lib.ofBuf_toBuf]
  rfl

end Cert.ReferenceIdeal.RefMid

end
-- ==== Proof.RefKeeps.lean ====
/-
  No operation of the reference's line writes an argument array: after the whole line each of the seven holds what it held
  before, from any contents `W`.
-/
import proofs.«154108_j87540023427398_1_alg».proof.Proof.RefRun
import Idealize.ShloMosaic.Lib.StableHlo.Run
import Idealize.ShloMosaic.PureOps.Ideal

set_option maxRecDepth 16384
set_option maxHeartbeats 8000000

noncomputable section

namespace Cert.ReferenceIdeal.RefKeeps

open Cert.ReferenceIdeal Cert.ReferenceIdeal.Gen Cert.ReferenceIdeal.RunP
open Idealize.ShloMosaic Idealize.ShloMosaic.TcCoe Idealize.SL.Sem Idealize.ShloMosaic.StableHlo

variable (W : Valuation τ sig (Elt Ideal))

theorem keep_arg0 : after (ops (F := Ideal)) W (Proc.devRef .tc main_arg0) = W (Proc.devRef .tc main_arg0) := by
  dsimp only [ops]; after_results_simp <;> rfl

theorem keep_arg1 : after (ops (F := Ideal)) W (Proc.devRef .tc main_arg1) = W (Proc.devRef .tc main_arg1) := by
  dsimp only [ops]; after_results_simp <;> rfl

theorem keep_arg2 : after (ops (F := Ideal)) W (Proc.devRef .tc main_arg2) = W (Proc.devRef .tc main_arg2) := by
  dsimp only [ops]; after_results_simp <;> rfl

theorem keep_arg3 : after (ops (F := Ideal)) W (Proc.devRef .tc main_arg3) = W (Proc.devRef .tc main_arg3) := by
  dsimp only [ops]; after_results_simp <;> rfl

theorem keep_arg4 : after (ops (F := Ideal)) W (Proc.devRef .tc main_arg4) = W (Proc.devRef .tc main_arg4) := by
  dsimp only [ops]; after_results_simp <;> rfl

theorem keep_arg5 : after (ops (F := Ideal)) W (Proc.devRef .tc main_arg5) = W (Proc.devRef .tc main_arg5) := by
  dsimp only [ops]; after_results_simp <;> rfl

theorem keep_arg6 : after (ops (F := Ideal)) W (Proc.devRef .tc main_arg6) = W (Proc.devRef .tc main_arg6) := by
  dsimp only [ops]; after_results_simp <;> rfl

end Cert.ReferenceIdeal.RefKeeps

end
-- ==== Proof.RefValue.lean ====
/-
  The idealized reference's result as one function of the arguments. The reference is a straight line of host operations;
  after it every buffer holds the fold of the operations over the launch memory. Part by part, from the last: the logarithm of
  the row softmax of the biased second round; the second round over the product, with the second weights, of the clamped
  biased first round; the first round over the product of the node features with the first weights; the edge lists and
  coefficients from the two graph arguments. With the dense steps read as the three layer functions: the network of `Chain`.
-/
import proofs.«154108_j87540023427398_1_alg».proof.Proof.RefParts
import proofs.«154108_j87540023427398_1_alg».proof.Proof.RefPre0a
import proofs.«154108_j87540023427398_1_alg».proof.Proof.RefPre0b
import proofs.«154108_j87540023427398_1_alg».proof.Proof.RefPre1
import proofs.«154108_j87540023427398_1_alg».proof.Proof.RefMid
import proofs.«154108_j87540023427398_1_alg».proof.Proof.RefDense
import proofs.«154108_j87540023427398_1_alg».proof.Proof.RefKeeps
import proofs.«154108_j87540023427398_1_alg».proof.Proof.Chain
import Idealize.ShloMosaic.Lib.StableHlo.Run

set_option maxRecDepth 16384
set_option maxHeartbeats 8000000

noncomputable section

namespace Cert.ReferenceIdeal.RefValue

open Cert.ReferenceIdeal Cert.ReferenceIdeal.Gen Cert.ReferenceIdeal.RunP Cert.ReferenceIdeal.RefParts
open Idealize.ShloMosaic Idealize.ShloMosaic.TcCoe Idealize.SL.Sem Idealize.ShloMosaic.StableHlo
open Cert.Chain Cert.LibMatProd Cert.LibBiasRelu Cert.LibRowBias Cert.RowLogSoftmax
open Cert.ReferenceIdeal.RefPre0 Cert.ReferenceIdeal.RefPre1 Cert.ReferenceIdeal.RefMid Cert.ReferenceIdeal.RefDense Cert.ReferenceIdeal.RefKeeps

/-- The result buffer after the whole line, from any contents: the network of the seven argument arrays. -/
theorem result_eq (W : Valuation τ sig (Elt Ideal)) : after (ops (F := Ideal)) W (Proc.devRef .tc main_v67)
    = network (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) := by
  rw [ops_split, after_append, after_append, after_append, after_append, after_append]
  rw [d_v67, c_v63, c_main_arg6, b_v45, b_main_v3, b_main_v6, b_main_v31, b_main_arg4, b_main_arg5, b_main_arg6]
  rw [p2_v31, p2_main_v3, p2_main_v6, p2_main_arg0, p2_main_arg3, p2_main_arg4, p2_main_arg5, p2_main_arg6]
  rw [p1_v15, p1_main_v3, p1_main_v6, p1_main_v8, p1_main_arg0, p1_main_arg3, p1_main_arg4, p1_main_arg5, p1_main_arg6]
  rw [p0_v3, p0_v6, p0_v8, p0_v13, p0_v14, p0_cst_2, p0_main_arg0, p0_main_arg3, p0_main_arg4, p0_main_arg5, p0_main_arg6]
  rw [dense1_eq, dense2_eq, out_eq]
  rfl

variable (m : (ℓ : Loc nD τ sig) → Buf (Elt Ideal) ℓ) (ρ : Dev nD → PrngReg)

/-- The idealized reference's run: every weakly fair execution terminates without a fault, the result buffer at the network
    of the argument arrays, and these as launched. -/
theorem run : θ_run defs (onTc (τ := τ) (main (F := Ideal))) ⟨m, fun _ => 0, ρ⟩ (fun r => ∀ c : Dev nD,
      r.2.mem ((c.tc : Thread nD τ).loc main_v67)
        = network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c main_v67).trans (result_eq (launchContents m c)),
      (h c main_arg0).trans (keep_arg0 (launchContents m c)),
      (h c main_arg1).trans (keep_arg1 (launchContents m c)),
      (h c main_arg2).trans (keep_arg2 (launchContents m c)),
      (h c main_arg3).trans (keep_arg3 (launchContents m c)),
      (h c main_arg4).trans (keep_arg4 (launchContents m c)),
      (h c main_arg5).trans (keep_arg5 (launchContents m c)),
      (h c main_arg6).trans (keep_arg6 (launchContents m c))⟩)
    (run_seq scopedRefs_eq scopedSems_eq defs main (fun _ => ops) main_eq (fun _ => ops_sub) m ρ)

end Cert.ReferenceIdeal.RefValue

end
-- ==== Proof.lean ====
/-
  The certificate of a two-layer graph convolution network on 100000 nodes and 3200000 weighted edges (a self loop added
  per node, the edges' coefficients the symmetric normalisation by the degrees). Both programs compute

      log_softmax ( A · ( relu ( A · (x W1) + b1 ) W2 ) + b2 )      along each row,

  where A · h is one round of message passing (gather the source row of every edge, scale it by the edge's coefficient,
  add it into the target row). The kernel computes the three dense steps — x W1; relu (· + b1) W2; log_softmax (· + b2) — in
  three row-tiled regions of ten blocks of 10000 rows, the matrix products with both operands narrowed to bf16 into a zero
  accumulator, and the graph steps by host operations between the regions; the reference computes everything by host
  operations. Over the extended reals narrowing is the identity, a matrix-unit product into zeros is the contraction, a row of
  each dense step depends on the same row of its operand only (so the ten blocks are one whole-array function), and the
  host's extra maximum against minus infinity and sum from zero change nothing. The graph steps are the same operations
  on both sides and are never opened. No finiteness of the inputs is used.

  The three frames: the kernel's two are the generated frame certificates; the reference's is its run with the result
  dropped. The idealization rewrote nothing, so `preserves` is trivial. `algebraic`: both runs end with the result at the
  one function `Cert.Chain.network` of the argument arrays (KernelValue.lean, RefValue.lean), and the arguments agree.
-/
import proofs.«154108_j87540023427398_1_alg».proof.Defs
import proofs.«154108_j87540023427398_1_alg».proof.Proof.Gen.Kernel
import proofs.«154108_j87540023427398_1_alg».proof.Proof.Gen.Kernel.Skeleton
import proofs.«154108_j87540023427398_1_alg».proof.Proof.Gen.Kernel.Launch
import proofs.«154108_j87540023427398_1_alg».proof.Proof.Gen.Kernel.Points
import proofs.«154108_j87540023427398_1_alg».proof.Proof.Gen.Kernel.Frame
import proofs.«154108_j87540023427398_1_alg».proof.Proof.Gen.KernelIdeal
import proofs.«154108_j87540023427398_1_alg».proof.Proof.Gen.KernelIdeal.Skeleton
import proofs.«154108_j87540023427398_1_alg».proof.Proof.Gen.KernelIdeal.Launch
import proofs.«154108_j87540023427398_1_alg».proof.Proof.Gen.KernelIdeal.Points
import proofs.«154108_j87540023427398_1_alg».proof.Proof.Gen.KernelIdeal.Frame
import proofs.«154108_j87540023427398_1_alg».proof.Proof.Gen.ReferenceIdeal
import proofs.«154108_j87540023427398_1_alg».proof.Proof.Gen.Pre_finite_inputs
import proofs.«154108_j87540023427398_1_alg».proof.Proof.KernelValue
import proofs.«154108_j87540023427398_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefValue.run m ρ)

/-- The idealization rewrote no operation. -/
theorem preserves : Cert.preserves_Kernel_KernelIdeal := trivial

/-- Both runs end with the result at the network of their argument arrays, and the arguments agree. -/
theorem algebraic : Cert.algebraic_KernelIdeal_ReferenceIdeal := by
  intro m ρ m' ρ' _ hagree
  refine ⟨fun c => Cert.Chain.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.KernelIdeal.KernelValue.run m ρ, ?_⟩
  refine (θ_run Cert.ReferenceIdeal.defs _ _).mono (fun _ h c => ⟨(h c).1.trans ?_, (h c).2⟩)
    (Cert.ReferenceIdeal.RefValue.run m' ρ')
  obtain ⟨h0, h1, h2, h3, h4, h5, h6⟩ := hagree c
  rw [h0, h1, h2, h3, h4, h5, h6]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
